-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v79_0)) (v1 : (c : Dev Cert.KernelIdeal.nD) → Buf (Elt Ideal) ((c.tc : Thread Cert.KernelIdeal.nD Cert.KernelIdeal.τ).loc Cert.KernelIdeal.main_v79_1)) (v2 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79_0) = v0 c
          ∧ r.2.mem ((c.tc : Thread Cert.KernelIdeal.nD Cert.KernelIdeal.τ).loc Cert.KernelIdeal.main_v79_1) = v1 c
          ∧ r.2.mem ((c.tc : Thread Cert.KernelIdeal.nD Cert.KernelIdeal.τ).loc Cert.KernelIdeal.main_v80) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v196) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S1024x4 : Shape := ⟨2, ![1024, 4]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_

variable [Facts]

def fn {F : FTy → Type} [FloatOps F] (main_arg0 : FVec F S16384x4096 .f32) (main_arg1 : FVec F S1024x4 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  main_v8
-- ==== Kernel.lean ====
abbrev S16384x4096 : Shape := ⟨2, ![16384, 4096]⟩
abbrev S1024x4 : Shape := ⟨2, ![1024, 4]⟩
abbrev S1024x1 : Shape := ⟨2, ![1024, 1]⟩
abbrev S1024 : Shape := ⟨1, ![1024]⟩
abbrev S_ : Shape := ⟨0, ![]⟩
abbrev S4096 : Shape := ⟨1, ![4096]⟩
abbrev S1x4096 : Shape := ⟨2, ![1, 4096]⟩
abbrev S7x4096 : Shape := ⟨2, ![7, 4096]⟩
abbrev S6x4096 : Shape := ⟨2, ![6, 4096]⟩
abbrev S14x4096 : Shape := ⟨2, ![14, 4096]⟩
abbrev S32x32 : Shape := ⟨2, ![32, 32]⟩
abbrev S32x128x32 : Shape := ⟨3, ![32, 128, 32]⟩
abbrev S4096x32 : Shape := ⟨2, ![4096, 32]⟩
abbrev S32x4096 : Shape := ⟨2, ![32, 4096]⟩
abbrev S16384x32 : Shape := ⟨2, ![16384, 32]⟩
abbrev S16384x1 : Shape := ⟨2, ![16384, 1]⟩
abbrev S128x4096 : Shape := ⟨2, ![128, 4096]⟩
abbrev S128x32 : Shape := ⟨2, ![128, 32]⟩
abbrev S128x1 : Shape := ⟨2, ![128, 1]⟩
abbrev S128 : Shape := ⟨1, ![128]⟩
abbrev S16384 : Shape := ⟨1, ![16384]⟩

abbrev nBuf : Space → Nat
  | .hbm => 87
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S1024x4, .f32⟩
  | .hbm, ⟨2, _⟩ => ⟨S1024x1, .f32⟩
  | .hbm, ⟨3, _⟩ => ⟨S1024, .f32⟩
  | .hbm, ⟨4, _⟩ => ⟨S1024x1, .f32⟩
  | .hbm, ⟨5, _⟩ => ⟨S1024, .f32⟩
  | .hbm, ⟨6, _⟩ => ⟨S1024x1, .f32⟩
  | .hbm, ⟨7, _⟩ => ⟨S1024, .f32⟩
  | .hbm, ⟨8, _⟩ => ⟨S1024x1, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x4, .f32⟩
  | .hbm, ⟨17, _⟩ => ⟨S4096, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024x1, .f32⟩
  | .hbm, ⟨22, _⟩ => ⟨S1024x1, .f32⟩
  | .hbm, ⟨23, _⟩ => ⟨S1024x1, .f32⟩
  | .hbm, ⟨24, _⟩ => ⟨S1024x1, .f32⟩
  | .hbm, ⟨25, _⟩ => ⟨S1024x4, .f32⟩
  | .hbm, ⟨26, _⟩ => ⟨S4096, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x4, .f32⟩
  | .hbm, ⟨32, _⟩ => ⟨S4096, .f32⟩
  | .hbm, ⟨33, _⟩ => ⟨S1024, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S1024x1, .f32⟩
  | .hbm, ⟨38, _⟩ => ⟨S1024x4, .f32⟩
  | .hbm, ⟨39, _⟩ => ⟨S4096, .f32⟩
  | .hbm, ⟨40, _⟩ => ⟨S1024, .f32⟩
  | .hbm, ⟨41, _⟩ => ⟨S1024x1, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S1024x4, .f32⟩
  | .hbm, ⟨46, _⟩ => ⟨S4096, .f32⟩
  | .hbm, ⟨47, _⟩ => ⟨S1024, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x1, .f32⟩
  | .hbm, ⟨52, _⟩ => ⟨S1024x4, .f32⟩
  | .hbm, ⟨53, _⟩ => ⟨S4096, .f32⟩
  | .hbm, ⟨54, _⟩ => ⟨S1024x1, .f32⟩
  | .hbm, ⟨55, _⟩ => ⟨S1024x1, .f32⟩
  | .hbm, ⟨56, _⟩ => ⟨S1024x1, .f32⟩
  | .hbm, ⟨57, _⟩ => ⟨S1024x1, .f32⟩
  | .hbm, ⟨58, _⟩ => ⟨S1024x4, .f32⟩
  | .hbm, ⟨59, _⟩ => ⟨S4096, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x4096, .f32⟩
  | .hbm, ⟨66, _⟩ => ⟨S1x4096, .f32⟩
  | .hbm, ⟨67, _⟩ => ⟨S7x4096, .f32⟩
  | .hbm, ⟨68, _⟩ => ⟨S1x4096, .f32⟩
  | .hbm, ⟨69, _⟩ => ⟨S6x4096, .f32⟩
  | .hbm, ⟨70, _⟩ => ⟨S6x4096, .f32⟩
  | .hbm, ⟨71, _⟩ => ⟨S7x4096, .f32⟩
  | .hbm, ⟨72, _⟩ => ⟨S14x4096, .f32⟩
  | .hbm, ⟨73, _⟩ => ⟨S32x32, .i32⟩
  | .hbm, ⟨74, _⟩ => ⟨S32x32, .i32⟩
  | .hbm, ⟨75, _⟩ => ⟨S_, .i32⟩
  | .hbm, ⟨76, _⟩ => ⟨S32x32, .i32⟩
  | .hbm, ⟨77, _⟩ => ⟨S32x32, .i32⟩
  | .hbm, ⟨78, _⟩ => ⟨S32x32, .i1⟩
  | .hbm, ⟨79, _⟩ => ⟨S32x32, .f32⟩
  | .hbm, ⟨80, _⟩ => ⟨S32x128x32, .f32⟩
  | .hbm, ⟨81, _⟩ => ⟨S4096x32, .f32⟩
  | .hbm, ⟨82, _⟩ => ⟨S32x4096, .f32⟩
  | .hbm, ⟨83, _⟩ => ⟨S16384x4096, .f32⟩
  | .hbm, ⟨84, _⟩ => ⟨S16384x32, .f32⟩
  | .hbm, ⟨85, _⟩ => ⟨S16384x1, .f32⟩
  | .hbm, ⟨86, _⟩ => ⟨S16384, .f32⟩
  | .local _ .vmem, ⟨0, _⟩ => ⟨S128x4096, .f32⟩
  | .local _ .vmem, ⟨1, _⟩ => ⟨S128x4096, .f32⟩
  | .local _ .vmem, ⟨2, _⟩ => ⟨S14x4096, .f32⟩
  | .local _ .vmem, ⟨3, _⟩ => ⟨S4096x32, .f32⟩
  | .local _ .vmem, ⟨4, _⟩ => ⟨S32x4096, .f32⟩
  | .local _ .vmem, ⟨5, _⟩ => ⟨S128x4096, .f32⟩
  | .local _ .vmem, ⟨6, _⟩ => ⟨S128x4096, .f32⟩
  | .local _ .vmem, ⟨7, _⟩ => ⟨S128x32, .f32⟩
  | .local _ .vmem, ⟨8, _⟩ => ⟨S128x32, .f32⟩
  | .local _ .vmem, ⟨9, _⟩ => ⟨S128x1, .f32⟩
  | .local _ .vmem, ⟨10, _⟩ => ⟨S128x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_c : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79_0 : Ref sig .tc := ⟨.hbm, 83, rfl⟩
abbrev main_v79_1 : Ref sig .tc := ⟨.hbm, 84, rfl⟩
abbrev main_v79_2 : Ref sig .tc := ⟨.hbm, 85, rfl⟩
abbrev main_v80 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x1_S1024x1_S1024x4_d1 : Shape.Concatenates [S1024x1, S1024x1, S1024x1, S1024x1] S1024x4 1
  shapeCasts_S1024x4_S4096 : S1024x4.ShapeCasts S4096
  bcast_S4096_S1x4096_1 : S4096.BroadcastsInDim S1x4096 (![1] : Fin 1 → Fin S1x4096.rank)
  concatenates_S1x4096_S1x4096_S1x4096_S1x4096_S1x4096_S1x4096_S1x4096_S7x4096_d0 : Shape.Concatenates [S1x4096, S1x4096, S1x4096, S1x4096, S1x4096, S1x4096, S1x4096] S7x4096 0
  slices_S7x4096_S6x4096_1_0 : S7x4096.Slices ![1, 0] S6x4096
  concatenates_S1x4096_S6x4096_S7x4096_d0 : Shape.Concatenates [S1x4096, S6x4096] S7x4096 0
  concatenates_S7x4096_S7x4096_S14x4096_d0 : Shape.Concatenates [S7x4096, S7x4096] S14x4096 0
  bcast_S_S32x32 : S_.BroadcastsInDim S32x32 (![] : Fin 0 → Fin S32x32.rank)
  bcast_S32x32_S32x128x32_0_2 : S32x32.BroadcastsInDim S32x128x32 (![0, 2] : Fin 2 → Fin S32x128x32.rank)
  shapeCasts_S32x128x32_S4096x32 : S32x128x32.ShapeCasts S4096x32
  transposes_S4096x32_S32x4096_1_0 : S4096x32.Transposes [1, 0] S32x4096
  inb_S128x4096_S128x4096_0_0 : ∀ a, (![0, 0] : Fin 2 → Nat) a + S128x4096.size a ≤ S128x4096.size a
  h_S128x4096 : 0 < S128x4096.numel
  inb_S14x4096_S14x4096_0_0 : ∀ a, (![0, 0] : Fin 2 → Nat) a + S14x4096.size a ≤ S14x4096.size a
  h_S14x4096 : 0 < S14x4096.numel
  shapeCasts_S14x4096_S14x4096 : S14x4096.ShapeCasts S14x4096
  reduces_S128x4096_S128 : S128x4096.Reduces [1] S128
  shapeCasts_S128_S128x1 : S128.ShapeCasts S128x1
  slices_S14x4096_o0_0_S1x4096 : S14x4096.Slices ![0, 0] S1x4096
  broadcasts_S1x4096_S128x4096 : S1x4096.Broadcasts S128x4096
  rotates_S128x4096_d1 : S128x4096.Rotates 1 none
  slices_S14x4096_o1_0_S1x4096 : S14x4096.Slices ![1, 0] S1x4096
  slices_S14x4096_o2_0_S1x4096 : S14x4096.Slices ![2, 0] S1x4096
  slices_S14x4096_o3_0_S1x4096 : S14x4096.Slices ![3, 0] S1x4096
  slices_S14x4096_o4_0_S1x4096 : S14x4096.Slices ![4, 0] S1x4096
  slices_S14x4096_o5_0_S1x4096 : S14x4096.Slices ![5, 0] S1x4096
  slices_S14x4096_o6_0_S1x4096 : S14x4096.Slices ![6, 0] S1x4096
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  broadcasts_S128x1_S128x32 : S128x1.Broadcasts S128x32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  slices_S14x4096_o7_0_S1x4096 : S14x4096.Slices ![7, 0] S1x4096
  slices_S14x4096_o8_0_S1x4096 : S14x4096.Slices ![8, 0] S1x4096
  slices_S14x4096_o9_0_S1x4096 : S14x4096.Slices ![9, 0] S1x4096
  slices_S14x4096_o10_0_S1x4096 : S14x4096.Slices ![10, 0] S1x4096
  slices_S14x4096_o11_0_S1x4096 : S14x4096.Slices ![11, 0] S1x4096
  slices_S14x4096_o12_0_S1x4096 : S14x4096.Slices ![12, 0] S1x4096
  slices_S14x4096_o13_0_S1x4096 : S14x4096.Slices ![13, 0] S1x4096
  inb_S128x32_S128x32_0_0 : ∀ a, (![0, 0] : Fin 2 → Nat) a + S128x32.size a ≤ S128x32.size a
  h_S128x32 : 0 < S128x32.numel
  inb_S128x1_S128x1_0_0 : ∀ a, (![0, 0] : Fin 2 → Nat) a + S128x1.size a ≤ S128x1.size a
  h_S128x1 : 0 < S128x1.numel
  shapeCasts_S16384x1_S16384 : S16384x1.ShapeCasts S16384
  dot_S128x4096_S4096x32_S128x32_1_0_0_1_n_n_wf : DotDims.WF S128x4096 S4096x32 S128x32 [1] [0] [0] [1] [] []
  dot_S128x32_S32x4096_S128x4096_1_0_0_1_n_n_wf : DotDims.WF S128x32 S32x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x4096.size a ≤ S14x4096.size a
  hwx0_1 : ∀ i : grid0.Coords, EltTy.bits .f32 = 32 ∨ (Rect.block (s := S14x4096) S14x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .f32 = 32 ∨ (Rect.block (s := S4096x32) S4096x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x4096.size a
  hwx0_3 : ∀ i : grid0.Coords, EltTy.bits .f32 = 32 ∨ (Rect.block (s := S32x4096) S32x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S16384x4096.size a
  hwx0_4 : ∀ i : grid0.Coords, EltTy.bits .f32 = 32 ∨ (Rect.block (s := S16384x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S16384x32.size a
  hwx0_5 : ∀ i : grid0.Coords, EltTy.bits .f32 = 32 ∨ (Rect.block (s := S16384x32) S128x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S16384x1.size a
  hwx0_6 : ∀ i : grid0.Coords, EltTy.bits .f32 = 32 ∨ (Rect.block (s := S16384x1) S128x1.size (cc0_transform_6 i) (hinb0_6 i)).WholeWords (EltTy.packing .f32)

variable [Facts₀]

def dot_S128x4096_S4096x32_S128x32_1_0_0_1_n_n : DotDims S128x4096 S4096x32 S128x32 where
  lhsContracting := [1]
  rhsContracting := [0]
  lhsNonContracting := [0]
  rhsNonContracting := [1]
  lhsBatch := []
  rhsBatch := []
  wf := dot_S128x4096_S4096x32_S128x32_1_0_0_1_n_n_wf
def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v69) S14x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v77) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v78) S32x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v79_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v79_1) S128x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v79_2) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S1024x4 : Shape := ⟨2, ![1024, 4]⟩
abbrev S4 : Shape := ⟨1, ![4]⟩
abbrev S_ : Shape := ⟨0, ![]⟩
abbrev S16384 : Shape := ⟨1, ![16384]⟩
abbrev S16384x1 : Shape := ⟨2, ![16384, 1]⟩
abbrev S16384x1024x4 : Shape := ⟨3, ![16384, 1024, 4]⟩
abbrev S1024x1 : Shape := ⟨2, ![1024, 1]⟩
abbrev S1024 : Shape := ⟨1, ![1024]⟩
abbrev S16384x1024x1 : Shape := ⟨3, ![16384, 1024, 1]⟩
abbrev S16384x1024 : Shape := ⟨2, ![16384, 1024]⟩
abbrev S1x1024 : Shape := ⟨2, ![1, 1024]⟩
abbrev S16384x32x128 : Shape := ⟨3, ![16384, 32, 128]⟩
abbrev S16384x32 : Shape := ⟨2, ![16384, 32]⟩
abbrev S16384x32x1 : Shape := ⟨3, ![16384, 32, 1]⟩
abbrev S1x4 : Shape := ⟨2, ![1, 4]⟩

abbrev nBuf : Space → Nat
  | .hbm => 210
  | .vmem => 0
  | .smem => 0
  | _ => 0

abbrev hbmTy0_0 (i : Nat) : BufTy := match i % 128 with
  | 0 => ⟨S16384x4096, .f32⟩
  | 1 => ⟨S1024x4, .f32⟩
  | 2 => ⟨S4, .f32⟩
  | 3 => ⟨S16384x4096, .f32⟩
  | 4 => ⟨S_, .f32⟩
  | 5 => ⟨S16384, .f32⟩
  | 6 => ⟨S16384x1, .f32⟩
  | 7 => ⟨S16384x1, .f32⟩
  | 8 => ⟨S_, .f32⟩
  | 9 => ⟨S16384x1, .f32⟩
  | 10 => ⟨S16384x1, .f32⟩
  | 11 => ⟨S16384x4096, .f32⟩
  | 12 => ⟨S16384x4096, .f32⟩
  | 13 => ⟨S16384x1024x4, .f32⟩
  | 14 => ⟨S1024x1, .f32⟩
  | 15 => ⟨S1024, .f32⟩
  | 16 => ⟨S1024x1, .f32⟩
  | 17 => ⟨S1024, .f32⟩
  | 18 => ⟨S1024x1, .f32⟩
  | 19 => ⟨S1024, .f32⟩
  | 20 => ⟨S1024x1, .f32⟩
  | 21 => ⟨S1024, .f32⟩
  | 22 => ⟨S16384x1024x1, .f32⟩
  | 23 => ⟨S16384x1024, .f32⟩
  | 24 => ⟨S16384x1024x1, .f32⟩
  | 25 => ⟨S16384x1024, .f32⟩
  | 26 => ⟨S16384x1024x1, .f32⟩
  | 27 => ⟨S16384x1024, .f32⟩
  | 28 => ⟨S16384x1024x1, .f32⟩
  | 29 => ⟨S16384x1024, .f32⟩
  | 30 => ⟨S1x1024, .f32⟩
  | 31 => ⟨S16384x1024, .f32⟩
  | 32 => ⟨S16384x1024, .f32⟩
  | 33 => ⟨S1x1024, .f32⟩
  | 34 => ⟨S16384x1024, .f32⟩
  | 35 => ⟨S16384x1024, .f32⟩
  | 36 => ⟨S16384x1024, .f32⟩
  | 37 => ⟨S1x1024, .f32⟩
  | 38 => ⟨S16384x1024, .f32⟩
  | 39 => ⟨S16384x1024, .f32⟩
  | 40 => ⟨S16384x1024, .f32⟩
  | 41 => ⟨S1x1024, .f32⟩
  | 42 => ⟨S16384x1024, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S1x1024, .f32⟩
  | 49 => ⟨S16384x1024, .f32⟩
  | 50 => ⟨S16384x1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S1x1024, .f32⟩
  | 57 => ⟨S16384x1024, .f32⟩
  | 58 => ⟨S16384x1024, .f32⟩
  | 59 => ⟨S16384x1024, .f32⟩
  | 60 => ⟨S1x1024, .f32⟩
  | 61 => ⟨S16384x1024, .f32⟩
  | 62 => ⟨S16384x1024, .f32⟩
  | 63 => ⟨S1x1024, .f32⟩
  | 64 => ⟨S16384x1024, .f32⟩
  | 65 => ⟨S16384x1024, .f32⟩
  | 66 => ⟨S16384x1024, .f32⟩
  | 67 => ⟨S1x1024, .f32⟩
  | 68 => ⟨S16384x1024, .f32⟩
  | 69 => ⟨S16384x1024, .f32⟩
  | 70 => ⟨S16384x1024, .f32⟩
  | 71 => ⟨S1x1024, .f32⟩
  | 72 => ⟨S16384x1024, .f32⟩
  | 73 => ⟨S16384x1024, .f32⟩
  | 74 => ⟨S16384x1024, .f32⟩
  | 75 => ⟨S1x1024, .f32⟩
  | 76 => ⟨S16384x1024, .f32⟩
  | 77 => ⟨S16384x1024, .f32⟩
  | 78 => ⟨S1x1024, .f32⟩
  | 79 => ⟨S16384x1024, .f32⟩
  | 80 => ⟨S16384x1024, .f32⟩
  | 81 => ⟨S16384x1024, .f32⟩
  | 82 => ⟨S1x1024, .f32⟩
  | 83 => ⟨S16384x1024, .f32⟩
  | 84 => ⟨S16384x1024, .f32⟩
  | 85 => ⟨S16384x1024, .f32⟩
  | 86 => ⟨S1x1024, .f32⟩
  | 87 => ⟨S16384x1024, .f32⟩
  | 88 => ⟨S16384x1024, .f32⟩
  | 89 => ⟨S16384x1024, .f32⟩
  | 90 => ⟨S16384x1024x1, .f32⟩
  | 91 => ⟨S16384x1024x1, .f32⟩
  | 92 => ⟨S16384x1024x1, .f32⟩
  | 93 => ⟨S16384x1024x1, .f32⟩
  | 94 => ⟨S16384x1024x4, .f32⟩
  | 95 => ⟨S16384x4096, .f32⟩
  | 96 => ⟨S16384x32x128, .f32⟩
  | 97 => ⟨S16384x32x128, .f32⟩
  | 98 => ⟨S_, .f32⟩
  | 99 => ⟨S16384x32, .f32⟩
  | 100 => ⟨S_, .f32⟩
  | 101 => ⟨S16384x32, .f32⟩
  | 102 => ⟨S16384x32, .f32⟩
  | 103 => ⟨S16384x32x128, .f32⟩
  | 104 => ⟨S_, .f32⟩
  | 105 => ⟨S16384x32x128, .f32⟩
  | 106 => ⟨S16384x32x128, .i1⟩
  | 107 => ⟨S_, .f32⟩
  | 108 => ⟨S16384x32x128, .f32⟩
  | 109 => ⟨S16384x32x128, .f32⟩
  | 110 => ⟨S16384x32x128, .f32⟩
  | 111 => ⟨S16384x32x128, .f32⟩
  | 112 => ⟨S_, .f32⟩
  | 113 => ⟨S16384x32, .f32⟩
  | 114 => ⟨S16384x32, .f32⟩
  | 115 => ⟨S16384x32, .f32⟩
  | 116 => ⟨S16384x32, .f32⟩
  | 117 => ⟨S16384x32x1, .f32⟩
  | 118 => ⟨S16384x32x128, .f32⟩
  | 119 => ⟨S16384x32x128, .f32⟩
  | 120 => ⟨S16384x4096, .f32⟩
  | 121 => ⟨S1x4, .f32⟩
  | 122 => ⟨S1024x4, .f32⟩
  | 123 => ⟨S1024x4, .f32⟩
  | 124 => ⟨S16384x1024x4, .f32⟩
  | 125 => ⟨S1024x1, .f32⟩
  | 126 => ⟨S1024, .f32⟩
  | 127 => ⟨S1024x1, .f32⟩
  | _ => ⟨S16384x4096, .f32⟩

abbrev hbmTy0_1 (i : Nat) : BufTy := match i % 128 with
  | 0 => ⟨S1024, .f32⟩
  | 1 => ⟨S1024x1, .f32⟩
  | 2 => ⟨S1024, .f32⟩
  | 3 => ⟨S1024x1, .f32⟩
  | 4 => ⟨S1024, .f32⟩
  | 5 => ⟨S16384x1024x1, .f32⟩
  | 6 => ⟨S16384x1024, .f32⟩
  | 7 => ⟨S16384x1024x1, .f32⟩
  | 8 => ⟨S16384x1024, .f32⟩
  | 9 => ⟨S16384x1024x1, .f32⟩
  | 10 => ⟨S16384x1024, .f32⟩
  | 11 => ⟨S16384x1024x1, .f32⟩
  | 12 => ⟨S16384x1024, .f32⟩
  | 13 => ⟨S1x1024, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x1024, .f32⟩
  | 28 => ⟨S1x1024, .f32⟩
  | 29 => ⟨S16384x1024, .f32⟩
  | 30 => ⟨S16384x1024, .f32⟩
  | 31 => ⟨S1x1024, .f32⟩
  | 32 => ⟨S16384x1024, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S1x1024, .f32⟩
  | 47 => ⟨S16384x1024, .f32⟩
  | 48 => ⟨S16384x1024, .f32⟩
  | 49 => ⟨S16384x1024, .f32⟩
  | 50 => ⟨S1x1024, .f32⟩
  | 51 => ⟨S16384x1024, .f32⟩
  | 52 => ⟨S16384x1024, .f32⟩
  | 53 => ⟨S16384x1024, .f32⟩
  | 54 => ⟨S1x1024, .f32⟩
  | 55 => ⟨S16384x1024, .f32⟩
  | 56 => ⟨S16384x1024, .f32⟩
  | 57 => ⟨S16384x1024, .f32⟩
  | 58 => ⟨S1x1024, .f32⟩
  | 59 => ⟨S16384x1024, .f32⟩
  | 60 => ⟨S16384x1024, .f32⟩
  | 61 => ⟨S1x1024, .f32⟩
  | 62 => ⟨S16384x1024, .f32⟩
  | 63 => ⟨S16384x1024, .f32⟩
  | 64 => ⟨S16384x1024, .f32⟩
  | 65 => ⟨S1x1024, .f32⟩
  | 66 => ⟨S16384x1024, .f32⟩
  | 67 => ⟨S16384x1024, .f32⟩
  | 68 => ⟨S16384x1024, .f32⟩
  | 69 => ⟨S1x1024, .f32⟩
  | 70 => ⟨S16384x1024, .f32⟩
  | 71 => ⟨S16384x1024, .f32⟩
  | 72 => ⟨S16384x1024, .f32⟩
  | 73 => ⟨S16384x1024x1, .f32⟩
  | 74 => ⟨S16384x1024x1, .f32⟩
  | 75 => ⟨S16384x1024x1, .f32⟩
  | 76 => ⟨S16384x1024x1, .f32⟩
  | 77 => ⟨S16384x1024x4, .f32⟩
  | 78 => ⟨S16384x4096, .f32⟩
  | 79 => ⟨S16384x4096, .f32⟩
  | 80 => ⟨S16384x4096, .f32⟩
  | 81 => ⟨S16384, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_cst_1 : Ref sig .tc := ⟨.hbm, 98, rfl⟩
abbrev main_v90 : Ref sig .tc := ⟨.hbm, 99, rfl⟩
abbrev main_cst_2 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_3 : Ref sig .tc := ⟨.hbm, 104, rfl⟩
abbrev main_v94 : Ref sig .tc := ⟨.hbm, 105, rfl⟩
abbrev main_v95 : Ref sig .tc := ⟨.hbm, 106, rfl⟩
abbrev main_cst_4 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_5 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_v167 : Ref sig .tc := ⟨.hbm, 180, rfl⟩
abbrev main_v168 : Ref sig .tc := ⟨.hbm, 181, rfl⟩
abbrev main_v169 : Ref sig .tc := ⟨.hbm, 182, rfl⟩
abbrev main_v170 : Ref sig .tc := ⟨.hbm, 183, rfl⟩
abbrev main_v171 : Ref sig .tc := ⟨.hbm, 184, rfl⟩
abbrev main_v172 : Ref sig .tc := ⟨.hbm, 185, rfl⟩
abbrev main_v173 : Ref sig .tc := ⟨.hbm, 186, rfl⟩
abbrev main_v174 : Ref sig .tc := ⟨.hbm, 187, rfl⟩
abbrev main_v175 : Ref sig .tc := ⟨.hbm, 188, rfl⟩
abbrev main_v176 : Ref sig .tc := ⟨.hbm, 189, rfl⟩
abbrev main_v177 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_v187 : Ref sig .tc := ⟨.hbm, 200, rfl⟩
abbrev main_v188 : Ref sig .tc := ⟨.hbm, 201, rfl⟩
abbrev main_v189 : Ref sig .tc := ⟨.hbm, 202, rfl⟩
abbrev main_v190 : Ref sig .tc := ⟨.hbm, 203, rfl⟩
abbrev main_v191 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_v196 : Ref sig .tc := ⟨.hbm, 209, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  shapeCasts_S16384x4096_S16384x1024x4 : S16384x4096.ShapeCasts S16384x1024x4
  slices_S1024x4_S1024x1_0_0 : S1024x4.Slices ![0, 0] S1024x1
  shapeCasts_S1024x1_S1024 : S1024x1.ShapeCasts S1024
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  slices_S16384x1024x4_S16384x1024x1_0_0_0 : S16384x1024x4.Slices ![0, 0, 0] S16384x1024x1
  shapeCasts_S16384x1024x1_S16384x1024 : S16384x1024x1.ShapeCasts S16384x1024
  slices_S16384x1024x4_S16384x1024x1_0_0_1 : S16384x1024x4.Slices ![0, 0, 1] S16384x1024x1
  slices_S16384x1024x4_S16384x1024x1_0_0_2 : S16384x1024x4.Slices ![0, 0, 2] S16384x1024x1
  slices_S16384x1024x4_S16384x1024x1_0_0_3 : S16384x1024x4.Slices ![0, 0, 3] S16384x1024x1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x1_S16384x1024x1_S16384x1024x4_d2 : Shape.Concatenates [S16384x1024x1, S16384x1024x1, S16384x1024x1, S16384x1024x1] S16384x1024x4 2
  shapeCasts_S16384x1024x4_S16384x4096 : S16384x1024x4.ShapeCasts S16384x4096
  shapeCasts_S16384x4096_S16384x32x128 : S16384x4096.ShapeCasts S16384x32x128
  reducesTo_S16384x32x128_S16384x32_d2 : S16384x32x128.ReducesTo [2] S16384x32
  bcast_S_S16384x32 : S_.BroadcastsInDim S16384x32 (![] : Fin 0 → Fin S16384x32.rank)
  bcast_S_S16384x32x128 : S_.BroadcastsInDim S16384x32x128 (![] : Fin 0 → Fin S16384x32x128.rank)
  bcast_S16384x32_S16384x32x1_0_1 : S16384x32.BroadcastsInDim S16384x32x1 (![0, 1] : Fin 2 → Fin S16384x32x1.rank)
  bcast_S16384x32x1_S16384x32x128_0_1_2 : S16384x32x1.BroadcastsInDim S16384x32x128 (![0, 1, 2] : Fin 3 → Fin S16384x32x128.rank)
  shapeCasts_S16384x32x128_S16384x4096 : S16384x32x128.ShapeCasts S16384x4096
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  shapeCasts_S16384x1_S16384 : S16384x1.ShapeCasts S16384

variable [Facts₀]

class Facts : Prop extends Facts₀ where

variable [Facts]
-- ==== Proof.BMain.lean ====
/-
  The program around its one region: the 81 host operations that build the coefficient rows and the two
  group-membership matrices, the region, and the one reshape after it.  What the region finds in every
  buffer is the host operations' result from the launch contents; neither argument array is written by them.
  Each window's block at a grid point is a rectangle of its array; an input window's staging buffer holds
  that block at every point.
-/
import proofs.«126109_g61838939127936_pilotgen1_510_3_alg».proof.Proof.Gen.Kernel.Launch
import proofs.«126109_g61838939127936_pilotgen1_510_3_alg».proof.Proof.Gen.Kernel.Skeleton
import proofs.«126109_g61838939127936_pilotgen1_510_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the host operations before it applied to the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- The host operations before the region allocate nothing. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The program is: the host operations, the region, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.BBody.lean ====
/-
  One run of the kernel body.  On whole staging buffers — the four inputs at known contents, the three outputs at
  anything — the body ends with the inputs as they were and each output buffer holding its one whole-block store:
  the inverse rotation of the signed factors, the group means divided by the row norms, and the clamped row norms,
  each a pure function of the four input blocks.
-/
import proofs.«126109_g61838939127936_pilotgen1_510_3_alg».proof.Proof.BMain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole block -/

abbrev rX : Rect S128x4096 := Rect.unit (s := S128x4096) ![0, 0] S128x4096.size inb_S128x4096_S128x4096_0_0
abbrev rC : Rect S14x4096 := Rect.unit (s := S14x4096) ![0, 0] S14x4096.size inb_S14x4096_S14x4096_0_0
abbrev rM : Rect S4096x32 := Rect.unit (s := S4096x32) ![0, 0] S4096x32.size inb_S4096x32_S4096x32_0_0
abbrev rT : Rect S32x4096 := Rect.unit (s := S32x4096) ![0, 0] S32x4096.size inb_S32x4096_S32x4096_0_0
abbrev rS : Rect S128x32 := Rect.unit (s := S128x32) ![0, 0] S128x32.size inb_S128x32_S128x32_0_0
abbrev rN : Rect S128x1 := Rect.unit (s := S128x1) ![0, 0] S128x1.size inb_S128x1_S128x1_0_0

/-! ## The values the body computes from its four input blocks -/

section Values
variable (x0 : Vec F S128x4096 .f32) (x1 : Vec F S14x4096 .f32) (x2 : Vec F S4096x32 .f32) (x3 : Vec F S32x4096 .f32)

/-- The coefficient rows as loaded. -/
def bCoef : FVec F S14x4096 .f32 := k0_pay2 (View.ld x1 rC)
/-- The clamped row norms. -/
def bNorm : FVec F S128x1 .f32 := k0_pay3 (View.ld x0 rX)
/-- The rotated rows. -/
def bRot : FVec F S128x4096 .f32 := k0_pay4 (View.ld x0 rX) (View.ld x1 rC)
/-- Their absolute values. -/
def bAbs : FVec F S128x4096 .f32 := k0_pay5 (View.ld x0 rX) (View.ld x1 rC)
/-- The membership matrix as loaded. -/
def bMemb : FVec F S4096x32 .f32 := k0_pay6 (View.ld x2 rM)
/-- The group means of the unit rows. -/
def bScale : FVec F S128x32 .f32 := k0_pay8 (bNorm x0) (bAbs x0 x1) (bMemb x2)
/-- The signed factors. -/
def bMid : FVec F S128x4096 .f32 := k0_pay9 (bNorm x0) (bRot x0 x1) (bAbs x0 x1) (bMemb x2) (View.ld x3 rT)
/-- The first result block: the inverse rotation of the signed factors. -/
def bOut : FVec F S128x4096 .f32 :=
  k0_pay1 (bCoef x1) (bMid x0 x1 x2 x3)
    (k0_pay10 (bCoef x1) (bNorm x0) (bRot x0 x1) (bAbs x0 x1) (bMemb x2) (View.ld x3 rT))
    (k0_pay11 (bCoef x1) (bNorm x0) (bRot x0 x1) (bAbs x0 x1) (bMemb x2) (View.ld x3 rT))

/-- What the body leaves in the three output buffers: its one store into each. -/
def out4 : Vec F S128x4096 .f32 := View.canon [⟨rX, bOut x0 x1 x2 x3⟩]
def out5 : Vec F S128x32 .f32 := View.canon [⟨rS, bScale x0 x1 x2⟩]
def out6 : Vec F S128x1 .f32 := View.canon [⟨rN, bNorm x0⟩]

end Values

/-- A whole-block store covers its buffer. -/
theorem cover4 (p0 : Vec F S128x4096 .f32) (y : S128x4096.Idx) :
    ∃ pc ∈ ([⟨rX, p0⟩] : List (View.Piece (Elt F) S128x4096 .f32)), y ∈ pc.1.set :=
  View.cover_of_tiled [⟨rX, p0⟩] S128x4096.size (by rfl) y
theorem cover5 (p0 : Vec F S128x32 .f32) (y : S128x32.Idx) :
    ∃ pc ∈ ([⟨rS, p0⟩] : List (View.Piece (Elt F) S128x32 .f32)), y ∈ pc.1.set :=
  View.cover_of_tiled [⟨rS, p0⟩] S128x32.size (by rfl) y
theorem cover6 (p0 : Vec F S128x1 .f32) (y : S128x1.Idx) :
    ∃ pc ∈ ([⟨rN, p0⟩] : List (View.Piece (Elt F) S128x1 .f32)), y ∈ pc.1.set :=
  View.cover_of_tiled [⟨rN, p0⟩] S128x1.size (by rfl) y

/-! ## The body's triple -/

set_option maxHeartbeats 4000000 in
theorem sound_kernel (c : Dev nD) (E : Set ℕ) (i : grid0.Coords)
    (arg1 : Memref sig .tc .vmem S128x4096 .f32) (harg1 : arg1.IsWhole) (arg2 : Memref sig .tc .vmem S14x4096 .f32) (harg2 : arg2.IsWhole)
    (arg3 : Memref sig .tc .vmem S4096x32 .f32) (harg3 : arg3.IsWhole) (arg4 : Memref sig .tc .vmem S32x4096 .f32) (harg4 : arg4.IsWhole)
    (arg5 : Memref sig .tc .vmem S128x4096 .f32) (harg5 : arg5.IsWhole) (arg6 : Memref sig .tc .vmem S128x32 .f32) (harg6 : arg6.IsWhole)
    (arg7 : Memref sig .tc .vmem S128x1 .f32) (harg7 : arg7.IsWhole)
    (x0 : Vec F S128x4096 .f32) (x1 : Vec F S14x4096 .f32) (x2 : Vec F S4096x32 .f32) (x3 : Vec F S32x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4 x0 x1 x2 x3) ∗ owns (c : Thread nD τ) arg6 fullShare (out5 x0 x1 x2)
            ∗ owns (c : Thread nD τ) arg7 fullShare (out6 x0)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  isplitl [H5]
  · iexists _; isplitr
    swap; · iexact H5
    ipureintro
    exact View.read_writes_eq_canon _ _ _ (cover5 _)
  iexists _; isplitr
  swap; · iexact H6
  ipureintro
  exact View.read_writes_eq_canon _ _ _ (cover6 _)

end Cert.Kernel.Hand

end
-- ==== Proof.BRun.lean ====
/-
  The run of the whole program.  The proof data of the region: every array as the host operations left it; after the
  body at grid point `t` each input buffer still at its block and each output buffer at the body's value of the four
  input blocks at `t`.  With the body's triple at every point, every weakly fair execution terminates with each
  window's array at what the write-backs left and every other buffer as the reshape after the region leaves it.
-/
import proofs.«126109_g61838939127936_pilotgen1_510_3_alg».proof.Proof.BBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t)
    | ⟨6, _⟩ => out6 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]
theorem after0_5 (c : Dev nD) (t : Fin cfg0.N) : (dats m 0 c).after 5 t = out5 (iblk m c 0 t) (iblk m c 1 t) (iblk m c 2 t) := by dsimp only [dats]
theorem after0_6 (c : Dev nD) (t : Fin cfg0.N) : (dats m 0 c).after 6 t = out6 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; at the end each window's array holds what the write-backs
    left of the proof data, and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Hand

end
-- ==== Proof.BPost.lean ====
/-
  What the run leaves, read at the buffers the claims name: the two argument arrays as launched (the first is an input
  window's array, the second no window's and not written by the reshape after the region), the first two results at
  what the write-backs of their windows left, the third the reshape of the third window's array.
-/
import proofs.«126109_g61838939127936_pilotgen1_510_3_alg».proof.Proof.BRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshape after the region does not write the second argument, and no window stages it. -/
theorem tail_arg1 (c : Dev nD) :
    Pipeline.afterTail₀ cfgs (dats m) 0 (V0 m) [hostOps1] c main_arg1 = m ((c.tc : Thread nD τ).loc main_arg1) := by
  unfold Pipeline.afterTail₀
  show StableHlo.after hostOps1 _ (Proc.devRef .tc main_arg1) = _
  rw [StableHlo.after_of_forall_not_mem (b := Proc.devRef .tc main_arg1) hostOps1 _ (by
      intro op hop; simp only [hostOps1, List.mem_cons, List.mem_nil_iff, or_false] at hop; subst hop
      simp only [StableHlo.reshape_writes, Finset.mem_singleton]; exact StableHlo.devRef_ne_of_ne (by decide))]
  rw [Pipeline.withArrays_of_ne spec0 c _ _ main_arg1 (by intro w; fin_cases w <;> decide)]
  exact V_main_arg1 m c

/-- The third result is the reshape of the third output window's array. -/
theorem tail_v80 (c : Dev nD) :
    Pipeline.afterTail₀ cfgs (dats m) 0 (V0 m) [hostOps1] c main_v80
      = shapeCast S16384 ((dats m 0 c).arrAt 6 cfg0.N) shapeCasts_S16384x1_S16384 := by
  unfold Pipeline.afterTail₀
  show StableHlo.after hostOps1 _ (Proc.devRef .tc main_v80) = _
  after_results
  have e := Pipeline.withArrays_arr spec0 launch0.win.arr_inj c (V0 m c) (fun w => (dats m 0 c).arrAt w (cfgs 0).N) 6
  funext i
  exact congrFun (congrArg (fun z => shapeCast S16384 z shapeCasts_S16384x1_S16384) e) i

/-- THE RUN, read at the buffers the claims name. -/
theorem run_named : θ_run defs (onTc (τ := τ) (main (F := F))) ⟨m, fun _ => 0, ρ⟩ (fun r => ∀ c : Dev nD,
      r.2.mem ((c.tc : Thread nD τ).loc main_v79_0) = (dats m 0 c).arrAt 4 cfg0.N
      ∧ r.2.mem ((c.tc : Thread nD τ).loc main_v79_1) = (dats m 0 c).arrAt 5 cfg0.N
      ∧ r.2.mem ((c.tc : Thread nD τ).loc main_v80) = shapeCast S16384 ((dats m 0 c).arrAt 6 cfg0.N) shapeCasts_S16384x1_S16384
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4, (h c).1 5,
      ((h c).2 main_v80 (Pipeline.mem_restRefs_of main_v80 rfl (by intro w; fin_cases w <;> decide))).trans (tail_v80 m c),
      ((h c).1 0).trans (((dats m 0 c).arrAt_in 0 rfl _).trans ((A_eq m c 0).trans (V_main_arg0 m c))),
      ((h c).2 main_arg1 (Pipeline.mem_restRefs_of main_arg1 rfl (by intro w; fin_cases w <;> decide))).trans (tail_arg1 m c)⟩) (run_main m ρ)

/-- THE FRAME: the program runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.2.1, (h c).2.2.2.2⟩) (run_named m ρ)

end Cert.Kernel.Hand

end
-- ==== Proof.KMain.lean ====
/-
  The program around its one region: the 81 host operations that build the coefficient rows and the two
  group-membership matrices, the region, and the one reshape after it.  What the region finds in every
  buffer is the host operations' result from the launch contents; neither argument array is written by them.
  Each window's block at a grid point is a rectangle of its array; an input window's staging buffer holds
  that block at every point.
-/
import proofs.«126109_g61838939127936_pilotgen1_510_3_alg».proof.Proof.Gen.KernelIdeal.Launch
import proofs.«126109_g61838939127936_pilotgen1_510_3_alg».proof.Proof.Gen.KernelIdeal.Skeleton
import proofs.«126109_g61838939127936_pilotgen1_510_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: the host operations before it applied to the launch contents. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- The host operations before the region allocate nothing. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The program is: the host operations, the region, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes its own result, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KBody.lean ====
/-
  One run of the kernel body.  On whole staging buffers — the four inputs at known contents, the three outputs at
  anything — the body ends with the inputs as they were and each output buffer holding its one whole-block store:
  the inverse rotation of the signed factors, the group means divided by the row norms, and the clamped row norms,
  each a pure function of the four input blocks.
-/
import proofs.«126109_g61838939127936_pilotgen1_510_3_alg».proof.Proof.KMain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and store is of a whole block -/

abbrev rX : Rect S128x4096 := Rect.unit (s := S128x4096) ![0, 0] S128x4096.size inb_S128x4096_S128x4096_0_0
abbrev rC : Rect S14x4096 := Rect.unit (s := S14x4096) ![0, 0] S14x4096.size inb_S14x4096_S14x4096_0_0
abbrev rM : Rect S4096x32 := Rect.unit (s := S4096x32) ![0, 0] S4096x32.size inb_S4096x32_S4096x32_0_0
abbrev rT : Rect S32x4096 := Rect.unit (s := S32x4096) ![0, 0] S32x4096.size inb_S32x4096_S32x4096_0_0
abbrev rS : Rect S128x32 := Rect.unit (s := S128x32) ![0, 0] S128x32.size inb_S128x32_S128x32_0_0
abbrev rN : Rect S128x1 := Rect.unit (s := S128x1) ![0, 0] S128x1.size inb_S128x1_S128x1_0_0

/-! ## The values the body computes from its four input blocks -/

section Values
variable (x0 : Vec F S128x4096 .f32) (x1 : Vec F S14x4096 .f32) (x2 : Vec F S4096x32 .f32) (x3 : Vec F S32x4096 .f32)

/-- The coefficient rows as loaded. -/
def bCoef : FVec F S14x4096 .f32 := k0_pay2 (View.ld x1 rC)
/-- The clamped row norms. -/
def bNorm : FVec F S128x1 .f32 := k0_pay3 (View.ld x0 rX)
/-- The rotated rows. -/
def bRot : FVec F S128x4096 .f32 := k0_pay4 (View.ld x0 rX) (View.ld x1 rC)
/-- Their absolute values. -/
def bAbs : FVec F S128x4096 .f32 := k0_pay5 (View.ld x0 rX) (View.ld x1 rC)
/-- The membership matrix as loaded. -/
def bMemb : FVec F S4096x32 .f32 := k0_pay6 (View.ld x2 rM)
/-- The group means of the unit rows. -/
def bScale : FVec F S128x32 .f32 := k0_pay8 (bNorm x0) (bAbs x0 x1) (bMemb x2)
/-- The signed factors. -/
def bMid : FVec F S128x4096 .f32 := k0_pay9 (bNorm x0) (bRot x0 x1) (bAbs x0 x1) (bMemb x2) (View.ld x3 rT)
/-- The first result block: the inverse rotation of the signed factors. -/
def bOut : FVec F S128x4096 .f32 :=
  k0_pay1 (bCoef x1) (bMid x0 x1 x2 x3)
    (k0_pay10 (bCoef x1) (bNorm x0) (bRot x0 x1) (bAbs x0 x1) (bMemb x2) (View.ld x3 rT))
    (k0_pay11 (bCoef x1) (bNorm x0) (bRot x0 x1) (bAbs x0 x1) (bMemb x2) (View.ld x3 rT))

/-- What the body leaves in the three output buffers: its one store into each. -/
def out4 : Vec F S128x4096 .f32 := View.canon [⟨rX, bOut x0 x1 x2 x3⟩]
def out5 : Vec F S128x32 .f32 := View.canon [⟨rS, bScale x0 x1 x2⟩]
def out6 : Vec F S128x1 .f32 := View.canon [⟨rN, bNorm x0⟩]

end Values

/-- A whole-block store covers its buffer. -/
theorem cover4 (p0 : Vec F S128x4096 .f32) (y : S128x4096.Idx) :
    ∃ pc ∈ ([⟨rX, p0⟩] : List (View.Piece (Elt F) S128x4096 .f32)), y ∈ pc.1.set :=
  View.cover_of_tiled [⟨rX, p0⟩] S128x4096.size (by rfl) y
theorem cover5 (p0 : Vec F S128x32 .f32) (y : S128x32.Idx) :
    ∃ pc ∈ ([⟨rS, p0⟩] : List (View.Piece (Elt F) S128x32 .f32)), y ∈ pc.1.set :=
  View.cover_of_tiled [⟨rS, p0⟩] S128x32.size (by rfl) y
theorem cover6 (p0 : Vec F S128x1 .f32) (y : S128x1.Idx) :
    ∃ pc ∈ ([⟨rN, p0⟩] : List (View.Piece (Elt F) S128x1 .f32)), y ∈ pc.1.set :=
  View.cover_of_tiled [⟨rN, p0⟩] S128x1.size (by rfl) y

/-! ## The body's triple -/

set_option maxHeartbeats 4000000 in
theorem sound_kernel (c : Dev nD) (E : Set ℕ) (i : grid0.Coords)
    (arg1 : Memref sig .tc .vmem S128x4096 .f32) (harg1 : arg1.IsWhole) (arg2 : Memref sig .tc .vmem S14x4096 .f32) (harg2 : arg2.IsWhole)
    (arg3 : Memref sig .tc .vmem S4096x32 .f32) (harg3 : arg3.IsWhole) (arg4 : Memref sig .tc .vmem S32x4096 .f32) (harg4 : arg4.IsWhole)
    (arg5 : Memref sig .tc .vmem S128x4096 .f32) (harg5 : arg5.IsWhole) (arg6 : Memref sig .tc .vmem S128x32 .f32) (harg6 : arg6.IsWhole)
    (arg7 : Memref sig .tc .vmem S128x1 .f32) (harg7 : arg7.IsWhole)
    (x0 : Vec F S128x4096 .f32) (x1 : Vec F S14x4096 .f32) (x2 : Vec F S4096x32 .f32) (x3 : Vec F S32x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out4 x0 x1 x2 x3) ∗ owns (c : Thread nD τ) arg6 fullShare (out5 x0 x1 x2)
            ∗ owns (c : Thread nD τ) arg7 fullShare (out6 x0)) -∗ K ⟨⟩))
      ⊢ wp frame (wpE (defs₀ (F := F)) Variants.none c none) E (cc0__body i arg1 harg1 arg2 harg2 arg3 harg3 arg4 harg4 arg5 harg5 arg6 harg6 arg7 harg7) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4 _)
  isplitl [H5]
  · iexists _; isplitr
    swap; · iexact H5
    ipureintro
    exact View.read_writes_eq_canon _ _ _ (cover5 _)
  iexists _; isplitr
  swap; · iexact H6
  ipureintro
  exact View.read_writes_eq_canon _ _ _ (cover6 _)

end Cert.KernelIdeal.Hand

end
-- ==== Proof.RealModel.lean ====
/-
  The two programs as functions of real numbers.

  Rows are indexed by `r`, the 4096 lanes of a row by `l`, the 1024 quaternions by `k = l / 4` with
  component `j = l % 4`, the 32 quantisation groups by `g = l / 128`.  `x r l` is the input row,
  `q k j` the quaternion table, `e` the (positive) clamp constant.

  * `ref…`: the reference — normalise the row, rotate each aligned block of four lanes by the
    Hamilton product with its quaternion, take the mean absolute value of each group of 128 lanes,
    replace every rotated entry by its sign (zero counted positive) times the clamped group mean,
    rotate back by the conjugate quaternion, multiply by the row norm.
  * `k…`: the kernel — the same rotation written as seven lane rotations of the whole row, each
    multiplied by a coefficient row that vanishes wherever the rotation would leave the block; the
    group sums and their spreading back over the lanes as products with the 0/1 group-membership matrix;
    the division by the norm moved across the (linear) rotation.
-/
import Mathlib

noncomputable section

namespace Cert.QuantModel

open Finset

/-- The clamped Euclidean norm of row `r`. -/
def nrm (e : ℝ) (x : ℕ → ℕ → ℝ) (r : ℕ) : ℝ :=
  max (Real.sqrt (∑ l ∈ range 4096, x r l * x r l)) e

/-- Component `j` of the Hamilton product `p ⊗ v` of two quaternions given by their four components. -/
def ham (p v : ℕ → ℝ) (j : ℕ) : ℝ :=
  if j = 0 then p 0 * v 0 - p 1 * v 1 - p 2 * v 2 - p 3 * v 3
  else if j = 1 then p 0 * v 1 + p 1 * v 0 + p 2 * v 3 - p 3 * v 2
  else if j = 2 then p 0 * v 2 - p 1 * v 3 + p 2 * v 0 + p 3 * v 1
  else p 0 * v 3 + p 1 * v 2 - p 2 * v 1 + p 3 * v 0

/-- A row `u` rotated block by block: lane `l` is component `l % 4` of `q (l / 4) ⊗ u[4 (l/4) ..]`. -/
def rot (q : ℕ → ℕ → ℝ) (u : ℕ → ℝ) (l : ℕ) : ℝ :=
  ham (q (l / 4)) (fun j => u (4 * (l / 4) + j)) (l % 4)

/-- The conjugate table: components 1, 2, 3 negated (a product with the row `1, -1, -1, -1`). -/
def conj (q : ℕ → ℕ → ℝ) (k j : ℕ) : ℝ := q k j * (if j = 0 then 1 else -1)

/-- The sign with zero counted positive, as the reference spells it: `sign a`, replaced by one where it is zero. -/
def sgn1 (a : ℝ) : ℝ := if ((SignType.sign a : ℝ)) = 0 then 1 else ((SignType.sign a : ℝ))

/-! ## The reference -/

/-- The rotated unit row. -/
def refRot (e : ℝ) (x q : ℕ → ℕ → ℝ) (r l : ℕ) : ℝ := rot q (fun l' => x r l' / nrm e x r) l

/-- The mean absolute value of group `g` of the rotated unit row. -/
def refScale (e : ℝ) (x q : ℕ → ℕ → ℝ) (r g : ℕ) : ℝ :=
  (∑ t ∈ range 128, |refRot e x q r (128 * g + t)|) / 128

/-- The quantised rotated row: sign times clamped group mean, both in the reference's straight-through spelling. -/
def refQuant (e : ℝ) (x q : ℕ → ℕ → ℝ) (r l : ℕ) : ℝ :=
  (refRot e x q r l + (sgn1 (refRot e x q r l) - refRot e x q r l))
    * (refScale e x q r (l / 128) + (max (refScale e x q r (l / 128)) e - refScale e x q r (l / 128)))

/-- The reference's first result. -/
def refOut (e : ℝ) (x q : ℕ → ℕ → ℝ) (r l : ℕ) : ℝ :=
  rot (conj q) (refQuant e x q r) l * nrm e x r

/-! ## The kernel -/

/-- The fourteen coefficient rows: rows 0–6 the forward rotation's, rows 7–13 the inverse's (row 7 is row 0,
    rows 8–13 are rows 1–6 negated). -/
def coef (q : ℕ → ℕ → ℝ) (i l : ℕ) : ℝ :=
  let k := l / 4
  let j := l % 4
  if i = 0 then q k 0
  else if i = 1 then (if j = 0 then -(q k 1) else if j = 1 then -(q k 3) else if j = 2 then -(q k 1) else 0)
  else if i = 2 then (if j = 0 then 0 else if j = 1 then q k 1 else if j = 2 then q k 3 else q k 1)
  else if i = 3 then (if j = 0 then -(q k 2) else if j = 1 then q k 2 else 0)
  else if i = 4 then (if j = 0 then 0 else if j = 1 then 0 else if j = 2 then q k 2 else -(q k 2))
  else if i = 5 then (if j = 0 then -(q k 3) else 0)
  else if i = 6 then (if j = 0 then 0 else if j = 1 then 0 else if j = 2 then 0 else q k 3)
  else if i = 7 then q k 0
  else if i = 8 then -(if j = 0 then -(q k 1) else if j = 1 then -(q k 3) else if j = 2 then -(q k 1) else 0)
  else if i = 9 then -(if j = 0 then 0 else if j = 1 then q k 1 else if j = 2 then q k 3 else q k 1)
  else if i = 10 then -(if j = 0 then -(q k 2) else if j = 1 then q k 2 else 0)
  else if i = 11 then -(if j = 0 then 0 else if j = 1 then 0 else if j = 2 then q k 2 else -(q k 2))
  else if i = 12 then -(if j = 0 then -(q k 3) else 0)
  else -(if j = 0 then 0 else if j = 1 then 0 else if j = 2 then 0 else q k 3)

/-- Seven lane rotations of the row `v` (by +1, -1, +2, -2, +3, -3 lanes, cyclically over the 4096 lanes),
    each times its coefficient row, summed in the kernel's order. -/
def rolls (c : ℕ → ℕ → ℝ) (b : ℕ) (v : ℕ → ℝ) (l : ℕ) : ℝ :=
  v l * c b l + v ((l + 1) % 4096) * c (b + 1) l + v ((l + 4095) % 4096) * c (b + 2) l
    + v ((l + 2) % 4096) * c (b + 3) l + v ((l + 4094) % 4096) * c (b + 4) l
    + v ((l + 3) % 4096) * c (b + 5) l + v ((l + 4093) % 4096) * c (b + 6) l

/-- The 0/1 membership of lane `l` in group `g`. -/
def memb (l g : ℕ) : ℝ := if l / 128 = g then 1 else 0

/-- The rotated (not normalised) row. -/
def kRot (x q : ℕ → ℕ → ℝ) (r l : ℕ) : ℝ := rolls (coef q) 0 (x r) l

/-- The group sums of absolute values, as a product with the membership matrix. -/
def kSum (x q : ℕ → ℕ → ℝ) (r g : ℕ) : ℝ := ∑ l ∈ range 4096, |kRot x q r l| * memb l g

/-- The kernel's second result. -/
def kScale (e : ℝ) (x q : ℕ → ℕ → ℝ) (r g : ℕ) : ℝ := kSum x q r g * ((1 / 128) / nrm e x r)

/-- The clamped group mean times the norm. -/
def kFactor (e : ℝ) (x q : ℕ → ℕ → ℝ) (r g : ℕ) : ℝ := max (kSum x q r g * (1 / 128)) (e * nrm e x r)

/-- The factor spread back over the lanes, as a product with the transposed membership matrix. -/
def kSpread (e : ℝ) (x q : ℕ → ℕ → ℝ) (r l : ℕ) : ℝ := ∑ g ∈ range 32, kFactor e x q r g * memb l g

/-- The signed factor. -/
def kMid (e : ℝ) (x q : ℕ → ℕ → ℝ) (r l : ℕ) : ℝ :=
  if kRot x q r l < 0 then 0 - kSpread e x q r l else kSpread e x q r l

/-- The kernel's first result. -/
def kOut (e : ℝ) (x q : ℕ → ℕ → ℝ) (r l : ℕ) : ℝ := rolls (coef q) 7 (kMid e x q r) l

end Cert.QuantModel

end
-- ==== Proof.Eps.lean ====
/-
  The clamp constant: the single-precision word 0x322BCC77 denotes the positive real 11258999 · 2^(-50).
-/
import Idealize.ShloMosaic.PureOps.Ideal

noncomputable section

namespace Cert.Eps

open Idealize.ShloMosaic

/-- The real number the clamp word denotes. -/
def eR : ℝ := 11258999 * (2 : ℝ) ^ (-50 : ℤ)

theorem eR_pos : 0 < eR := by unfold eR; positivity

/-- The word's exponent field is 100 (neither zero nor all ones), its fraction 2870391, its sign bit clear. -/
theorem eps_eq : Ideal.ofBits .f32 0x322BCC77#32 = ((eR : ℝ) : EReal) := by
  show Ideal.ieee 8 23 (0x322BCC77#32) = _
  have h1 : ((0x322BCC77#32 : BitVec 32).extractLsb' 23 8).toNat = 100 := by decide
  have h2 : ((0x322BCC77#32 : BitVec 32).extractLsb' 0 23).toNat = 2870391 := by decide
  have h3 : ((0x322BCC77#32 : BitVec 32).extractLsb' (8 + 23) 1 == 1#1) = false := by decide
  unfold Ideal.ieee
  simp only [h1, h2, h3]
  norm_num [eR]

end Cert.Eps

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.KBlockA.lean ====
/-
  The body's values at an index, as real numbers (first half).  When the block of rows holds real numbers and the
  coefficient block holds the model's coefficient rows, the clamped norm of row p is the model's norm, and lane l of
  the rotated row p is the model's seven-rotation sum: a lane rotation by s reads lane l - s around the end, and row
  a of the coefficient block spread over the rows reads its lane l.
-/
import proofs.«126109_g61838939127936_pilotgen1_510_3_alg».proof.Proof.KBody
import proofs.«126109_g61838939127936_pilotgen1_510_3_alg».proof.Proof.RealModel
import proofs.«126109_g61838939127936_pilotgen1_510_3_alg».proof.Proof.Eps
import proofs.«126109_g61838939127936_pilotgen1_510_3_alg».proof.Proof.LibColumns
import proofs.«126109_g61838939127936_pilotgen1_510_3_alg».proof.Proof.LibRows
import proofs.«126109_g61838939127936_pilotgen1_510_3_alg».proof.Proof.LibReals
import Idealize.ShloMosaic.Lib.KernelVsHost
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.QuantModel Cert.Eps
open scoped BigOperators

/-- The maximum of two real numbers, taken among the extended reals. -/
theorem coe_max' (a b : ℝ) : max (a : EReal) (b : EReal) = ((max a b : ℝ) : EReal) :=
  (EReal.coe_strictMono.monotone.map_max).symm

theorem hz : (![0, 0] : Fin 2 → Nat) = fun _ => 0 := funext fun a => by fin_cases a <;> rfl

/-- A lane rotation by `sb`, read at (p, l), is the operand at lane `l - sb` around the end. -/
theorem rotAt {α : Type} (sb : BitVec 32) (v : S128x4096.Idx → α) (p : Fin 128) (l : Fin 4096) :
    dynamicRotate 1 sb none v rotates_S128x4096_d1 (ix2 p l)
      = v (ix2 p ⟨(l.val + 4096 - sb.toNat % 4096) % 4096, Nat.mod_lt _ (by norm_num)⟩) := by
  refine dynamicRotate_apply (1 : Fin 2) sb v rotates_S128x4096_d1 _ _ (fun b => ?_)
  match b with
  | ⟨0, _⟩ => rfl
  | ⟨1, _⟩ => rfl

/-- Row `o` of the coefficient block, spread over the 128 rows, read at (p, l), is the block at (o, l). -/
theorem rowOf {α : Type} (o : ℕ) (ho : o < 14) (x1 : S14x4096.Idx → α) (hs : S14x4096.Slices ![o, 0] S1x4096)
    (p : Fin 128) (l : Fin 4096) :
    broadcastTo S128x4096 (extractStridedSlice S1x4096 ![o, 0] (shapeCast S14x4096 x1 shapeCasts_S14x4096_S14x4096) hs)
      broadcasts_S1x4096_S128x4096 (ix2 p l) = x1 (ix2 ⟨o, ho⟩ l) := by
  refine (Cert.Lib.Rows.broadcastTo_row_apply _ broadcasts_S1x4096_S128x4096 p l).trans ?_
  refine (Cert.Lib.Rows.slice_rows_apply _ hs (0 : Fin 1) l (by simpa using ho)).trans ?_
  rw [shapeCast_self]
  exact congrArg x1 (congrArg (fun a => ix2 a l) (Fin.ext (by simp)))

section Block
variable (xr qr : ℕ → ℕ → ℝ) (base : ℕ)
variable (x0 : Vec Ideal S128x4096 .f32) (x1 : Vec Ideal S14x4096 .f32)
variable (hx0 : ∀ (p : Fin 128) (l : Fin 4096), x0 (ix2 p l) = ((xr (base + p.val) l.val : ℝ) : EReal))
variable (hx1 : ∀ (a : Fin 14) (l : Fin 4096), x1 (ix2 a l) = ((coef qr a.val l.val : ℝ) : EReal))

include hx0 in
/-- The clamped norm of row p. -/
theorem bNorm_apply (p : Fin 128) (u : Fin 1) : bNorm x0 (ix2 p u) = ((nrm eR xr (base + p.val) : ℝ) : EReal) := by
  unfold bNorm k0_pay3
  rw [View.ld_unit_zero (S := S128x4096) hz]
  have hs : (∑ k : Fin 4096, (mulf (F := Ideal) (s := S128x4096) (φ := .f32) x0 x0) (ix2 p k)) = ((∑ l ∈ Finset.range 4096, xr (base + p.val) l * xr (base + p.val) l : ℝ) : EReal) := by
    rw [← Fin.sum_univ_eq_sum_range (fun l => xr (base + p.val) l * xr (base + p.val) l) 4096, Cert.Reals.coe_fintype_sum]
    refine Finset.sum_congr rfl fun k _ => ?_
    show x0 (ix2 p k) * x0 (ix2 p k) = _
    rw [hx0, EReal.coe_mul]
  refine (congrArg (fun z => max (Ideal.sqrt z) (Ideal.ofBits .f32 0x322BCC77#32))
    ((Cert.Columns.shapeCast_a_a1_apply _ shapeCasts_S128_S128x1 p u).trans
      ((Cert.Columns.laneSum_apply (mulf (F := Ideal) (s := S128x4096) (φ := .f32) x0 x0) _ _ _ _ p).trans hs))).trans ?_
  rw [eps_eq, Ideal.sqrt_coe, if_neg (not_lt.mpr (Finset.sum_nonneg fun l _ => mul_self_nonneg _))]
  unfold nrm
  rw [coe_max']

include hx0 hx1 in
/-- Lane l of the rotated row p. -/
theorem bRot_apply (p : Fin 128) (l : Fin 4096) : bRot x0 x1 (ix2 p l) = ((kRot xr qr (base + p.val) l.val : ℝ) : EReal) := by
  unfold bRot k0_pay4
  rw [View.ld_unit_zero (S := S128x4096) hz, View.ld_unit_zero (S := S14x4096) hz]
  simp only [k0_pay2, addf_apply, mulf_apply, rotAt, rowOf 0 (by norm_num), rowOf 1 (by norm_num), rowOf 2 (by norm_num), rowOf 3 (by norm_num),
    rowOf 4 (by norm_num), rowOf 5 (by norm_num), rowOf 6 (by norm_num), hx0, hx1]
  rw [rotAt (4095#32) x0 p l, rotAt (1#32) x0 p l, rotAt (4094#32) x0 p l, rotAt (2#32) x0 p l, rotAt (4093#32) x0 p l, rotAt (3#32) x0 p l]
  simp only [hx0]
  unfold kRot rolls
  simp only [EReal.coe_add, EReal.coe_mul]
  have t1 : (4095#32 : BitVec 32).toNat % 4096 = 4095 := by decide
  have t2 : (1#32 : BitVec 32).toNat % 4096 = 1 := by decide
  have t3 : (4094#32 : BitVec 32).toNat % 4096 = 4094 := by decide
  have t4 : (2#32 : BitVec 32).toNat % 4096 = 2 := by decide
  have t5 : (4093#32 : BitVec 32).toNat % 4096 = 4093 := by decide
  have t6 : (3#32 : BitVec 32).toNat % 4096 = 3 := by decide
  have a1 : l.val + 4096 - 4095 = l.val + 1 := by omega
  have a2 : l.val + 4096 - 1 = l.val + 4095 := by omega
  have a3 : l.val + 4096 - 4094 = l.val + 2 := by omega
  have a4 : l.val + 4096 - 2 = l.val + 4094 := by omega
  have a5 : l.val + 4096 - 4093 = l.val + 3 := by omega
  have a6 : l.val + 4096 - 3 = l.val + 4093 := by omega
  rw [t1, t2, t3, t4, t5, t6, a1, a2, a3, a4, a5, a6]

end Block

end Cert.KernelIdeal.Hand

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.RealRot.lean ====
/-
  The seven-rotation form of the block rotation equals the Hamilton-product form, for the forward
  table and for the conjugate table; and the block rotation is linear in the row.
-/
import proofs.«126109_g61838939127936_pilotgen1_510_3_alg».proof.Proof.RealModel

namespace Cert.QuantModel

/-! ## The rotation lemma, lane by lane inside a block

  Lane `4 k + j` of the rotated row only reads lanes `4 k .. 4 k + 3`.  A lane rotation that would
  leave the block meets a zero coefficient, so its (wrapped) index never matters. -/

theorem rolls_fwd0 (q : ℕ → ℕ → ℝ) (v : ℕ → ℝ) (k : ℕ) (hk : k < 1024) :
    rolls (coef q) 0 v (4 * k) = rot q v (4 * k) := by
  have e0 : (4 * k) / 4 = k := by omega
  have e1 : (4 * k) % 4 = 0 := by omega
  have a1 : (4 * k + 1) % 4096 = 4 * k + 1 := by omega
  have a2 : (4 * k + 2) % 4096 = 4 * k + 2 := by omega
  have a3 : (4 * k + 3) % 4096 = 4 * k + 3 := by omega
  simp only [rolls, rot, ham, coef, conj, e0, e1, a1, a2, a3]
  norm_num
  ring

theorem rolls_inv0 (q : ℕ → ℕ → ℝ) (v : ℕ → ℝ) (k : ℕ) (hk : k < 1024) :
    rolls (coef q) 7 v (4 * k) = rot (conj q) v (4 * k) := by
  have e0 : (4 * k) / 4 = k := by omega
  have e1 : (4 * k) % 4 = 0 := by omega
  have a1 : (4 * k + 1) % 4096 = 4 * k + 1 := by omega
  have a2 : (4 * k + 2) % 4096 = 4 * k + 2 := by omega
  have a3 : (4 * k + 3) % 4096 = 4 * k + 3 := by omega
  simp only [rolls, rot, ham, coef, conj, e0, e1, a1, a2, a3]
  norm_num
  ring

theorem rolls_fwd1 (q : ℕ → ℕ → ℝ) (v : ℕ → ℝ) (k : ℕ) (hk : k < 1024) :
    rolls (coef q) 0 v (4 * k + 1) = rot q v (4 * k + 1) := by
  have e0 : (4 * k + 1) / 4 = k := by omega
  have e1 : (4 * k + 1) % 4 = 1 := by omega
  have a1 : (4 * k + 1 + 1) % 4096 = 4 * k + 2 := by omega
  have a2 : (4 * k + 1 + 2) % 4096 = 4 * k + 3 := by omega
  have b1 : (4 * k + 1 + 4095) % 4096 = 4 * k + 0 := by omega
  simp only [rolls, rot, ham, coef, conj, e0, e1, a1, a2, b1]
  norm_num
  ring

theorem rolls_inv1 (q : ℕ → ℕ → ℝ) (v : ℕ → ℝ) (k : ℕ) (hk : k < 1024) :
    rolls (coef q) 7 v (4 * k + 1) = rot (conj q) v (4 * k + 1) := by
  have e0 : (4 * k + 1) / 4 = k := by omega
  have e1 : (4 * k + 1) % 4 = 1 := by omega
  have a1 : (4 * k + 1 + 1) % 4096 = 4 * k + 2 := by omega
  have a2 : (4 * k + 1 + 2) % 4096 = 4 * k + 3 := by omega
  have b1 : (4 * k + 1 + 4095) % 4096 = 4 * k + 0 := by omega
  simp only [rolls, rot, ham, coef, conj, e0, e1, a1, a2, b1]
  norm_num
  ring

theorem rolls_fwd2 (q : ℕ → ℕ → ℝ) (v : ℕ → ℝ) (k : ℕ) (hk : k < 1024) :
    rolls (coef q) 0 v (4 * k + 2) = rot q v (4 * k + 2) := by
  have e0 : (4 * k + 2) / 4 = k := by omega
  have e1 : (4 * k + 2) % 4 = 2 := by omega
  have a1 : (4 * k + 2 + 1) % 4096 = 4 * k + 3 := by omega
  have b1 : (4 * k + 2 + 4095) % 4096 = 4 * k + 1 := by omega
  have b2 : (4 * k + 2 + 4094) % 4096 = 4 * k + 0 := by omega
  simp only [rolls, rot, ham, coef, conj, e0, e1, a1, b1, b2]
  norm_num
  ring

theorem rolls_inv2 (q : ℕ → ℕ → ℝ) (v : ℕ → ℝ) (k : ℕ) (hk : k < 1024) :
    rolls (coef q) 7 v (4 * k + 2) = rot (conj q) v (4 * k + 2) := by
  have e0 : (4 * k + 2) / 4 = k := by omega
  have e1 : (4 * k + 2) % 4 = 2 := by omega
  have a1 : (4 * k + 2 + 1) % 4096 = 4 * k + 3 := by omega
  have b1 : (4 * k + 2 + 4095) % 4096 = 4 * k + 1 := by omega
  have b2 : (4 * k + 2 + 4094) % 4096 = 4 * k + 0 := by omega
  simp only [rolls, rot, ham, coef, conj, e0, e1, a1, b1, b2]
  norm_num
  ring

theorem rolls_fwd3 (q : ℕ → ℕ → ℝ) (v : ℕ → ℝ) (k : ℕ) (hk : k < 1024) :
    rolls (coef q) 0 v (4 * k + 3) = rot q v (4 * k + 3) := by
  have e0 : (4 * k + 3) / 4 = k := by omega
  have e1 : (4 * k + 3) % 4 = 3 := by omega
  have b1 : (4 * k + 3 + 4095) % 4096 = 4 * k + 2 := by omega
  have b2 : (4 * k + 3 + 4094) % 4096 = 4 * k + 1 := by omega
  have b3 : (4 * k + 3 + 4093) % 4096 = 4 * k + 0 := by omega
  simp only [rolls, rot, ham, coef, conj, e0, e1, b1, b2, b3]
  norm_num
  ring

theorem rolls_inv3 (q : ℕ → ℕ → ℝ) (v : ℕ → ℝ) (k : ℕ) (hk : k < 1024) :
    rolls (coef q) 7 v (4 * k + 3) = rot (conj q) v (4 * k + 3) := by
  have e0 : (4 * k + 3) / 4 = k := by omega
  have e1 : (4 * k + 3) % 4 = 3 := by omega
  have b1 : (4 * k + 3 + 4095) % 4096 = 4 * k + 2 := by omega
  have b2 : (4 * k + 3 + 4094) % 4096 = 4 * k + 1 := by omega
  have b3 : (4 * k + 3 + 4093) % 4096 = 4 * k + 0 := by omega
  simp only [rolls, rot, ham, coef, conj, e0, e1, b1, b2, b3]
  norm_num
  ring

/-- Every lane below 4096 is `4 k + j` with `k < 1024` and `j < 4`. -/
theorem lane_split (l : ℕ) (hl : l < 4096) :
    ∃ k, k < 1024 ∧ (l = 4 * k ∨ l = 4 * k + 1 ∨ l = 4 * k + 2 ∨ l = 4 * k + 3) :=
  ⟨l / 4, by omega, by omega⟩

/-- The forward rotation: seven lane rotations with the coefficient rows 0–6 give the Hamilton product
    with `q`. -/
theorem rolls_fwd (q : ℕ → ℕ → ℝ) (v : ℕ → ℝ) (l : ℕ) (hl : l < 4096) :
    rolls (coef q) 0 v l = rot q v l := by
  obtain ⟨k, hk, rfl | rfl | rfl | rfl⟩ := lane_split l hl
  · exact rolls_fwd0 q v k hk
  · exact rolls_fwd1 q v k hk
  · exact rolls_fwd2 q v k hk
  · exact rolls_fwd3 q v k hk

/-- The inverse rotation: seven lane rotations with the coefficient rows 7–13 give the Hamilton product
    with the conjugate of `q`. -/
theorem rolls_inv (q : ℕ → ℕ → ℝ) (v : ℕ → ℝ) (l : ℕ) (hl : l < 4096) :
    rolls (coef q) 7 v l = rot (conj q) v l := by
  obtain ⟨k, hk, rfl | rfl | rfl | rfl⟩ := lane_split l hl
  · exact rolls_inv0 q v k hk
  · exact rolls_inv1 q v k hk
  · exact rolls_inv2 q v k hk
  · exact rolls_inv3 q v k hk

/-! ## Linearity and locality of the block rotation -/

/-- The rotation commutes with division of the row by a scalar. -/
theorem rot_div (q : ℕ → ℕ → ℝ) (u : ℕ → ℝ) (n : ℝ) (l : ℕ) :
    rot q (fun l' => u l' / n) l = rot q u l / n := by
  simp only [rot, ham]
  split_ifs <;> ring

/-- The rotation commutes with multiplication of the row by a scalar. -/
theorem rot_mul (q : ℕ → ℕ → ℝ) (u : ℕ → ℝ) (n : ℝ) (l : ℕ) :
    rot q (fun l' => u l' * n) l = rot q u l * n := by
  simp only [rot, ham]
  split_ifs <;> ring

/-- The rotated lane `l < 4096` only reads lanes below 4096 of the row. -/
theorem rot_congr (q : ℕ → ℕ → ℝ) (u u' : ℕ → ℝ) (l : ℕ) (hl : l < 4096)
    (h : ∀ l', l' < 4096 → u l' = u' l') : rot q u l = rot q u' l := by
  have h0 := h (4 * (l / 4) + 0) (by omega)
  have h1 := h (4 * (l / 4) + 1) (by omega)
  have h2 := h (4 * (l / 4) + 2) (by omega)
  have h3 := h (4 * (l / 4) + 3) (by omega)
  simp only [rot, ham, h0, h1, h2, h3]

end Cert.QuantModel
-- ==== Proof.RealGroups.lean ====
/-
  Sums against the 0/1 group-membership matrix: a column sums one group of 128 lanes, a row picks the
  group of the lane.  Also the elementary facts about signs, absolute values and maxima used to move
  the division by the (positive) row norm.
-/
import proofs.«126109_g61838939127936_pilotgen1_510_3_alg».proof.Proof.RealModel

namespace Cert.QuantModel

open Finset

/-- A sum over all lanes against column `g` of the membership matrix is the sum over group `g`. -/
theorem sum_mul_memb (f : ℕ → ℝ) (g : ℕ) (hg : g < 32) :
    ∑ l ∈ range 4096, f l * memb l g = ∑ t ∈ range 128, f (128 * g + t) := by
  have h1 : 128 * g ≤ 128 * g + 128 := by omega
  have h2 : 128 * g + 128 ≤ 4096 := by omega
  rw [Finset.range_eq_Ico, ← Finset.sum_Ico_consecutive _ (Nat.zero_le (128 * g)) (h1.trans h2),
    ← Finset.sum_Ico_consecutive _ h1 h2]
  have z1 : ∑ l ∈ Ico 0 (128 * g), f l * memb l g = 0 := by
    apply Finset.sum_eq_zero
    intro l hl
    rw [Finset.mem_Ico] at hl
    have : ¬ (l / 128 = g) := by omega
    simp [memb, this]
  have z3 : ∑ l ∈ Ico (128 * g + 128) 4096, f l * memb l g = 0 := by
    apply Finset.sum_eq_zero
    intro l hl
    rw [Finset.mem_Ico] at hl
    have : ¬ (l / 128 = g) := by omega
    simp [memb, this]
  rw [z1, z3, zero_add, add_zero, Finset.sum_Ico_eq_sum_range, Nat.add_sub_cancel_left]
  apply Finset.sum_congr rfl
  intro t ht
  rw [Finset.mem_range] at ht
  have : (128 * g + t) / 128 = g := by omega
  simp [memb, this]

/-- A sum over the groups against row `l` of the membership matrix picks the group of lane `l`. -/
theorem sum_memb_pick (F : ℕ → ℝ) (l : ℕ) (hl : l < 4096) :
    ∑ g ∈ range 32, F g * memb l g = F (l / 128) := by
  have hm : l / 128 ∈ range 32 := by
    rw [Finset.mem_range]; omega
  simp only [memb, mul_ite, mul_one, mul_zero]
  rw [Finset.sum_ite_eq, if_pos hm]

/-- The sign with zero counted positive is `-1` on negative numbers and `1` elsewhere. -/
theorem sgn1_eq (a : ℝ) : sgn1 a = if a < 0 then -1 else 1 := by
  rcases lt_trichotomy a 0 with h | h | h
  · simp [sgn1, sign_neg h, h]
  · subst h; simp [sgn1]
  · simp [sgn1, sign_pos h, not_lt.mpr h.le]

/-- Dividing by a positive number does not change the sign. -/
theorem div_neg_iff_of_pos (a n : ℝ) (hn : 0 < n) : a / n < 0 ↔ a < 0 := by
  constructor
  · intro h
    by_contra hc
    exact absurd h (not_lt.mpr (div_nonneg (not_lt.mp hc) hn.le))
  · intro h
    exact div_neg_of_neg_of_pos h hn

/-- The absolute value of a quotient by a positive number. -/
theorem abs_div_of_pos (a n : ℝ) (hn : 0 < n) : |a / n| = |a| / n := by
  rw [abs_div, abs_of_pos hn]

/-- Moving a positive factor out of a clamp. -/
theorem max_scale (S e n : ℝ) (hn : 0 < n) :
    max (S * (1 / 128)) (e * n) = max (S * ((1 / 128) / n)) e * n := by
  rw [max_mul_of_nonneg _ _ hn.le]
  congr 1
  field_simp

end Cert.QuantModel
-- ==== Proof.RealBridge.lean ====
/-
  The kernel's two results equal the reference's, over the real numbers.

  The rotated row of the kernel is the reference's rotated unit row times the row norm; the group
  means, the clamp and the signs follow it through (the norm is positive); the rotation back is
  linear, so the final multiplication by the norm can be done before it.
-/
import proofs.«126109_g61838939127936_pilotgen1_510_3_alg».proof.Proof.RealRot
import proofs.«126109_g61838939127936_pilotgen1_510_3_alg».proof.Proof.RealGroups

namespace Cert.QuantModel

open Finset

/-- The clamped norm is positive. -/
theorem nrm_pos (e : ℝ) (he : 0 < e) (x : ℕ → ℕ → ℝ) (r : ℕ) : 0 < nrm e x r :=
  lt_max_of_lt_right he

/-- The kernel's rotated row is the Hamilton-product rotation of the input row. -/
theorem kRot_eq (x q : ℕ → ℕ → ℝ) (r l : ℕ) (hl : l < 4096) : kRot x q r l = rot q (x r) l :=
  rolls_fwd q (x r) l hl

/-- The reference's rotated unit row is the kernel's rotated row divided by the norm. -/
theorem refRot_eq (e : ℝ) (x q : ℕ → ℕ → ℝ) (r l : ℕ) (hl : l < 4096) :
    refRot e x q r l = kRot x q r l / nrm e x r := by
  rw [kRot_eq x q r l hl]
  exact rot_div q (x r) (nrm e x r) l

/-- The second result: the group means of the absolute rotated unit row. -/
theorem kScale_eq_refScale (e : ℝ) (he : 0 < e) (x q : ℕ → ℕ → ℝ) (r g : ℕ) (hg : g < 32) :
    kScale e x q r g = refScale e x q r g := by
  have hn := nrm_pos e he x r
  have hs : ∑ t ∈ range 128, |refRot e x q r (128 * g + t)|
      = (∑ t ∈ range 128, |kRot x q r (128 * g + t)|) / nrm e x r := by
    rw [Finset.sum_div]
    apply Finset.sum_congr rfl
    intro t ht
    rw [Finset.mem_range] at ht
    rw [refRot_eq e x q r _ (by omega), abs_div_of_pos _ _ hn]
  unfold kScale refScale kSum
  rw [sum_mul_memb (fun l => |kRot x q r l|) g hg, hs]
  ring

/-- The factor spread over the lanes is the clamped group mean of the lane's group, times the norm. -/
theorem kSpread_eq (e : ℝ) (he : 0 < e) (x q : ℕ → ℕ → ℝ) (r l : ℕ) (hl : l < 4096) :
    kSpread e x q r l = max (refScale e x q r (l / 128)) e * nrm e x r := by
  have hn := nrm_pos e he x r
  have hg : l / 128 < 32 := by omega
  unfold kSpread
  rw [sum_memb_pick (kFactor e x q r) l hl]
  show max (kSum x q r (l / 128) * (1 / 128)) (e * nrm e x r) = _
  rw [max_scale _ e _ hn, ← kScale_eq_refScale e he x q r (l / 128) hg]
  rfl

/-- The reference's quantised rotated row: sign (zero counted positive) of the kernel's rotated lane
    times the clamped group mean. -/
theorem refQuant_eq (e : ℝ) (he : 0 < e) (x q : ℕ → ℕ → ℝ) (r l : ℕ) (hl : l < 4096) :
    refQuant e x q r l
      = (if kRot x q r l < 0 then -1 else 1) * max (refScale e x q r (l / 128)) e := by
  have hn := nrm_pos e he x r
  have h1 : refRot e x q r l + (sgn1 (refRot e x q r l) - refRot e x q r l)
      = sgn1 (refRot e x q r l) := by ring
  have h2 : refScale e x q r (l / 128)
      + (max (refScale e x q r (l / 128)) e - refScale e x q r (l / 128))
      = max (refScale e x q r (l / 128)) e := by ring
  unfold refQuant
  rw [h1, h2, sgn1_eq, refRot_eq e x q r l hl]
  simp only [div_neg_iff_of_pos _ _ hn]

/-- The kernel's signed factor is the reference's quantised rotated row times the norm. -/
theorem kMid_eq (e : ℝ) (he : 0 < e) (x q : ℕ → ℕ → ℝ) (r l : ℕ) (hl : l < 4096) :
    kMid e x q r l = refQuant e x q r l * nrm e x r := by
  unfold kMid
  rw [kSpread_eq e he x q r l hl, refQuant_eq e he x q r l hl]
  split_ifs <;> ring

/-- The first result. -/
theorem kOut_eq_refOut (e : ℝ) (he : 0 < e) (x q : ℕ → ℕ → ℝ) (r l : ℕ) (hl : l < 4096) :
    kOut e x q r l = refOut e x q r l := by
  unfold kOut refOut
  rw [rolls_inv q _ l hl, ← rot_mul]
  exact rot_congr (conj q) _ _ l hl (fun l' hl' => kMid_eq e he x q r l' hl')

end Cert.QuantModel
-- ==== Proof.KBlockB.lean ====
/-
  The body's values at an index, as real numbers (second half): absolute values; the group sums, a product with the
  0/1 membership matrix; the group means of the unit row; the clamped means times the norm, spread back over the lanes
  by the transposed membership matrix and signed by the rotated entry; and the inverse rotation of that row.
-/
import proofs.«126109_g61838939127936_pilotgen1_510_3_alg».proof.Proof.KBlockA
import proofs.«126109_g61838939127936_pilotgen1_510_3_alg».proof.Proof.LibPlainDot
import proofs.«126109_g61838939127936_pilotgen1_510_3_alg».proof.Proof.RealBridge

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.QuantModel Cert.Eps
open scoped BigOperators

/-- The word 0x3C000000 denotes 1/128. -/
theorem c128_eq : Ideal.ofBits .f32 0x3C000000#32 = (((1 / 128 : ℝ)) : EReal) := by
  show Ideal.ieee 8 23 (0x3C000000#32) = _
  have h1 : ((0x3C000000#32 : BitVec 32).extractLsb' 23 8).toNat = 120 := by decide
  have h2 : ((0x3C000000#32 : BitVec 32).extractLsb' 0 23).toNat = 0 := by decide
  have h3 : ((0x3C000000#32 : BitVec 32).extractLsb' (8 + 23) 1 == 1#1) = false := by decide
  unfold Ideal.ieee
  simp only [h1, h2, h3]
  norm_num

/-- A choice between `0 - M` and `M` by the sign of a real number. -/
theorem selectNeg (a M : ℝ) :
    Scalar.select (Ideal.cmp .olt (a : EReal) 0) ((0 : EReal) - (M : EReal)) (M : EReal) = ((if a < 0 then 0 - M else M : ℝ) : EReal) := by
  unfold Scalar.select Ideal.cmp
  by_cases h : a < 0
  · have h' : ((a : EReal) < 0) := by exact_mod_cast h
    rw [if_pos h]
    simp only [h', decide_true, BitVec.ofBool_true, if_true]
    rw [← EReal.coe_zero, ← EReal.coe_sub]
  · have h' : ¬ ((a : EReal) < 0) := by
      intro hh; exact h (by exact_mod_cast hh)
    rw [if_neg h]
    simp only [h', decide_false, BitVec.ofBool_false]
    rfl

/-- The clamped group means times the norms. -/
def facOf (x0 : Vec Ideal S128x4096 .f32) (x1 : Vec Ideal S14x4096 .f32) (x2 : Vec Ideal S4096x32 .f32) : FVec Ideal S128x32 .f32 :=
  maximumf (mulf (k0_pay7 (bAbs x0 x1) (bMemb x2)) (broadcast S128x32 (Scalar.ofBits (F := Ideal) .f32 0x3C000000#32)))
    (broadcastTo S128x32 (mulf (broadcast S128x1 (Scalar.ofBits (F := Ideal) .f32 0x322BCC77#32)) (bNorm x0)) broadcasts_S128x1_S128x32)

/-- The same spread back over the lanes. -/
def spreadOf (x0 : Vec Ideal S128x4096 .f32) (x1 : Vec Ideal S14x4096 .f32) (x2 : Vec Ideal S4096x32 .f32) (x3 : Vec Ideal S32x4096 .f32) :
    FVec Ideal S128x4096 .f32 :=
  matmul dot_S128x32_S32x4096_S128x4096_1_0_0_1_n_n none (facOf x0 x1 x2)
    (shapeCast S32x4096 (View.ld x3 rT) shapeCasts_S32x4096_S32x4096 : FVec Ideal S32x4096 .f32) (constant S128x4096 .f32 0x00000000#32)

section Block
variable (xr qr : ℕ → ℕ → ℝ) (base : ℕ)
variable (x0 : Vec Ideal S128x4096 .f32) (x1 : Vec Ideal S14x4096 .f32) (x2 : Vec Ideal S4096x32 .f32) (x3 : Vec Ideal S32x4096 .f32)
variable (hx0 : ∀ (p : Fin 128) (l : Fin 4096), x0 (ix2 p l) = ((xr (base + p.val) l.val : ℝ) : EReal))
variable (hx1 : ∀ (a : Fin 14) (l : Fin 4096), x1 (ix2 a l) = ((coef qr a.val l.val : ℝ) : EReal))
variable (hx2 : ∀ (l : Fin 4096) (g : Fin 32), x2 (ix2 l g) = ((memb l.val g.val : ℝ) : EReal))
variable (hx3 : ∀ (g : Fin 32) (l : Fin 4096), x3 (ix2 g l) = ((memb l.val g.val : ℝ) : EReal))

include hx0 hx1 in
theorem bAbs_apply (p : Fin 128) (l : Fin 4096) : bAbs x0 x1 (ix2 p l) = ((|kRot xr qr (base + p.val) l.val| : ℝ) : EReal) := by
  have h := bRot_apply xr qr base x0 x1 hx0 hx1 p l
  unfold bRot at h
  unfold bAbs k0_pay5
  show max (k0_pay4 _ _ (ix2 p l)) (-(k0_pay4 _ _ (ix2 p l))) = _
  rw [h, abs_eq_max_neg, ← coe_max', EReal.coe_neg]

include hx2 in
theorem bMemb_apply (l : Fin 4096) (g : Fin 32) : bMemb x2 (ix2 l g) = ((memb l.val g.val : ℝ) : EReal) := by
  unfold bMemb k0_pay6
  rw [View.ld_unit_zero (S := S4096x32) hz, shapeCast_self, hx2]

include hx0 hx1 hx2 in
/-- The group sums. -/
theorem ssum_apply (p : Fin 128) (g : Fin 32) :
    k0_pay7 (bAbs x0 x1) (bMemb x2) (ix2 p g) = ((kSum xr qr (base + p.val) g.val : ℝ) : EReal) := by
  unfold k0_pay7
  refine (Cert.Lib.PlainDot.matmul_plain_zero_apply (M := 128) (K := 4096) (N := 32) none (bAbs x0 x1) (bMemb x2) p g).trans ?_
  unfold kSum
  rw [← Fin.sum_univ_eq_sum_range (fun l => |kRot xr qr (base + p.val) l| * memb l g.val) 4096, Cert.Reals.coe_fintype_sum]
  refine Finset.sum_congr rfl fun k _ => ?_
  rw [bAbs_apply xr qr base x0 x1 hx0 hx1 p k, bMemb_apply x2 hx2 k g, EReal.coe_mul]

include hx0 hx1 hx2 in
/-- The group means of the unit row. -/
theorem bScale_apply (p : Fin 128) (g : Fin 32) :
    bScale x0 x1 x2 (ix2 p g) = ((kScale eR xr qr (base + p.val) g.val : ℝ) : EReal) := by
  unfold bScale k0_pay8
  show k0_pay7 _ _ (ix2 p g) * broadcastTo S128x32 (divf (broadcast S128x1 (Scalar.ofBits .f32 0x3C000000#32)) (bNorm x0)) broadcasts_S128x1_S128x32 (ix2 p g) = _
  rw [ssum_apply xr qr base x0 x1 x2 hx0 hx1 hx2 p g, Cert.Columns.broadcastTo_a1_ab_apply _ _ p g 0]
  show _ * Ideal.div (Ideal.ofBits .f32 0x3C000000#32) (bNorm x0 (ix2 p 0)) = _
  rw [bNorm_apply xr base x0 hx0 p 0, c128_eq, Cert.Reals.div_coe_coe _ (ne_of_gt (nrm_pos eR eR_pos xr (base + p.val))), ← EReal.coe_mul]
  rfl

include hx0 hx1 hx2 in
theorem facOf_apply (p : Fin 128) (g : Fin 32) : facOf x0 x1 x2 (ix2 p g) = ((kFactor eR xr qr (base + p.val) g.val : ℝ) : EReal) := by
  unfold facOf
  show max (k0_pay7 _ _ (ix2 p g) * Ideal.ofBits .f32 0x3C000000#32) (broadcastTo S128x32 _ broadcasts_S128x1_S128x32 (ix2 p g)) = _
  rw [ssum_apply xr qr base x0 x1 x2 hx0 hx1 hx2 p g, Cert.Columns.broadcastTo_a1_ab_apply _ _ p g 0]
  show max _ (Ideal.ofBits .f32 0x322BCC77#32 * bNorm x0 (ix2 p 0)) = _
  rw [bNorm_apply xr base x0 hx0 p 0, c128_eq, eps_eq, ← EReal.coe_mul, ← EReal.coe_mul, coe_max']
  rfl

include hx0 hx1 hx2 hx3 in
theorem spreadOf_apply (p : Fin 128) (l : Fin 4096) :
    spreadOf x0 x1 x2 x3 (ix2 p l) = ((kSpread eR xr qr (base + p.val) l.val : ℝ) : EReal) := by
  unfold spreadOf
  refine (Cert.Lib.PlainDot.matmul_plain_zero_apply (M := 128) (K := 32) (N := 4096) none (facOf x0 x1 x2) _ p l).trans ?_
  unfold kSpread
  rw [← Fin.sum_univ_eq_sum_range (fun g => kFactor eR xr qr (base + p.val) g * memb l.val g) 32, Cert.Reals.coe_fintype_sum]
  refine Finset.sum_congr rfl fun g _ => ?_
  rw [facOf_apply xr qr base x0 x1 x2 hx0 hx1 hx2 p g, View.ld_unit_zero (S := S32x4096) hz]
  refine (congrArg (fun z => ((kFactor eR xr qr (base + p.val) g.val : ℝ) : EReal) * z)
    (congrFun (shapeCast_self (s := S32x4096) x3 shapeCasts_S32x4096_S32x4096) (ix2 g l))).trans ?_
  rw [hx3, EReal.coe_mul]

include hx0 hx1 hx2 hx3 in
/-- The signed factors. -/
theorem bMid_apply (p : Fin 128) (l : Fin 4096) :
    bMid x0 x1 x2 x3 (ix2 p l) = ((kMid eR xr qr (base + p.val) l.val : ℝ) : EReal) := by
  unfold bMid k0_pay9
  show Scalar.select (Ideal.cmp .olt (bRot x0 x1 (ix2 p l)) (Ideal.ofBits .f32 0x00000000#32))
    (Ideal.ofBits .f32 0x00000000#32 - spreadOf x0 x1 x2 x3 (ix2 p l)) (spreadOf x0 x1 x2 x3 (ix2 p l)) = _
  rw [spreadOf_apply xr qr base x0 x1 x2 x3 hx0 hx1 hx2 hx3 p l, bRot_apply xr qr base x0 x1 hx0 hx1 p l, Ideal.ofBits_zero_f32, selectNeg]
  rfl

include hx0 hx1 hx2 hx3 in
/-- The first result block: lane l of the inverse rotation of row p of the signed factors. -/
theorem bOut_apply (p : Fin 128) (l : Fin 4096) :
    bOut x0 x1 x2 x3 (ix2 p l) = ((kOut eR xr qr (base + p.val) l.val : ℝ) : EReal) := by
  have hmid : ∀ l' : Fin 4096, bMid x0 x1 x2 x3 (ix2 p l') = ((kMid eR xr qr (base + p.val) l'.val : ℝ) : EReal) :=
    fun l' => bMid_apply xr qr base x0 x1 x2 x3 hx0 hx1 hx2 hx3 p l'
  unfold bMid at hmid
  unfold bOut k0_pay1 k0_pay10 k0_pay11 bCoef bMid
  rw [View.ld_unit_zero (S := S14x4096) hz]
  generalize k0_pay9 (bNorm x0) (bRot x0 x1) (bAbs x0 x1) (bMemb x2) (View.ld x3 rT) = v63 at hmid ⊢
  simp only [k0_pay2, addf_apply, mulf_apply, rowOf 7 (by norm_num), rowOf 8 (by norm_num), rowOf 9 (by norm_num), rowOf 10 (by norm_num),
    rowOf 11 (by norm_num), rowOf 12 (by norm_num), rowOf 13 (by norm_num), hx1]
  rw [rotAt (4095#32) v63 p l, rotAt (1#32) v63 p l, rotAt (4094#32) v63 p l, rotAt (2#32) v63 p l, rotAt (4093#32) v63 p l, rotAt (3#32) v63 p l]
  simp only [hmid]
  unfold kOut rolls
  simp only [EReal.coe_add, EReal.coe_mul]
  have t1 : (4095#32 : BitVec 32).toNat % 4096 = 4095 := by decide
  have t2 : (1#32 : BitVec 32).toNat % 4096 = 1 := by decide
  have t3 : (4094#32 : BitVec 32).toNat % 4096 = 4094 := by decide
  have t4 : (2#32 : BitVec 32).toNat % 4096 = 2 := by decide
  have t5 : (4093#32 : BitVec 32).toNat % 4096 = 4093 := by decide
  have t6 : (3#32 : BitVec 32).toNat % 4096 = 3 := by decide
  have a1 : l.val + 4096 - 4095 = l.val + 1 := by omega
  have a2 : l.val + 4096 - 1 = l.val + 4095 := by omega
  have a3 : l.val + 4096 - 4094 = l.val + 2 := by omega
  have a4 : l.val + 4096 - 2 = l.val + 4094 := by omega
  have a5 : l.val + 4096 - 4093 = l.val + 3 := by omega
  have a6 : l.val + 4096 - 3 = l.val + 4093 := by omega
  rw [t1, t2, t3, t4, t5, t6, a1, a2, a3, a4, a5, a6]

end Block

end Cert.KernelIdeal.Hand

end
-- ==== Proof.KRun.lean ====
/-
  The run of the whole program.  The proof data of the region: every array as the host operations left it; after the
  body at grid point `t` each input buffer still at its block and each output buffer at the body's value of the four
  input blocks at `t`.  With the body's triple at every point, every weakly fair execution terminates with each
  window's array at what the write-backs left and every other buffer as the reshape after the region leaves it.
-/
import proofs.«126109_g61838939127936_pilotgen1_510_3_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
    | ⟨5, _⟩ => out5 (iblk m c 0 t) (iblk m c 1 t) (iblk m c 2 t)
    | ⟨6, _⟩ => out6 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) (iblk m c 2 t) (iblk m c 3 t) := by dsimp only [dats]
theorem after0_5 (c : Dev nD) (t : Fin cfg0.N) : (dats m 0 c).after 5 t = out5 (iblk m c 0 t) (iblk m c 1 t) (iblk m c 2 t) := by dsimp only [dats]
theorem after0_6 (c : Dev nD) (t : Fin cfg0.N) : (dats m 0 c).after 6 t = out6 (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 2000000 in
/-- The body at any point: the inputs' buffers hold their blocks, so the body's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates; at the end each window's array holds what the write-backs
    left of the proof data, and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.KPost.lean ====
/-
  What the run leaves, read at the buffers the claims name: the two argument arrays as launched (the first is an input
  window's array, the second no window's and not written by the reshape after the region), the first two results at
  what the write-backs of their windows left, the third the reshape of the third window's array.
-/
import proofs.«126109_g61838939127936_pilotgen1_510_3_alg».proof.Proof.KRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshape after the region does not write the second argument, and no window stages it. -/
theorem tail_arg1 (c : Dev nD) :
    Pipeline.afterTail₀ cfgs (dats m) 0 (V0 m) [hostOps1] c main_arg1 = m ((c.tc : Thread nD τ).loc main_arg1) := by
  unfold Pipeline.afterTail₀
  show StableHlo.after hostOps1 _ (Proc.devRef .tc main_arg1) = _
  rw [StableHlo.after_of_forall_not_mem (b := Proc.devRef .tc main_arg1) hostOps1 _ (by
      intro op hop; simp only [hostOps1, List.mem_cons, List.mem_nil_iff, or_false] at hop; subst hop
      simp only [StableHlo.reshape_writes, Finset.mem_singleton]; exact StableHlo.devRef_ne_of_ne (by decide))]
  rw [Pipeline.withArrays_of_ne spec0 c _ _ main_arg1 (by intro w; fin_cases w <;> decide)]
  exact V_main_arg1 m c

/-- The third result is the reshape of the third output window's array. -/
theorem tail_v80 (c : Dev nD) :
    Pipeline.afterTail₀ cfgs (dats m) 0 (V0 m) [hostOps1] c main_v80
      = shapeCast S16384 ((dats m 0 c).arrAt 6 cfg0.N) shapeCasts_S16384x1_S16384 := by
  unfold Pipeline.afterTail₀
  show StableHlo.after hostOps1 _ (Proc.devRef .tc main_v80) = _
  after_results
  have e := Pipeline.withArrays_arr spec0 launch0.win.arr_inj c (V0 m c) (fun w => (dats m 0 c).arrAt w (cfgs 0).N) 6
  funext i
  exact congrFun (congrArg (fun z => shapeCast S16384 z shapeCasts_S16384x1_S16384) e) i

/-- THE RUN, read at the buffers the claims name. -/
theorem run_named : θ_run defs (onTc (τ := τ) (main (F := F))) ⟨m, fun _ => 0, ρ⟩ (fun r => ∀ c : Dev nD,
      r.2.mem ((c.tc : Thread nD τ).loc main_v79_0) = (dats m 0 c).arrAt 4 cfg0.N
      ∧ r.2.mem ((c.tc : Thread nD τ).loc main_v79_1) = (dats m 0 c).arrAt 5 cfg0.N
      ∧ r.2.mem ((c.tc : Thread nD τ).loc main_v80) = shapeCast S16384 ((dats m 0 c).arrAt 6 cfg0.N) shapeCasts_S16384x1_S16384
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 4, (h c).1 5,
      ((h c).2 main_v80 (Pipeline.mem_restRefs_of main_v80 rfl (by intro w; fin_cases w <;> decide))).trans (tail_v80 m c),
      ((h c).1 0).trans (((dats m 0 c).arrAt_in 0 rfl _).trans ((A_eq m c 0).trans (V_main_arg0 m c))),
      ((h c).2 main_arg1 (Pipeline.mem_restRefs_of main_arg1 rfl (by intro w; fin_cases w <;> decide))).trans (tail_arg1 m c)⟩) (run_main m ρ)

/-- THE FRAME: the program runs to the end and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.2.1, (h c).2.2.2.2⟩) (run_named m ρ)

end Cert.KernelIdeal.Hand

end
-- ==== Proof.KArrays.lean ====
/-
  From blocks to arrays.  Grid point t handles rows 128 t … 128 t + 127: the row windows' blocks sit at block row t, the
  three table windows' blocks are the whole tables.  So what point t writes back is block t of one whole-array function
  — the model's result at (row, lane), (row, group), (row) — and the 128 blocks cover each result array.
-/
import proofs.«126109_g61838939127936_pilotgen1_510_3_alg».proof.Proof.KBlockB
import proofs.«126109_g61838939127936_pilotgen1_510_3_alg».proof.Proof.KPost

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.QuantModel Cert.Eps
open scoped BigOperators

open Idealize.ShloMosaic.Pipeline (Dat)

section Arrays
variable (m : (ℓ : Loc nD τ sig) → Buf (Elt Ideal) ℓ) (c : Dev nD)
variable (xr qr : ℕ → ℕ → ℝ)
variable (hX : ∀ i : S16384x4096.Idx, m ((c.tc : Thread nD τ).loc main_arg0) i = ((xr (i 0).val (i 1).val : ℝ) : EReal))
variable (hC : ∀ (a : Fin 14) (l : Fin 4096), V m c main_v69 (ix2 a l) = ((coef qr a.val l.val : ℝ) : EReal))
variable (hM : ∀ (l : Fin 4096) (g : Fin 32), V m c main_v77 (ix2 l g) = ((memb l.val g.val : ℝ) : EReal))
variable (hMT : ∀ (g : Fin 32) (l : Fin 4096), V m c main_v78 (ix2 g l) = ((memb l.val g.val : ℝ) : EReal))

/-- The printed index maps, decided over the grid: the row windows sit at block row t, the table windows at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

include hX in
/-- Row p, lane l of the row block at point t is row 128 t + p of the first argument. -/
theorem iblk0_apply (t : Fin cfg0.N) (p : Fin 128) (l : Fin 4096) :
    iblk m c 0 t (ix2 p l) = ((xr (128 * t.val + p.val) l.val : ℝ) : EReal) := by
  obtain ⟨e0, e1, -⟩ := idx_facts t
  show V m c main_arg0 (((cfg0.win 0).blk t).view.emb (ix2 p l)) = _
  rw [V_main_arg0, hX]
  have h0 : ((((cfg0.win 0).blk t).view.emb (ix2 p l)) 0).val = 128 * t.val + p.val := by
    show win0_0.index t (0 : Fin 2) * 128 + 1 * p.val = _
    rw [e0]; omega
  have h1 : ((((cfg0.win 0).blk t).view.emb (ix2 p l)) 1).val = l.val := by
    show win0_0.index t (1 : Fin 2) * 4096 + 1 * l.val = _
    rw [e1]; omega
  rw [h0, h1]

include hC in
theorem iblk1_apply (t : Fin cfg0.N) (a : Fin 14) (l : Fin 4096) :
    iblk m c 1 t (ix2 a l) = ((coef qr a.val l.val : ℝ) : EReal) := by
  obtain ⟨-, -, e0, e1, -⟩ := idx_facts t
  show V m c main_v69 (((cfg0.win 1).blk t).view.emb (ix2 a l)) = _
  have h : ((cfg0.win 1).blk t).view.emb (ix2 a l) = ix2 a l := by
    funext b; apply Fin.ext
    match b with
    | ⟨0, _⟩ => show win0_1.index t (0 : Fin 2) * 14 + 1 * a.val = a.val; rw [e0]; omega
    | ⟨1, _⟩ => show win0_1.index t (1 : Fin 2) * 4096 + 1 * l.val = l.val; rw [e1]; omega
  rw [h, hC]

include hM in
theorem iblk2_apply (t : Fin cfg0.N) (l : Fin 4096) (g : Fin 32) :
    iblk m c 2 t (ix2 l g) = ((memb l.val g.val : ℝ) : EReal) := by
  obtain ⟨-, -, -, -, e0, e1, -⟩ := idx_facts t
  show V m c main_v77 (((cfg0.win 2).blk t).view.emb (ix2 l g)) = _
  have h : ((cfg0.win 2).blk t).view.emb (ix2 l g) = ix2 l g := by
    funext b; apply Fin.ext
    match b with
    | ⟨0, _⟩ => show win0_2.index t (0 : Fin 2) * 4096 + 1 * l.val = l.val; rw [e0]; omega
    | ⟨1, _⟩ => show win0_2.index t (1 : Fin 2) * 32 + 1 * g.val = g.val; rw [e1]; omega
  rw [h, hM]

include hMT in
theorem iblk3_apply (t : Fin cfg0.N) (g : Fin 32) (l : Fin 4096) :
    iblk m c 3 t (ix2 g l) = ((memb l.val g.val : ℝ) : EReal) := by
  obtain ⟨-, -, -, -, -, -, e0, e1, -⟩ := idx_facts t
  show V m c main_v78 (((cfg0.win 3).blk t).view.emb (ix2 g l)) = _
  have h : ((cfg0.win 3).blk t).view.emb (ix2 g l) = ix2 g l := by
    funext b; apply Fin.ext
    match b with
    | ⟨0, _⟩ => show win0_3.index t (0 : Fin 2) * 32 + 1 * g.val = g.val; rw [e0]; omega
    | ⟨1, _⟩ => show win0_3.index t (1 : Fin 2) * 4096 + 1 * l.val = l.val; rw [e1]; omega
  rw [h, hMT]

/-- The three results as whole arrays. -/
def G4 : S16384x4096.Idx → EReal := fun i => ((kOut eR xr qr (i 0).val (i 1).val : ℝ) : EReal)
def G5 : S16384x32.Idx → EReal := fun i => ((kScale eR xr qr (i 0).val (i 1).val : ℝ) : EReal)
def G6 : S16384x1.Idx → EReal := fun i => ((nrm eR xr (i 0).val : ℝ) : EReal)

include hX hC hM hMT in
/-- What point t writes back of the first result is block t of the whole-array function. -/
theorem flushed4_eq (t : Fin cfg0.N) :
    (dats m 0 c).flushed 4 t = ((cfg0.win 4).blk t).view.read (Elt Ideal) (G4 xr qr) := by
  obtain ⟨-, -, -, -, -, -, -, -, e0, e1, -⟩ := idx_facts t
  show (cfg0.win 4).cut (grid0.coords t) ((dats m 0 c).after 4 t) = _
  rw [after0_4]
  unfold out4
  rw [View.canon_unit_zero hz]
  funext j
  obtain ⟨p, l, rfl⟩ : ∃ (p : Fin 128) (l : Fin 4096), j = ix2 p l := ⟨j 0, j 1, eq_ix2 j⟩
  show bOut (iblk m c 0 t) (iblk m c 1 t) (iblk m c 2 t) (iblk m c 3 t) (ix2 p l) = G4 xr qr (((cfg0.win 4).blk t).view.emb (ix2 p l))
  rw [bOut_apply xr qr (128 * t.val) (iblk m c 0 t) (iblk m c 1 t) (iblk m c 2 t) (iblk m c 3 t)
    (iblk0_apply m c xr hX t) (iblk1_apply m c qr hC t) (iblk2_apply m c hM t) (iblk3_apply m c hMT t) p l]
  unfold G4
  have h0 : ((((cfg0.win 4).blk t).view.emb (ix2 p l)) 0).val = 128 * t.val + p.val := by
    show win0_4.index t (0 : Fin 2) * 128 + 1 * p.val = _
    rw [e0]; omega
  have h1 : ((((cfg0.win 4).blk t).view.emb (ix2 p l)) 1).val = l.val := by
    show win0_4.index t (1 : Fin 2) * 4096 + 1 * l.val = _
    rw [e1]; omega
  rw [h0, h1]

include hX hC hM in
/-- What point t writes back of the second result. -/
theorem flushed5_eq (t : Fin cfg0.N) :
    (dats m 0 c).flushed 5 t = ((cfg0.win 5).blk t).view.read (Elt Ideal) (G5 xr qr) := by
  obtain ⟨-, -, -, -, -, -, -, -, -, -, e0, e1, -⟩ := idx_facts t
  show (cfg0.win 5).cut (grid0.coords t) ((dats m 0 c).after 5 t) = _
  rw [after0_5]
  unfold out5
  rw [View.canon_unit_zero hz]
  funext j
  obtain ⟨p, g, rfl⟩ : ∃ (p : Fin 128) (g : Fin 32), j = ix2 p g := ⟨j 0, j 1, eq_ix2 j⟩
  show bScale (iblk m c 0 t) (iblk m c 1 t) (iblk m c 2 t) (ix2 p g) = G5 xr qr (((cfg0.win 5).blk t).view.emb (ix2 p g))
  rw [bScale_apply xr qr (128 * t.val) (iblk m c 0 t) (iblk m c 1 t) (iblk m c 2 t)
    (iblk0_apply m c xr hX t) (iblk1_apply m c qr hC t) (iblk2_apply m c hM t) p g]
  unfold G5
  have h0 : ((((cfg0.win 5).blk t).view.emb (ix2 p g)) 0).val = 128 * t.val + p.val := by
    show win0_5.index t (0 : Fin 2) * 128 + 1 * p.val = _
    rw [e0]; omega
  have h1 : ((((cfg0.win 5).blk t).view.emb (ix2 p g)) 1).val = g.val := by
    show win0_5.index t (1 : Fin 2) * 32 + 1 * g.val = _
    rw [e1]; omega
  rw [h0, h1]

include hX in
/-- What point t writes back of the third result. -/
theorem flushed6_eq (t : Fin cfg0.N) :
    (dats m 0 c).flushed 6 t = ((cfg0.win 6).blk t).view.read (Elt Ideal) (G6 xr) := by
  obtain ⟨-, -, -, -, -, -, -, -, -, -, -, -, e0, e1⟩ := idx_facts t
  show (cfg0.win 6).cut (grid0.coords t) ((dats m 0 c).after 6 t) = _
  rw [after0_6]
  unfold out6
  rw [View.canon_unit_zero hz]
  funext j
  obtain ⟨p, u, rfl⟩ : ∃ (p : Fin 128) (u : Fin 1), j = ix2 p u := ⟨j 0, j 1, eq_ix2 j⟩
  show bNorm (iblk m c 0 t) (ix2 p u) = G6 xr (((cfg0.win 6).blk t).view.emb (ix2 p u))
  rw [bNorm_apply xr (128 * t.val) (iblk m c 0 t) (iblk0_apply m c xr hX t) p u]
  unfold G6
  have h0 : ((((cfg0.win 6).blk t).view.emb (ix2 p u)) 0).val = 128 * t.val + p.val := by
    show win0_6.index t (0 : Fin 2) * 128 + 1 * p.val = _
    rw [e0]; omega
  rw [h0]

/-! ## The blocks cover the arrays -/

theorem mem_blk4 (t : Fin cfg0.N) (i : S16384x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v79_0).slice (win0_4.rect t)).set ↔ _
  rw [View.set_slice_whole, Rect.mem_set_unit]
  exact Iff.rfl
theorem mem_blk5 (t : Fin cfg0.N) (i : S16384x32.Idx) :
    i ∈ ((cfg0.win 5).blk t).view.set ↔ ∀ a : Fin 2, win0_5.index t a * S128x32.size a ≤ (i a).val ∧ (i a).val < win0_5.index t a * S128x32.size a + S128x32.size a := by
  show i ∈ ((View.whole main_v79_1).slice (win0_5.rect t)).set ↔ _
  rw [View.set_slice_whole, Rect.mem_set_unit]
  exact Iff.rfl
theorem mem_blk6 (t : Fin cfg0.N) (i : S16384x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v79_2).slice (win0_6.rect t)).set ↔ _
  rw [View.set_slice_whole, Rect.mem_set_unit]
  exact Iff.rfl

/-- The point that covers row r is r / 128. -/
theorem covered4 (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 128 := N_0
  refine ⟨⟨(i 0).val / 128, by rw [hN]; omega⟩, flush0_4 _, ?_⟩
  rw [mem_blk4]
  obtain ⟨-, -, -, -, -, -, -, -, e0, e1, -⟩ := idx_facts ⟨(i 0).val / 128, by rw [hN]; omega⟩
  intro a
  match a with
  | ⟨0, _⟩ => show win0_4.index _ (0 : Fin 2) * 128 ≤ (i 0).val ∧ (i 0).val < win0_4.index _ (0 : Fin 2) * 128 + 128; rw [e0]; show (i 0).val / 128 * 128 ≤ _ ∧ _ < (i 0).val / 128 * 128 + 128; omega
  | ⟨1, _⟩ => show win0_4.index _ (1 : Fin 2) * 4096 ≤ (i 1).val ∧ (i 1).val < win0_4.index _ (1 : Fin 2) * 4096 + 4096; rw [e1]; omega
theorem covered5 (i : S16384x32.Idx) : ∃ t : Fin cfg0.N, (cfg0.win 5).flush t = true ∧ i ∈ ((cfg0.win 5).blk t).view.set := by
  have hi0 : (i 0).val < 16384 := (i 0).isLt
  have hi1 : (i 1).val < 32 := (i 1).isLt
  have hN : cfg0.N = 128 := N_0
  refine ⟨⟨(i 0).val / 128, by rw [hN]; omega⟩, flush0_5 _, ?_⟩
  rw [mem_blk5]
  obtain ⟨-, -, -, -, -, -, -, -, -, -, e0, e1, -⟩ := idx_facts ⟨(i 0).val / 128, by rw [hN]; omega⟩
  intro a
  match a with
  | ⟨0, _⟩ => show win0_5.index _ (0 : Fin 2) * 128 ≤ (i 0).val ∧ (i 0).val < win0_5.index _ (0 : Fin 2) * 128 + 128; rw [e0]; show (i 0).val / 128 * 128 ≤ _ ∧ _ < (i 0).val / 128 * 128 + 128; omega
  | ⟨1, _⟩ => show win0_5.index _ (1 : Fin 2) * 32 ≤ (i 1).val ∧ (i 1).val < win0_5.index _ (1 : Fin 2) * 32 + 32; rw [e1]; omega
theorem covered6 (i : S16384x1.Idx) : ∃ t : Fin cfg0.N, (cfg0.win 6).flush t = true ∧ i ∈ ((cfg0.win 6).blk t).view.set := by
  have hi0 : (i 0).val < 16384 := (i 0).isLt
  have hi1 : (i 1).val < 1 := (i 1).isLt
  have hN : cfg0.N = 128 := N_0
  refine ⟨⟨(i 0).val / 128, by rw [hN]; omega⟩, flush0_6 _, ?_⟩
  rw [mem_blk6]
  obtain ⟨-, -, -, -, -, -, -, -, -, -, -, -, e0, e1⟩ := idx_facts ⟨(i 0).val / 128, by rw [hN]; omega⟩
  intro a
  match a with
  | ⟨0, _⟩ => show win0_6.index _ (0 : Fin 2) * 128 ≤ (i 0).val ∧ (i 0).val < win0_6.index _ (0 : Fin 2) * 128 + 128; rw [e0]; show (i 0).val / 128 * 128 ≤ _ ∧ _ < (i 0).val / 128 * 128 + 128; omega
  | ⟨1, _⟩ => show win0_6.index _ (1 : Fin 2) * 1 ≤ (i 1).val ∧ (i 1).val < win0_6.index _ (1 : Fin 2) * 1 + 1; rw [e1]; omega

/-! ## The result arrays after the run -/

include hX hC hM hMT in
theorem final4 : (dats m 0 c).arrAt 4 cfg0.N = G4 xr qr :=
  (dats m 0 c).arrAt_eq_of_cover 4 (G4 xr qr) (fun t _ => flushed4_eq m c xr qr hX hC hM hMT t) covered4
include hX hC hM in
theorem final5 : (dats m 0 c).arrAt 5 cfg0.N = G5 xr qr :=
  (dats m 0 c).arrAt_eq_of_cover 5 (G5 xr qr) (fun t _ => flushed5_eq m c xr qr hX hC hM t) covered5
include hX in
theorem final6 : (dats m 0 c).arrAt 6 cfg0.N = G6 xr :=
  (dats m 0 c).arrAt_eq_of_cover 6 (G6 xr) (fun t _ => flushed6_eq m c xr hX t) covered6

end Arrays

end Cert.KernelIdeal.Hand

end
-- ==== Proof.KTablesMemb.lean ====
/-
  The two 0/1 group-membership matrices the host builds before the region: entry (l, g) of the [4096, 32] matrix —
  and entry (g, l) of its transpose — is one when lane l lies in group g (l / 128 = g) and zero otherwise.

  The host compares a row counter with a column counter over a [32, 32] table (one exactly on the diagonal), turns the
  comparison bit into a number, repeats each row 128 times along a new middle axis, and flattens the first two axes:
  row l of the result is row l / 128 of the table.
-/
import proofs.«126109_g61838939127936_pilotgen1_510_3_alg».proof.Proof.KMain
import proofs.«126109_g61838939127936_pilotgen1_510_3_alg».proof.Proof.RealModel
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

/-! ## The last ten host operations as a stretch of their own -/

section Stretch
variable {F : FTy → Type} [FloatOps F]

/-- The ten host operations that build the membership matrices: the last ten before the region. -/
abbrev membOps : List (HloOp τ sig (Elt F)) :=
  [ StableHlo.nullary main_v70 (iotaInDim S32x32 32 0),
    StableHlo.nullary main_v71 (iotaInDim S32x32 32 1),
    StableHlo.nullary main_c (constantI S_ 32 0#32),
    StableHlo.unary main_c main_v72 (broadcastInDim S32x32 ![] bcast_S_S32x32 : (⟨S_, .i32⟩ : BufTy).Contents (Elt F) → (⟨S32x32, .i32⟩ : BufTy).Contents (Elt F)),
    StableHlo.binary main_v70 main_v72 main_v73 (addi : (⟨S32x32, .i32⟩ : BufTy).Contents (Elt F) → (⟨S32x32, .i32⟩ : BufTy).Contents (Elt F) → (⟨S32x32, .i32⟩ : BufTy).Contents (Elt F)),
    StableHlo.binary main_v73 main_v71 main_v74 (cmpi .eq : (⟨S32x32, .i32⟩ : BufTy).Contents (Elt F) → (⟨S32x32, .i32⟩ : BufTy).Contents (Elt F) → (⟨S32x32, .i1⟩ : BufTy).Contents (Elt F)),
    StableHlo.unary main_v74 main_v75 (uitofp .f32 : (⟨S32x32, .i1⟩ : BufTy).Contents (Elt F) → (⟨S32x32, .f32⟩ : BufTy).Contents (Elt F)),
    StableHlo.unary main_v75 main_v76 (broadcastInDim S32x128x32 ![0, 2] bcast_S32x32_S32x128x32_0_2 : (⟨S32x32, .f32⟩ : BufTy).Contents (Elt F) → (⟨S32x128x32, .f32⟩ : BufTy).Contents (Elt F)),
    StableHlo.reshape main_v76 main_v77 rfl shapeCasts_S32x128x32_S4096x32,
    StableHlo.unary main_v77 main_v78 ((transpose S32x4096 [1, 0] · transposes_S4096x32_S32x4096_1_0) : (⟨S4096x32, .f32⟩ : BufTy).Contents (Elt F) → (⟨S32x4096, .f32⟩ : BufTy).Contents (Elt F)) ]

/-- The host operations before the region end in that stretch. -/
theorem hostOps0_split : (hostOps0 : List (HloOp τ sig (Elt F))) = List.take 71 hostOps0 ++ membOps := by
  have hd : List.drop 71 (hostOps0 (F := F)) = membOps := rfl
  rw [← hd, List.take_append_drop]

/-- The diagonal table: one where the row counter equals the column counter. -/
def membT : (⟨S32x32, .f32⟩ : BufTy).Contents (Elt F) :=
  (uitofp .f32 : (⟨S32x32, .i1⟩ : BufTy).Contents (Elt F) → (⟨S32x32, .f32⟩ : BufTy).Contents (Elt F))
    ((cmpi .eq : (⟨S32x32, .i32⟩ : BufTy).Contents (Elt F) → (⟨S32x32, .i32⟩ : BufTy).Contents (Elt F) → (⟨S32x32, .i1⟩ : BufTy).Contents (Elt F))
      ((addi : (⟨S32x32, .i32⟩ : BufTy).Contents (Elt F) → (⟨S32x32, .i32⟩ : BufTy).Contents (Elt F) → (⟨S32x32, .i32⟩ : BufTy).Contents (Elt F))
        (iotaInDim S32x32 32 0)
        ((broadcastInDim S32x32 ![] bcast_S_S32x32 : (⟨S_, .i32⟩ : BufTy).Contents (Elt F) → (⟨S32x32, .i32⟩ : BufTy).Contents (Elt F)) (constantI S_ 32 0#32)))
      (iotaInDim S32x32 32 1))

/-- The [4096, 32] membership matrix as a pure term. -/
def memb77 : (⟨S4096x32, .f32⟩ : BufTy).Contents (Elt F) :=
  shapeCast _ ((broadcastInDim S32x128x32 ![0, 2] bcast_S32x32_S32x128x32_0_2 : (⟨S32x32, .f32⟩ : BufTy).Contents (Elt F) → (⟨S32x128x32, .f32⟩ : BufTy).Contents (Elt F)) (membT (F := F)))
    shapeCasts_S32x128x32_S4096x32

/-- Its transpose. -/
def memb78 : (⟨S32x4096, .f32⟩ : BufTy).Contents (Elt F) :=
  ((transpose S32x4096 [1, 0] · transposes_S4096x32_S32x4096_1_0) : (⟨S4096x32, .f32⟩ : BufTy).Contents (Elt F) → (⟨S32x4096, .f32⟩ : BufTy).Contents (Elt F)) (memb77 (F := F))

variable (m : (ℓ : Loc nD τ sig) → Buf (Elt F) ℓ)

set_option maxHeartbeats 2000000 in
/-- What the region finds in the [4096, 32] matrix's buffer. -/
theorem V_main_v77 (c : Dev nD) : V m c main_v77 = memb77 (F := F) := by
  dsimp only [V, V0]
  rw [show List.flatten [hostOps0 (F := F)] = List.take 71 hostOps0 ++ membOps from by
    simp only [List.flatten_cons, List.flatten_nil, List.append_nil]; exact hostOps0_split, StableHlo.after_append]
  generalize StableHlo.after (List.take 71 (hostOps0 (F := F))) (fun b => m (c, b)) = W
  simp only [membOps]
  after_results
  rfl

set_option maxHeartbeats 2000000 in
/-- What the region finds in the transposed matrix's buffer. -/
theorem V_main_v78 (c : Dev nD) : V m c main_v78 = memb78 (F := F) := by
  dsimp only [V, V0]
  rw [show List.flatten [hostOps0 (F := F)] = List.take 71 hostOps0 ++ membOps from by
    simp only [List.flatten_cons, List.flatten_nil, List.append_nil]; exact hostOps0_split, StableHlo.after_append]
  generalize StableHlo.after (List.take 71 (hostOps0 (F := F))) (fun b => m (c, b)) = W
  simp only [membOps]
  after_results
  rfl

end Stretch

/-! ## The matrices at an index, at the ideal values -/

theorem uitofpV_apply {s : Shape} {w : ℕ} (x : IVec s w) (i : s.Idx) :
    (uitofp .f32 x : FVec Ideal s .f32) i = ((((x i).toNat : ℕ) : ℝ) : EReal) := rfl
theorem cmpiV_apply {s : Shape} {w : ℕ} (p : CmpIPredicate) (x y : IVec s w) (i : s.Idx) :
    cmpi p x y i = IntOp.cmpi p (x i) (y i) := rfl
theorem addiV_apply {s : Shape} {w : ℕ} (x y : IVec s w) (i : s.Idx) : addi x y i = IntOp.addi (x i) (y i) := rfl
theorem iotaV_apply {s : Shape} {w : ℕ} (d : Fin s.rank) (i : s.Idx) : iotaInDim s w d i = BitVec.ofNat w (i d).val := rfl

/-- The comparison bit of two counters below 32, as a number: one exactly when they are equal. -/
theorem eqBit (a g : ℕ) (ha : a < 32) (hg : g < 32) :
    ((((IntOp.cmpi .eq (IntOp.addi (BitVec.ofNat 32 a) (0#32)) (BitVec.ofNat 32 g)).toNat : ℕ) : ℝ) : EReal)
      = (((if a = g then 1 else 0 : ℝ)) : EReal) := by
  have h : (IntOp.addi (BitVec.ofNat 32 a) (0#32) == BitVec.ofNat 32 g) = decide (a = g) := by
    unfold IntOp.addi
    rw [BitVec.add_zero]
    by_cases hag : a = g
    · subst hag; simp
    · have hne : BitVec.ofNat 32 a ≠ BitVec.ofNat 32 g := fun h => hag (by
        have := congrArg BitVec.toNat h
        simp only [BitVec.toNat_ofNat] at this
        omega)
      simp [hne, hag]
  unfold IntOp.cmpi
  simp only [h]
  by_cases hag : a = g <;> simp [hag]

theorem membT_apply (a g : Fin 32) :
    membT (F := Ideal) (ix2 a g) = (((if a.val = g.val then 1 else 0 : ℝ)) : EReal) := by
  simp only [membT, uitofpV_apply, cmpiV_apply, addiV_apply, iotaV_apply]
  rw [broadcastInDim_apply _ bcast_S_S32x32 (constantI S_ 32 0#32) (ix2 a g) ix0 (fun a => a.elim0)]
  exact eqBit a.val g.val a.isLt g.isLt

/-- Entry (l, g) of the [4096, 32] matrix: whether lane l lies in group g. -/
theorem memb77_apply (l : Fin 4096) (g : Fin 32) :
    memb77 (F := Ideal) (ix2 l g) = ((Cert.QuantModel.memb l.val g.val : ℝ) : EReal) := by
  unfold memb77
  refine (shapeCast_apply _ shapeCasts_S32x128x32_S4096x32 (ix2 l g)
    (ix3 (⟨l.val / 128, by omega⟩ : Fin 32) (⟨l.val % 128, by omega⟩ : Fin 128) g) (by
      rw [Shape.rowMajor_val_three, Shape.rowMajor_val_two]
      show ((l.val / 128) * 128 + l.val % 128) * 32 + g.val = l.val * 32 + g.val
      omega)).trans ?_
  refine (broadcastInDim_apply _ bcast_S32x32_S32x128x32_0_2 _ _ (ix2 (⟨l.val / 128, by omega⟩ : Fin 32) g) (fun a => by
    match a with
    | ⟨0, _⟩ => rfl
    | ⟨1, _⟩ => rfl)).trans ?_
  exact membT_apply _ g

/-- Entry (g, l) of the transposed matrix. -/
theorem memb78_apply (g : Fin 32) (l : Fin 4096) :
    memb78 (F := Ideal) (ix2 g l) = ((Cert.QuantModel.memb l.val g.val : ℝ) : EReal) := by
  unfold memb78
  exact (transpose_ix2_apply _ transposes_S4096x32_S32x4096_1_0 g l).trans (memb77_apply l g)

/-- The [4096, 32] membership matrix as the region finds it. -/
theorem V_memb (m : (ℓ : Loc nD τ sig) → Buf (Elt Ideal) ℓ) (c : Dev nD) (l : Fin 4096) (g : Fin 32) :
    V m c main_v77 (ValueIdx.ix2 l g) = ((Cert.QuantModel.memb l.val g.val : ℝ) : EReal) := by
  rw [V_main_v77 m c]
  exact memb77_apply l g

/-- The transposed membership matrix as the region finds it. -/
theorem V_membT (m : (ℓ : Loc nD τ sig) → Buf (Elt Ideal) ℓ) (c : Dev nD) (g : Fin 32) (l : Fin 4096) :
    V m c main_v78 (ValueIdx.ix2 g l) = ((Cert.QuantModel.memb l.val g.val : ℝ) : EReal) := by
  rw [V_main_v78 m c]
  exact memb78_apply g l

end Cert.KernelIdeal.Hand

end
-- ==== Proof.KTablesCoefRStages.lean ====
/-
  The fourteen coefficient rows as a pure function of the quaternion table: one definition per tensor value the host
  computes before the region on the way to the [14, 4096] array, each applying exactly the operation that produces the
  value to the definitions of its operands (`q` is the [1024, 4] table).  `k1 k3 k5 k7` are the table's four columns,
  `k8` the zero column, `k14 k23 k29 k36 k43 k50 k56` the seven rows (four columns interleaved), `k64` the seven
  stacked, `k68` the first again over the other six negated, `k69` both stacks.
-/
import proofs.«126109_g61838939127936_pilotgen1_510_3_alg».proof.Proof.Gen.KernelIdeal

noncomputable section

namespace Cert.KernelIdeal.Hand.CoefR

open Cert.KernelIdeal Cert.KernelIdeal.Gen Idealize.ShloMosaic

variable {F : FTy → Type} [FloatOps F]

def k0 (q : (⟨S1024x4, .f32⟩ : BufTy).Contents (Elt F)) : (⟨S1024x1, .f32⟩ : BufTy).Contents (Elt F) :=
  ((extractStridedSlice S1024x1 ![0, 0] · slices_S1024x4_S1024x1_0_0) : (⟨S1024x4, .f32⟩ : BufTy).Contents (Elt F) → (⟨S1024x1, .f32⟩ : BufTy).Contents (Elt F)) q

def k1 (q : (⟨S1024x4, .f32⟩ : BufTy).Contents (Elt F)) : (⟨S1024, .f32⟩ : BufTy).Contents (Elt F) :=
  shapeCast _ (k0 q) shapeCasts_S1024x1_S1024

def k2 (q : (⟨S1024x4, .f32⟩ : BufTy).Contents (Elt F)) : (⟨S1024x1, .f32⟩ : BufTy).Contents (Elt F) :=
  ((extractStridedSlice S1024x1 ![0, 1] · slices_S1024x4_S1024x1_0_1) : (⟨S1024x4, .f32⟩ : BufTy).Contents (Elt F) → (⟨S1024x1, .f32⟩ : BufTy).Contents (Elt F)) q

def k3 (q : (⟨S1024x4, .f32⟩ : BufTy).Contents (Elt F)) : (⟨S1024, .f32⟩ : BufTy).Contents (Elt F) :=
  shapeCast _ (k2 q) shapeCasts_S1024x1_S1024

def k4 (q : (⟨S1024x4, .f32⟩ : BufTy).Contents (Elt F)) : (⟨S1024x1, .f32⟩ : BufTy).Contents (Elt F) :=
  ((extractStridedSlice S1024x1 ![0, 2] · slices_S1024x4_S1024x1_0_2) : (⟨S1024x4, .f32⟩ : BufTy).Contents (Elt F) → (⟨S1024x1, .f32⟩ : BufTy).Contents (Elt F)) q

def k5 (q : (⟨S1024x4, .f32⟩ : BufTy).Contents (Elt F)) : (⟨S1024, .f32⟩ : BufTy).Contents (Elt F) :=
  shapeCast _ (k4 q) shapeCasts_S1024x1_S1024

def k6 (q : (⟨S1024x4, .f32⟩ : BufTy).Contents (Elt F)) : (⟨S1024x1, .f32⟩ : BufTy).Contents (Elt F) :=
  ((extractStridedSlice S1024x1 ![0, 3] · slices_S1024x4_S1024x1_0_3) : (⟨S1024x4, .f32⟩ : BufTy).Contents (Elt F) → (⟨S1024x1, .f32⟩ : BufTy).Contents (Elt F)) q

def k7 (q : (⟨S1024x4, .f32⟩ : BufTy).Contents (Elt F)) : (⟨S1024, .f32⟩ : BufTy).Contents (Elt F) :=
  shapeCast _ (k6 q) shapeCasts_S1024x1_S1024

def kcst (q : (⟨S1024x4, .f32⟩ : BufTy).Contents (Elt F)) : (⟨S_, .f32⟩ : BufTy).Contents (Elt F) :=
  (constant S_ .f32 0x00000000#32)

def k8 (q : (⟨S1024x4, .f32⟩ : BufTy).Contents (Elt F)) : (⟨S1024, .f32⟩ : BufTy).Contents (Elt F) :=
  (broadcastInDim S1024 ![] bcast_S_S1024 : (⟨S_, .f32⟩ : BufTy).Contents (Elt F) → (⟨S1024, .f32⟩ : BufTy).Contents (Elt F)) (kcst q)

def k9 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k1 q)

def k10 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k1 q)

def k11 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k1 q)

def k12 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k1 q)

def k13 (q : (⟨S1024x4, .f32⟩ : BufTy).Contents (Elt F)) : (⟨S1024x4, .f32⟩ : BufTy).Contents (Elt F) :=
  concatenate S1024x4 1 [⟨S1024x1, k9 q⟩, ⟨S1024x1, k10 q⟩, ⟨S1024x1, k11 q⟩, ⟨S1024x1, k12 q⟩] concatenates_S1024x1_S1024x1_S1024x1_S1024x1_S1024x4_d1

def k14 (q : (⟨S1024x4, .f32⟩ : BufTy).Contents (Elt F)) : (⟨S4096, .f32⟩ : BufTy).Contents (Elt F) :=
  shapeCast _ (k13 q) shapeCasts_S1024x4_S4096

def k15 (q : (⟨S1024x4, .f32⟩ : BufTy).Contents (Elt F)) : (⟨S1024, .f32⟩ : BufTy).Contents (Elt F) :=
  (Host.negf : (⟨S1024, .f32⟩ : BufTy).Contents (Elt F) → (⟨S1024, .f32⟩ : BufTy).Contents (Elt F)) (k3 q)

def k16 (q : (⟨S1024x4, .f32⟩ : BufTy).Contents (Elt F)) : (⟨S1024, .f32⟩ : BufTy).Contents (Elt F) :=
  (Host.negf : (⟨S1024, .f32⟩ : BufTy).Contents (Elt F) → (⟨S1024, .f32⟩ : BufTy).Contents (Elt F)) (k7 q)

def k17 (q : (⟨S1024x4, .f32⟩ : BufTy).Contents (Elt F)) : (⟨S1024, .f32⟩ : BufTy).Contents (Elt F) :=
  (Host.negf : (⟨S1024, .f32⟩ : BufTy).Contents (Elt F) → (⟨S1024, .f32⟩ : BufTy).Contents (Elt F)) (k3 q)

def k18 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k15 q)

def k19 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k16 q)

def k20 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k17 q)

def k21 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k22 (q : (⟨S1024x4, .f32⟩ : BufTy).Contents (Elt F)) : (⟨S1024x4, .f32⟩ : BufTy).Contents (Elt F) :=
  concatenate S1024x4 1 [⟨S1024x1, k18 q⟩, ⟨S1024x1, k19 q⟩, ⟨S1024x1, k20 q⟩, ⟨S1024x1, k21 q⟩] concatenates_S1024x1_S1024x1_S1024x1_S1024x1_S1024x4_d1

def k23 (q : (⟨S1024x4, .f32⟩ : BufTy).Contents (Elt F)) : (⟨S4096, .f32⟩ : BufTy).Contents (Elt F) :=
  shapeCast _ (k22 q) shapeCasts_S1024x4_S4096

def k24 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k25 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k3 q)

def k26 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k7 q)

def k27 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k3 q)

def k28 (q : (⟨S1024x4, .f32⟩ : BufTy).Contents (Elt F)) : (⟨S1024x4, .f32⟩ : BufTy).Contents (Elt F) :=
  concatenate S1024x4 1 [⟨S1024x1, k24 q⟩, ⟨S1024x1, k25 q⟩, ⟨S1024x1, k26 q⟩, ⟨S1024x1, k27 q⟩] concatenates_S1024x1_S1024x1_S1024x1_S1024x1_S1024x4_d1

def k29 (q : (⟨S1024x4, .f32⟩ : BufTy).Contents (Elt F)) : (⟨S4096, .f32⟩ : BufTy).Contents (Elt F) :=
  shapeCast _ (k28 q) shapeCasts_S1024x4_S4096

def k30 (q : (⟨S1024x4, .f32⟩ : BufTy).Contents (Elt F)) : (⟨S1024, .f32⟩ : BufTy).Contents (Elt F) :=
  (Host.negf : (⟨S1024, .f32⟩ : BufTy).Contents (Elt F) → (⟨S1024, .f32⟩ : BufTy).Contents (Elt F)) (k5 q)

def k31 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k30 q)

def k32 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k5 q)

def k33 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k34 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k35 (q : (⟨S1024x4, .f32⟩ : BufTy).Contents (Elt F)) : (⟨S1024x4, .f32⟩ : BufTy).Contents (Elt F) :=
  concatenate S1024x4 1 [⟨S1024x1, k31 q⟩, ⟨S1024x1, k32 q⟩, ⟨S1024x1, k33 q⟩, ⟨S1024x1, k34 q⟩] concatenates_S1024x1_S1024x1_S1024x1_S1024x1_S1024x4_d1

def k36 (q : (⟨S1024x4, .f32⟩ : BufTy).Contents (Elt F)) : (⟨S4096, .f32⟩ : BufTy).Contents (Elt F) :=
  shapeCast _ (k35 q) shapeCasts_S1024x4_S4096

def k37 (q : (⟨S1024x4, .f32⟩ : BufTy).Contents (Elt F)) : (⟨S1024, .f32⟩ : BufTy).Contents (Elt F) :=
  (Host.negf : (⟨S1024, .f32⟩ : BufTy).Contents (Elt F) → (⟨S1024, .f32⟩ : BufTy).Contents (Elt F)) (k5 q)

def k38 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k39 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k40 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k5 q)

def k41 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k37 q)

def k42 (q : (⟨S1024x4, .f32⟩ : BufTy).Contents (Elt F)) : (⟨S1024x4, .f32⟩ : BufTy).Contents (Elt F) :=
  concatenate S1024x4 1 [⟨S1024x1, k38 q⟩, ⟨S1024x1, k39 q⟩, ⟨S1024x1, k40 q⟩, ⟨S1024x1, k41 q⟩] concatenates_S1024x1_S1024x1_S1024x1_S1024x1_S1024x4_d1

def k43 (q : (⟨S1024x4, .f32⟩ : BufTy).Contents (Elt F)) : (⟨S4096, .f32⟩ : BufTy).Contents (Elt F) :=
  shapeCast _ (k42 q) shapeCasts_S1024x4_S4096

def k44 (q : (⟨S1024x4, .f32⟩ : BufTy).Contents (Elt F)) : (⟨S1024, .f32⟩ : BufTy).Contents (Elt F) :=
  (Host.negf : (⟨S1024, .f32⟩ : BufTy).Contents (Elt F) → (⟨S1024, .f32⟩ : BufTy).Contents (Elt F)) (k7 q)

def k45 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k44 q)

def k46 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k47 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k48 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k49 (q : (⟨S1024x4, .f32⟩ : BufTy).Contents (Elt F)) : (⟨S1024x4, .f32⟩ : BufTy).Contents (Elt F) :=
  concatenate S1024x4 1 [⟨S1024x1, k45 q⟩, ⟨S1024x1, k46 q⟩, ⟨S1024x1, k47 q⟩, ⟨S1024x1, k48 q⟩] concatenates_S1024x1_S1024x1_S1024x1_S1024x1_S1024x4_d1

def k50 (q : (⟨S1024x4, .f32⟩ : BufTy).Contents (Elt F)) : (⟨S4096, .f32⟩ : BufTy).Contents (Elt F) :=
  shapeCast _ (k49 q) shapeCasts_S1024x4_S4096

def k51 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k52 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k53 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k8 q)

def k54 (q : (⟨S1024x4, .f32⟩ : BufTy).Contents (Elt F)) : (⟨S1024x1, .f32⟩ : BufTy).Contents (Elt F) :=
  (broadcastInDim S1024x1 ![0] bcast_S1024_S1024x1_0 : (⟨S1024, .f32⟩ : BufTy).Contents (Elt F) → (⟨S1024x1, .f32⟩ : BufTy).Contents (Elt F)) (k7 q)

def k55 (q : (⟨S1024x4, .f32⟩ : BufTy).Contents (Elt F)) : (⟨S1024x4, .f32⟩ : BufTy).Contents (Elt F) :=
  concatenate S1024x4 1 [⟨S1024x1, k51 q⟩, ⟨S1024x1, k52 q⟩, ⟨S1024x1, k53 q⟩, ⟨S1024x1, k54 q⟩] concatenates_S1024x1_S1024x1_S1024x1_S1024x1_S1024x4_d1

def k56 (q : (⟨S1024x4, .f32⟩ : BufTy).Contents (Elt F)) : (⟨S4096, .f32⟩ : BufTy).Contents (Elt F) :=
  shapeCast _ (k55 q) shapeCasts_S1024x4_S4096

def k57 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k14 q)

def k58 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k23 q)

def k59 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k29 q)

def k60 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k36 q)

def k61 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k43 q)

def k62 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k50 q)

def k63 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k56 q)

def k64 (q : (⟨S1024x4, .f32⟩ : BufTy).Contents (Elt F)) : (⟨S7x4096, .f32⟩ : BufTy).Contents (Elt F) :=
  concatenate S7x4096 0 [⟨S1x4096, k57 q⟩, ⟨S1x4096, k58 q⟩, ⟨S1x4096, k59 q⟩, ⟨S1x4096, k60 q⟩, ⟨S1x4096, k61 q⟩, ⟨S1x4096, k62 q⟩, ⟨S1x4096, k63 q⟩] concatenates_S1x4096_S1x4096_S1x4096_S1x4096_S1x4096_S1x4096_S1x4096_S7x4096_d0

def k65 (q : (⟨S1024x4, .f32⟩ : BufTy).Contents (Elt F)) : (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (k14 q)

def k66 (q : (⟨S1024x4, .f32⟩ : BufTy).Contents (Elt F)) : (⟨S6x4096, .f32⟩ : BufTy).Contents (Elt F) :=
  ((extractStridedSlice S6x4096 ![1, 0] · slices_S7x4096_S6x4096_1_0) : (⟨S7x4096, .f32⟩ : BufTy).Contents (Elt F) → (⟨S6x4096, .f32⟩ : BufTy).Contents (Elt F)) (k64 q)

def k67 (q : (⟨S1024x4, .f32⟩ : BufTy).Contents (Elt F)) : (⟨S6x4096, .f32⟩ : BufTy).Contents (Elt F) :=
  (Host.negf : (⟨S6x4096, .f32⟩ : BufTy).Contents (Elt F) → (⟨S6x4096, .f32⟩ : BufTy).Contents (Elt F)) (k66 q)

def k68 (q : (⟨S1024x4, .f32⟩ : BufTy).Contents (Elt F)) : (⟨S7x4096, .f32⟩ : BufTy).Contents (Elt F) :=
  concatenate S7x4096 0 [⟨S1x4096, k65 q⟩, ⟨S6x4096, k67 q⟩] concatenates_S1x4096_S6x4096_S7x4096_d0

def k69 (q : (⟨S1024x4, .f32⟩ : BufTy).Contents (Elt F)) : (⟨S14x4096, .f32⟩ : BufTy).Contents (Elt F) :=
  concatenate S14x4096 0 [⟨S7x4096, k64 q⟩, ⟨S7x4096, k68 q⟩] concatenates_S7x4096_S7x4096_S14x4096_d0

end Cert.KernelIdeal.Hand.CoefR

end
-- ==== Proof.KTablesCoefRRun.lean ====
/-
  The host operations before the region, read back: the first seventy-one leave, in the [14, 4096] array's buffer,
  the coefficient rows as a pure function of the quaternion table; the last ten do not write that buffer.
-/
import proofs.«126109_g61838939127936_pilotgen1_510_3_alg».proof.Proof.KTablesMemb
import proofs.«126109_g61838939127936_pilotgen1_510_3_alg».proof.Proof.KTablesCoefRStages

set_option maxRecDepth 16384

noncomputable section

namespace Cert.KernelIdeal.Hand.CoefR

open Idealize.ShloMosaic Idealize.ShloMosaic.TcCoe Idealize.ShloMosaic.StableHlo
open Idealize.SL.Sem
open Cert.KernelIdeal Cert.KernelIdeal.Gen Cert.KernelIdeal.Hand

variable {F : FTy → Type} [FloatOps F]

/-- The concatenation that writes `main_v13`, with its operands as plain arguments. -/
def fn_main_v13 : (main_v9 : Ref sig .tc).ty.Contents (Elt F) → (main_v10 : Ref sig .tc).ty.Contents (Elt F) → (main_v11 : Ref sig .tc).ty.Contents (Elt F) → (main_v12 : Ref sig .tc).ty.Contents (Elt F) → (main_v13 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v22`, with its operands as plain arguments. -/
def fn_main_v22 : (main_v18 : Ref sig .tc).ty.Contents (Elt F) → (main_v19 : Ref sig .tc).ty.Contents (Elt F) → (main_v20 : Ref sig .tc).ty.Contents (Elt F) → (main_v21 : Ref sig .tc).ty.Contents (Elt F) → (main_v22 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v28`, with its operands as plain arguments. -/
def fn_main_v28 : (main_v24 : Ref sig .tc).ty.Contents (Elt F) → (main_v25 : Ref sig .tc).ty.Contents (Elt F) → (main_v26 : Ref sig .tc).ty.Contents (Elt F) → (main_v27 : Ref sig .tc).ty.Contents (Elt F) → (main_v28 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v35`, with its operands as plain arguments. -/
def fn_main_v35 : (main_v31 : Ref sig .tc).ty.Contents (Elt F) → (main_v32 : Ref sig .tc).ty.Contents (Elt F) → (main_v33 : Ref sig .tc).ty.Contents (Elt F) → (main_v34 : Ref sig .tc).ty.Contents (Elt F) → (main_v35 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v42`, with its operands as plain arguments. -/
def fn_main_v42 : (main_v38 : Ref sig .tc).ty.Contents (Elt F) → (main_v39 : Ref sig .tc).ty.Contents (Elt F) → (main_v40 : Ref sig .tc).ty.Contents (Elt F) → (main_v41 : Ref sig .tc).ty.Contents (Elt F) → (main_v42 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v49`, with its operands as plain arguments. -/
def fn_main_v49 : (main_v45 : Ref sig .tc).ty.Contents (Elt F) → (main_v46 : Ref sig .tc).ty.Contents (Elt F) → (main_v47 : Ref sig .tc).ty.Contents (Elt F) → (main_v48 : Ref sig .tc).ty.Contents (Elt F) → (main_v49 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v55`, with its operands as plain arguments. -/
def fn_main_v55 : (main_v51 : Ref sig .tc).ty.Contents (Elt F) → (main_v52 : Ref sig .tc).ty.Contents (Elt F) → (main_v53 : Ref sig .tc).ty.Contents (Elt F) → (main_v54 : Ref sig .tc).ty.Contents (Elt F) → (main_v55 : Ref sig .tc).ty.Contents (Elt F) :=
  (fun u0 u1 u2 u3 => concatenate S1024x4 1 [⟨S1024x1, u0⟩, ⟨S1024x1, u1⟩, ⟨S1024x1, u2⟩, ⟨S1024x1, u3⟩] concatenates_S1024x1_S1024x1_S1024x1_S1024x1_S1024x4_d1)

/-- The concatenation that writes `main_v64`, with its operands as plain arguments. -/
def fn_main_v64 : (main_v57 : Ref sig .tc).ty.Contents (Elt F) → (main_v58 : Ref sig .tc).ty.Contents (Elt F) → (main_v59 : Ref sig .tc).ty.Contents (Elt F) → (main_v60 : Ref sig .tc).ty.Contents (Elt F) → (main_v61 : Ref sig .tc).ty.Contents (Elt F) → (main_v62 : Ref sig .tc).ty.Contents (Elt F) → (main_v63 : Ref sig .tc).ty.Contents (Elt F) → (main_v64 : Ref sig .tc).ty.Contents (Elt F) :=
  (fun u0 u1 u2 u3 u4 u5 u6 => concatenate S7x4096 0 [⟨S1x4096, u0⟩, ⟨S1x4096, u1⟩, ⟨S1x4096, u2⟩, ⟨S1x4096, u3⟩, ⟨S1x4096, u4⟩, ⟨S1x4096, u5⟩, ⟨S1x4096, u6⟩] concatenates_S1x4096_S1x4096_S1x4096_S1x4096_S1x4096_S1x4096_S1x4096_S7x4096_d0)

/-- The concatenation that writes `main_v68`, with its operands as plain arguments. -/
def fn_main_v68 : (⟨S1x4096, .f32⟩ : BufTy).Contents (Elt F) → (⟨S6x4096, .f32⟩ : BufTy).Contents (Elt F) → (⟨S7x4096, .f32⟩ : BufTy).Contents (Elt F) :=
  (fun a b => concatenate S7x4096 0 [⟨S1x4096, a⟩, ⟨S6x4096, b⟩] concatenates_S1x4096_S6x4096_S7x4096_d0)

/-- The concatenation that writes `main_v69`, with its operands as plain arguments. -/
def fn_main_v69 : (⟨S7x4096, .f32⟩ : BufTy).Contents (Elt F) → (⟨S7x4096, .f32⟩ : BufTy).Contents (Elt F) → (⟨S14x4096, .f32⟩ : BufTy).Contents (Elt F) :=
  (fun a b => concatenate S14x4096 0 [⟨S7x4096, a⟩, ⟨S7x4096, b⟩] concatenates_S7x4096_S7x4096_S14x4096_d0)

set_option maxHeartbeats 4000000 in
/-- The first seventy-one host operations: those that build the coefficient rows. -/
abbrev coefOps : List (HloOp τ sig (Elt F)) :=
  [ StableHlo.unary main_arg1 main_v0 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v0 main_v1 rfl shapeCasts_S1024x1_S1024,
    StableHlo.unary main_arg1 main_v2 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v2 main_v3 rfl shapeCasts_S1024x1_S1024,
    StableHlo.unary main_arg1 main_v4 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v4 main_v5 rfl shapeCasts_S1024x1_S1024,
    StableHlo.unary main_arg1 main_v6 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v6 main_v7 rfl shapeCasts_S1024x1_S1024,
    StableHlo.nullary main_cst (constant S_ .f32 0x00000000#32),
    StableHlo.unary main_cst main_v8 (broadcastInDim S1024 ![] bcast_S_S1024 : (⟨S_, .f32⟩ : BufTy).Contents (Elt F) → (⟨S1024, .f32⟩ : BufTy).Contents (Elt F)),
    StableHlo.unary main_v1 main_v9 (broadcastInDim S1024x1 ![0] bcast_S1024_S1024x1_0 : (⟨S1024, .f32⟩ : BufTy).Contents (Elt F) → (⟨S1024x1, .f32⟩ : BufTy).Contents (Elt F)),
    StableHlo.unary main_v1 main_v10 (broadcastInDim S1024x1 ![0] bcast_S1024_S1024x1_0 : (⟨S1024, .f32⟩ : BufTy).Contents (Elt F) → (⟨S1024x1, .f32⟩ : BufTy).Contents (Elt F)),
    StableHlo.unary main_v1 main_v11 (broadcastInDim S1024x1 ![0] bcast_S1024_S1024x1_0 : (⟨S1024, .f32⟩ : BufTy).Contents (Elt F) → (⟨S1024x1, .f32⟩ : BufTy).Contents (Elt F)),
    StableHlo.unary main_v1 main_v12 (broadcastInDim S1024x1 ![0] bcast_S1024_S1024x1_0 : (⟨S1024, .f32⟩ : BufTy).Contents (Elt F) → (⟨S1024x1, .f32⟩ : BufTy).Contents (Elt F)),
    StableHlo.nary ![main_v9, main_v10, main_v11, main_v12] main_v13 (fun u => fn_main_v13 (F := F) (u 0) (u 1) (u 2) (u 3)),
    StableHlo.reshape main_v13 main_v14 rfl shapeCasts_S1024x4_S4096,
    StableHlo.unary main_v3 main_v15 (Host.negf : (⟨S1024, .f32⟩ : BufTy).Contents (Elt F) → (⟨S1024, .f32⟩ : BufTy).Contents (Elt F)),
    StableHlo.unary main_v7 main_v16 (Host.negf : (⟨S1024, .f32⟩ : BufTy).Contents (Elt F) → (⟨S1024, .f32⟩ : BufTy).Contents (Elt F)),
    StableHlo.unary main_v3 main_v17 (Host.negf : (⟨S1024, .f32⟩ : BufTy).Contents (Elt F) → (⟨S1024, .f32⟩ : BufTy).Contents (Elt F)),
    StableHlo.unary main_v15 main_v18 (broadcastInDim S1024x1 ![0] bcast_S1024_S1024x1_0 : (⟨S1024, .f32⟩ : BufTy).Contents (Elt F) → (⟨S1024x1, .f32⟩ : BufTy).Contents (Elt F)),
    StableHlo.unary main_v16 main_v19 (broadcastInDim S1024x1 ![0] bcast_S1024_S1024x1_0 : (⟨S1024, .f32⟩ : BufTy).Contents (Elt F) → (⟨S1024x1, .f32⟩ : BufTy).Contents (Elt F)),
    StableHlo.unary main_v17 main_v20 (broadcastInDim S1024x1 ![0] bcast_S1024_S1024x1_0 : (⟨S1024, .f32⟩ : BufTy).Contents (Elt F) → (⟨S1024x1, .f32⟩ : BufTy).Contents (Elt F)),
    StableHlo.unary main_v8 main_v21 (broadcastInDim S1024x1 ![0] bcast_S1024_S1024x1_0 : (⟨S1024, .f32⟩ : BufTy).Contents (Elt F) → (⟨S1024x1, .f32⟩ : BufTy).Contents (Elt F)),
    StableHlo.nary ![main_v18, main_v19, main_v20, main_v21] main_v22 (fun u => fn_main_v22 (F := F) (u 0) (u 1) (u 2) (u 3)),
    StableHlo.reshape main_v22 main_v23 rfl shapeCasts_S1024x4_S4096,
    StableHlo.unary main_v8 main_v24 (broadcastInDim S1024x1 ![0] bcast_S1024_S1024x1_0 : (⟨S1024, .f32⟩ : BufTy).Contents (Elt F) → (⟨S1024x1, .f32⟩ : BufTy).Contents (Elt F)),
    StableHlo.unary main_v3 main_v25 (broadcastInDim S1024x1 ![0] bcast_S1024_S1024x1_0 : (⟨S1024, .f32⟩ : BufTy).Contents (Elt F) → (⟨S1024x1, .f32⟩ : BufTy).Contents (Elt F)),
    StableHlo.unary main_v7 main_v26 (broadcastInDim S1024x1 ![0] bcast_S1024_S1024x1_0 : (⟨S1024, .f32⟩ : BufTy).Contents (Elt F) → (⟨S1024x1, .f32⟩ : BufTy).Contents (Elt F)),
    StableHlo.unary main_v3 main_v27 (broadcastInDim S1024x1 ![0] bcast_S1024_S1024x1_0 : (⟨S1024, .f32⟩ : BufTy).Contents (Elt F) → (⟨S1024x1, .f32⟩ : BufTy).Contents (Elt F)),
    StableHlo.nary ![main_v24, main_v25, main_v26, main_v27] main_v28 (fun u => fn_main_v28 (F := F) (u 0) (u 1) (u 2) (u 3)),
    StableHlo.reshape main_v28 main_v29 rfl shapeCasts_S1024x4_S4096,
    StableHlo.unary main_v5 main_v30 (Host.negf : (⟨S1024, .f32⟩ : BufTy).Contents (Elt F) → (⟨S1024, .f32⟩ : BufTy).Contents (Elt F)),
    StableHlo.unary main_v30 main_v31 (broadcastInDim S1024x1 ![0] bcast_S1024_S1024x1_0 : (⟨S1024, .f32⟩ : BufTy).Contents (Elt F) → (⟨S1024x1, .f32⟩ : BufTy).Contents (Elt F)),
    StableHlo.unary main_v5 main_v32 (broadcastInDim S1024x1 ![0] bcast_S1024_S1024x1_0 : (⟨S1024, .f32⟩ : BufTy).Contents (Elt F) → (⟨S1024x1, .f32⟩ : BufTy).Contents (Elt F)),
    StableHlo.unary main_v8 main_v33 (broadcastInDim S1024x1 ![0] bcast_S1024_S1024x1_0 : (⟨S1024, .f32⟩ : BufTy).Contents (Elt F) → (⟨S1024x1, .f32⟩ : BufTy).Contents (Elt F)),
    StableHlo.unary main_v8 main_v34 (broadcastInDim S1024x1 ![0] bcast_S1024_S1024x1_0 : (⟨S1024, .f32⟩ : BufTy).Contents (Elt F) → (⟨S1024x1, .f32⟩ : BufTy).Contents (Elt F)),
    StableHlo.nary ![main_v31, main_v32, main_v33, main_v34] main_v35 (fun u => fn_main_v35 (F := F) (u 0) (u 1) (u 2) (u 3)),
    StableHlo.reshape main_v35 main_v36 rfl shapeCasts_S1024x4_S4096,
    StableHlo.unary main_v5 main_v37 (Host.negf : (⟨S1024, .f32⟩ : BufTy).Contents (Elt F) → (⟨S1024, .f32⟩ : BufTy).Contents (Elt F)),
    StableHlo.unary main_v8 main_v38 (broadcastInDim S1024x1 ![0] bcast_S1024_S1024x1_0 : (⟨S1024, .f32⟩ : BufTy).Contents (Elt F) → (⟨S1024x1, .f32⟩ : BufTy).Contents (Elt F)),
    StableHlo.unary main_v8 main_v39 (broadcastInDim S1024x1 ![0] bcast_S1024_S1024x1_0 : (⟨S1024, .f32⟩ : BufTy).Contents (Elt F) → (⟨S1024x1, .f32⟩ : BufTy).Contents (Elt F)),
    StableHlo.unary main_v5 main_v40 (broadcastInDim S1024x1 ![0] bcast_S1024_S1024x1_0 : (⟨S1024, .f32⟩ : BufTy).Contents (Elt F) → (⟨S1024x1, .f32⟩ : BufTy).Contents (Elt F)),
    StableHlo.unary main_v37 main_v41 (broadcastInDim S1024x1 ![0] bcast_S1024_S1024x1_0 : (⟨S1024, .f32⟩ : BufTy).Contents (Elt F) → (⟨S1024x1, .f32⟩ : BufTy).Contents (Elt F)),
    StableHlo.nary ![main_v38, main_v39, main_v40, main_v41] main_v42 (fun u => fn_main_v42 (F := F) (u 0) (u 1) (u 2) (u 3)),
    StableHlo.reshape main_v42 main_v43 rfl shapeCasts_S1024x4_S4096,
    StableHlo.unary main_v7 main_v44 (Host.negf : (⟨S1024, .f32⟩ : BufTy).Contents (Elt F) → (⟨S1024, .f32⟩ : BufTy).Contents (Elt F)),
    StableHlo.unary main_v44 main_v45 (broadcastInDim S1024x1 ![0] bcast_S1024_S1024x1_0 : (⟨S1024, .f32⟩ : BufTy).Contents (Elt F) → (⟨S1024x1, .f32⟩ : BufTy).Contents (Elt F)),
    StableHlo.unary main_v8 main_v46 (broadcastInDim S1024x1 ![0] bcast_S1024_S1024x1_0 : (⟨S1024, .f32⟩ : BufTy).Contents (Elt F) → (⟨S1024x1, .f32⟩ : BufTy).Contents (Elt F)),
    StableHlo.unary main_v8 main_v47 (broadcastInDim S1024x1 ![0] bcast_S1024_S1024x1_0 : (⟨S1024, .f32⟩ : BufTy).Contents (Elt F) → (⟨S1024x1, .f32⟩ : BufTy).Contents (Elt F)),
    StableHlo.unary main_v8 main_v48 (broadcastInDim S1024x1 ![0] bcast_S1024_S1024x1_0 : (⟨S1024, .f32⟩ : BufTy).Contents (Elt F) → (⟨S1024x1, .f32⟩ : BufTy).Contents (Elt F)),
    StableHlo.nary ![main_v45, main_v46, main_v47, main_v48] main_v49 (fun u => fn_main_v49 (F := F) (u 0) (u 1) (u 2) (u 3)),
    StableHlo.reshape main_v49 main_v50 rfl shapeCasts_S1024x4_S4096,
    StableHlo.unary main_v8 main_v51 (broadcastInDim S1024x1 ![0] bcast_S1024_S1024x1_0 : (⟨S1024, .f32⟩ : BufTy).Contents (Elt F) → (⟨S1024x1, .f32⟩ : BufTy).Contents (Elt F)),
    StableHlo.unary main_v8 main_v52 (broadcastInDim S1024x1 ![0] bcast_S1024_S1024x1_0 : (⟨S1024, .f32⟩ : BufTy).Contents (Elt F) → (⟨S1024x1, .f32⟩ : BufTy).Contents (Elt F)),
    StableHlo.unary main_v8 main_v53 (broadcastInDim S1024x1 ![0] bcast_S1024_S1024x1_0 : (⟨S1024, .f32⟩ : BufTy).Contents (Elt F) → (⟨S1024x1, .f32⟩ : BufTy).Contents (Elt F)),
    StableHlo.unary main_v7 main_v54 (broadcastInDim S1024x1 ![0] bcast_S1024_S1024x1_0 : (⟨S1024, .f32⟩ : BufTy).Contents (Elt F) → (⟨S1024x1, .f32⟩ : BufTy).Contents (Elt F)),
    StableHlo.nary ![main_v51, main_v52, main_v53, main_v54] main_v55 (fun u => fn_main_v55 (F := F) (u 0) (u 1) (u 2) (u 3)),
    StableHlo.reshape main_v55 main_v56 rfl shapeCasts_S1024x4_S4096,
    StableHlo.unary main_v14 main_v57 (broadcastInDim S1x4096 ![1] bcast_S4096_S1x4096_1 : (⟨S4096, .f32⟩ : BufTy).Contents (Elt F) → (⟨S1x4096, .f32⟩ : BufTy).Contents (Elt F)),
    StableHlo.unary main_v23 main_v58 (broadcastInDim S1x4096 ![1] bcast_S4096_S1x4096_1 : (⟨S4096, .f32⟩ : BufTy).Contents (Elt F) → (⟨S1x4096, .f32⟩ : BufTy).Contents (Elt F)),
    StableHlo.unary main_v29 main_v59 (broadcastInDim S1x4096 ![1] bcast_S4096_S1x4096_1 : (⟨S4096, .f32⟩ : BufTy).Contents (Elt F) → (⟨S1x4096, .f32⟩ : BufTy).Contents (Elt F)),
    StableHlo.unary main_v36 main_v60 (broadcastInDim S1x4096 ![1] bcast_S4096_S1x4096_1 : (⟨S4096, .f32⟩ : BufTy).Contents (Elt F) → (⟨S1x4096, .f32⟩ : BufTy).Contents (Elt F)),
    StableHlo.unary main_v43 main_v61 (broadcastInDim S1x4096 ![1] bcast_S4096_S1x4096_1 : (⟨S4096, .f32⟩ : BufTy).Contents (Elt F) → (⟨S1x4096, .f32⟩ : BufTy).Contents (Elt F)),
    StableHlo.unary main_v50 main_v62 (broadcastInDim S1x4096 ![1] bcast_S4096_S1x4096_1 : (⟨S4096, .f32⟩ : BufTy).Contents (Elt F) → (⟨S1x4096, .f32⟩ : BufTy).Contents (Elt F)),
    StableHlo.unary main_v56 main_v63 (broadcastInDim S1x4096 ![1] bcast_S4096_S1x4096_1 : (⟨S4096, .f32⟩ : BufTy).Contents (Elt F) → (⟨S1x4096, .f32⟩ : BufTy).Contents (Elt F)),
    StableHlo.nary ![main_v57, main_v58, main_v59, main_v60, main_v61, main_v62, main_v63] main_v64 (fun u => fn_main_v64 (F := F) (u 0) (u 1) (u 2) (u 3) (u 4) (u 5) (u 6)),
    StableHlo.unary main_v14 main_v65 (broadcastInDim S1x4096 ![1] bcast_S4096_S1x4096_1 : (⟨S4096, .f32⟩ : BufTy).Contents (Elt F) → (⟨S1x4096, .f32⟩ : BufTy).Contents (Elt F)),
    StableHlo.unary main_v64 main_v66 ((extractStridedSlice S6x4096 ![1, 0] · slices_S7x4096_S6x4096_1_0) : (⟨S7x4096, .f32⟩ : BufTy).Contents (Elt F) → (⟨S6x4096, .f32⟩ : BufTy).Contents (Elt F)),
    StableHlo.unary main_v66 main_v67 (Host.negf : (⟨S6x4096, .f32⟩ : BufTy).Contents (Elt F) → (⟨S6x4096, .f32⟩ : BufTy).Contents (Elt F)),
    StableHlo.binary main_v65 main_v67 main_v68 (fn_main_v68 (F := F)),
    StableHlo.binary main_v64 main_v68 main_v69 (fn_main_v69 (F := F)) ]

set_option maxHeartbeats 4000000 in
/-- The host operations before the region are those, then the ten that build the membership matrices. -/
theorem hostOps0_eq : (hostOps0 : List (HloOp τ sig (Elt F))) = coefOps ++ membOps := rfl

set_option maxHeartbeats 8000000 in
/-- After the seventy-one operations, from any contents, the [14, 4096] buffer holds the coefficient rows of the table. -/
theorem coef_v69 (V0 : Valuation τ sig (Elt F)) :
    after coefOps V0 (no_index (Proc.devRef .tc main_v69)) = k69 (V0 (Proc.devRef .tc main_arg1)) := by
  simp only [coefOps]
  after_results_simp
  try dsimp only [Matrix.cons_val]
  try after_results_simp
  try dsimp only [Matrix.cons_val]
  try after_results_simp
  all_goals rfl

variable (m : (ℓ : Loc nD τ sig) → Buf (Elt F) ℓ)

set_option maxHeartbeats 4000000 in
/-- What the region finds in the coefficient rows' buffer. -/
theorem V_main_v69 (c : Dev nD) : V m c main_v69 = k69 (m ((c : Thread nD τ).loc main_arg1)) := by
  dsimp only [V, V0]
  rw [show List.flatten [hostOps0 (F := F)] = coefOps ++ membOps from by
    simp only [List.flatten_cons, List.flatten_nil, List.append_nil]; exact hostOps0_eq, StableHlo.after_append]
  generalize hW : StableHlo.after (coefOps (F := F)) (fun b => m (c, b)) = W
  simp only [membOps]
  after_results
  subst hW
  exact coef_v69 _

end Cert.KernelIdeal.Hand.CoefR

end
-- ==== Proof.KTablesCoefR.lean ====
/-
  The coefficient rows the region finds, read at an index as real numbers: for a table with real entries, entry
  (a, l) of the [14, 4096] array is the model's coefficient — by the row a and the lane's place l % 4 in its block
  l / 4: the table's columns, negated or not, or zero; rows 7 to 13 are row 0 again and rows 1 to 6 negated.
-/
import proofs.«126109_g61838939127936_pilotgen1_510_3_alg».proof.Proof.KTablesCoefRRun
import proofs.«126109_g61838939127936_pilotgen1_510_3_alg».proof.Proof.RealModel
import Idealize.ShloMosaic.Lib.Pipeline.Value
import Idealize.ShloMosaic.PureOps.Ideal.Laws

set_option maxRecDepth 16384

noncomputable section

namespace Cert.KernelIdeal.Hand.CoefR

open Idealize.ShloMosaic Idealize.ShloMosaic.TcCoe Idealize.ShloMosaic.ValueIdx
open Idealize.SL.Sem
open Cert.KernelIdeal Cert.KernelIdeal.Gen Cert.KernelIdeal.Hand

theorem hnegf_apply {s : Shape} {φ : FTy} (a : FVec Ideal s φ) (i : s.Idx) : Host.negf a i = -(a i) := rfl

/-! ## Layout operations of the table's construction, read at an index -/

section LayoutR
variable {α : Type}

/-- A column [1024, 1] read as a vector. -/
theorem r_col_vec (x : S1024x1.Idx → α) (h : S1024x1.ShapeCasts S1024) (i : Fin 1024) :
    shapeCast S1024 x h (ix1 i) = x (ix2 i (0 : Fin 1)) :=
  shapeCast_apply x h _ _ (by
    rw [Shape.rowMajor_val_two, Shape.rowMajor_val_one]
    show i.val * 1 + 0 = i.val
    omega)

/-- The [1024, 4] matrix read row after row as one vector of 4096 lanes. -/
theorem r_flat (x : S1024x4.Idx → α) (h : S1024x4.ShapeCasts S4096) (k : Fin 1024) (j : Fin 4) (l : Fin 4096)
    (hl : l.val = k.val * 4 + j.val) : shapeCast S4096 x h (ix1 l) = x (ix2 k j) :=
  shapeCast_apply x h _ _ (by
    rw [Shape.rowMajor_val_two, Shape.rowMajor_val_one]
    show k.val * 4 + j.val = l.val
    rw [hl])

/-- A scalar spread over a shape. -/
theorem r_scalar {t : Shape} (x : S_.Idx → α) (h : S_.BroadcastsInDim t (![] : Fin 0 → Fin t.rank)) (j : t.Idx) :
    broadcastInDim t ![] h x j = x ix0 :=
  broadcastInDim_apply _ h x j ix0 (fun a => a.elim0)

/-- A vector laid as a column. -/
theorem r_vec_col (x : S1024.Idx → α) (h : S1024.BroadcastsInDim S1024x1 (![0] : Fin 1 → Fin S1024x1.rank)) (i : Fin 1024) (u : Fin 1) :
    broadcastInDim S1024x1 ![0] h x (ix2 i u) = x (ix1 i) :=
  broadcastInDim_apply _ h x _ (ix1 i) (fun a => by
    match a with
    | ⟨0, _⟩ => rfl)

/-- A vector laid as a row. -/
theorem r_vec_row (x : S4096.Idx → α) (h : S4096.BroadcastsInDim S1x4096 (![1] : Fin 1 → Fin S1x4096.rank)) (u : Fin 1) (l : Fin 4096) :
    broadcastInDim S1x4096 ![1] h x (ix2 u l) = x (ix1 l) :=
  broadcastInDim_apply _ h x _ (ix1 l) (fun a => by
    match a with
    | ⟨0, _⟩ => rfl)

/-- Four columns side by side: at (i, j) the j-th column at (i, 0). -/
theorem r_concat4 (x0 x1 x2 x3 : S1024x1.Idx → α)
    (h : Shape.Concatenates [S1024x1, S1024x1, S1024x1, S1024x1] S1024x4 1) (i : Fin 1024) (j : Fin 4) :
    concatenate S1024x4 1 [⟨S1024x1, x0⟩, ⟨S1024x1, x1⟩, ⟨S1024x1, x2⟩, ⟨S1024x1, x3⟩] h (ix2 i j)
      = (![x0, x1, x2, x3] j) (ix2 i (0 : Fin 1)) :=
  concatenate_ofFn_unit_apply (t := S1024x4) (s₁ := S1024x1) 1 ![x0, x1, x2, x3] h rfl rfl (ix2 i j) j rfl
    (ix2 i (0 : Fin 1)) (fun b hb => by
      match b with
      | ⟨0, _⟩ => rfl
      | ⟨1, _⟩ => exact absurd rfl hb)

/-- Seven rows stacked: at (b, l) the b-th row at (0, l). -/
theorem r_concat7 (x0 x1 x2 x3 x4 x5 x6 : S1x4096.Idx → α)
    (h : Shape.Concatenates [S1x4096, S1x4096, S1x4096, S1x4096, S1x4096, S1x4096, S1x4096] S7x4096 0) (b : Fin 7) (l : Fin 4096) :
    concatenate S7x4096 0 [⟨S1x4096, x0⟩, ⟨S1x4096, x1⟩, ⟨S1x4096, x2⟩, ⟨S1x4096, x3⟩, ⟨S1x4096, x4⟩, ⟨S1x4096, x5⟩, ⟨S1x4096, x6⟩] h (ix2 b l)
      = (![x0, x1, x2, x3, x4, x5, x6] b) (ix2 (0 : Fin 1) l) :=
  concatenate_ofFn_unit_apply (t := S7x4096) (s₁ := S1x4096) 0 ![x0, x1, x2, x3, x4, x5, x6] h rfl rfl (ix2 b l) b rfl
    (ix2 (0 : Fin 1) l) (fun c hc => by
      match c with
      | ⟨0, _⟩ => exact absurd rfl hc
      | ⟨1, _⟩ => rfl)

/-- Two blocks of rows stacked, read in the first block. -/
theorem r_rows_left {R1 R2 R : ℕ} (x1 : (⟨2, ![R1, 4096]⟩ : Shape).Idx → α) (x2 : (⟨2, ![R2, 4096]⟩ : Shape).Idx → α)
    (h : Shape.Concatenates [(⟨2, ![R1, 4096]⟩ : Shape), ⟨2, ![R2, 4096]⟩] ⟨2, ![R, 4096]⟩ 0) (i : Fin R) (l : Fin 4096) (i1 : Fin R1)
    (hi : i1.val = i.val) :
    concatenate ⟨2, ![R, 4096]⟩ 0 [⟨⟨2, ![R1, 4096]⟩, x1⟩, ⟨⟨2, ![R2, 4096]⟩, x2⟩] h (ix2 i l) = x1 (ix2 i1 l) :=
  concatenate_pair_apply_left (t := ⟨2, ![R, 4096]⟩) 0 x1 x2 h (ix2 i l) rfl (ix2 i1 l) (fun b => by
    match b with
    | ⟨0, _⟩ => exact hi
    | ⟨1, _⟩ => rfl)

/-- Two blocks of rows stacked, read past the first block. -/
theorem r_rows_right {R1 R2 R : ℕ} (x1 : (⟨2, ![R1, 4096]⟩ : Shape).Idx → α) (x2 : (⟨2, ![R2, 4096]⟩ : Shape).Idx → α)
    (h : Shape.Concatenates [(⟨2, ![R1, 4096]⟩ : Shape), ⟨2, ![R2, 4096]⟩] ⟨2, ![R, 4096]⟩ 0) (i : Fin R) (l : Fin 4096) (i2 : Fin R2)
    (hi : i2.val + R1 = i.val) :
    concatenate ⟨2, ![R, 4096]⟩ 0 [⟨⟨2, ![R1, 4096]⟩, x1⟩, ⟨⟨2, ![R2, 4096]⟩, x2⟩] h (ix2 i l) = x2 (ix2 i2 l) :=
  concatenate_pair_apply_right (t := ⟨2, ![R, 4096]⟩) 0 x1 x2 h (ix2 i l) rfl rfl (ix2 i2 l) (fun b hb => by
    match b with
    | ⟨0, _⟩ => exact absurd rfl hb
    | ⟨1, _⟩ => rfl) hi

end LayoutR

/-! ## The model's rows 7 to 13 from rows 0 to 6 -/

theorem coef_seven (qr : ℕ → ℕ → ℝ) (l : ℕ) : Cert.QuantModel.coef qr 7 l = Cert.QuantModel.coef qr 0 l := by
  simp [Cert.QuantModel.coef]

theorem coef_neg (qr : ℕ → ℕ → ℝ) (b : ℕ) (h1 : 1 ≤ b) (h6 : b ≤ 6) (l : ℕ) :
    Cert.QuantModel.coef qr (b + 7) l = -(Cert.QuantModel.coef qr b l) := by
  interval_cases b <;> simp [Cert.QuantModel.coef]

/-! ## The columns -/

theorem k1_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k1 q (ix1 k) = (((fun k => qr k 0) k.val : ℝ) : EReal) :=
  ((r_col_vec _ shapeCasts_S1024x1_S1024 k).trans
    (extractStridedSlice_apply _ q slices_S1024x4_S1024x1_0_0 _ (ix2 k (⟨0, by omega⟩ : Fin 4)) (fun a => by
      match a with
      | ⟨0, _⟩ => show k.val = 0 + k.val; omega
      | ⟨1, _⟩ => show 0 = 0 + 0; omega))).trans (hq k ⟨0, by omega⟩)

theorem k3_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k3 q (ix1 k) = (((fun k => qr k 1) k.val : ℝ) : EReal) :=
  ((r_col_vec _ shapeCasts_S1024x1_S1024 k).trans
    (extractStridedSlice_apply _ q slices_S1024x4_S1024x1_0_1 _ (ix2 k (⟨1, by omega⟩ : Fin 4)) (fun a => by
      match a with
      | ⟨0, _⟩ => show k.val = 0 + k.val; omega
      | ⟨1, _⟩ => show 1 = 1 + 0; omega))).trans (hq k ⟨1, by omega⟩)

theorem k5_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k5 q (ix1 k) = (((fun k => qr k 2) k.val : ℝ) : EReal) :=
  ((r_col_vec _ shapeCasts_S1024x1_S1024 k).trans
    (extractStridedSlice_apply _ q slices_S1024x4_S1024x1_0_2 _ (ix2 k (⟨2, by omega⟩ : Fin 4)) (fun a => by
      match a with
      | ⟨0, _⟩ => show k.val = 0 + k.val; omega
      | ⟨1, _⟩ => show 2 = 2 + 0; omega))).trans (hq k ⟨2, by omega⟩)

theorem k7_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k7 q (ix1 k) = (((fun k => qr k 3) k.val : ℝ) : EReal) :=
  ((r_col_vec _ shapeCasts_S1024x1_S1024 k).trans
    (extractStridedSlice_apply _ q slices_S1024x4_S1024x1_0_3 _ (ix2 k (⟨3, by omega⟩ : Fin 4)) (fun a => by
      match a with
      | ⟨0, _⟩ => show k.val = 0 + k.val; omega
      | ⟨1, _⟩ => show 3 = 3 + 0; omega))).trans (hq k ⟨3, by omega⟩)

theorem k8_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k8 q (ix1 k) = (((fun _ => 0) k.val : ℝ) : EReal) := by
  simp only [k8, kcst]
  rw [r_scalar, constant_apply]
  exact (Ideal.ofBits_zero_f32).trans EReal.coe_zero.symm

theorem k15_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k15 q (ix1 k) = (((fun k => -(qr k 1)) k.val : ℝ) : EReal) := by
  simp only [k15, hnegf_apply]
  rw [k3_at q qr hq k, ← EReal.coe_neg]

theorem k16_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k16 q (ix1 k) = (((fun k => -(qr k 3)) k.val : ℝ) : EReal) := by
  simp only [k16, hnegf_apply]
  rw [k7_at q qr hq k, ← EReal.coe_neg]

theorem k17_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k17 q (ix1 k) = (((fun k => -(qr k 1)) k.val : ℝ) : EReal) := by
  simp only [k17, hnegf_apply]
  rw [k3_at q qr hq k, ← EReal.coe_neg]

theorem k30_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k30 q (ix1 k) = (((fun k => -(qr k 2)) k.val : ℝ) : EReal) := by
  simp only [k30, hnegf_apply]
  rw [k5_at q qr hq k, ← EReal.coe_neg]

theorem k37_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k37 q (ix1 k) = (((fun k => -(qr k 2)) k.val : ℝ) : EReal) := by
  simp only [k37, hnegf_apply]
  rw [k5_at q qr hq k, ← EReal.coe_neg]

theorem k44_at (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) : k44 q (ix1 k) = (((fun k => -(qr k 3)) k.val : ℝ) : EReal) := by
  simp only [k44, hnegf_apply]
  rw [k7_at q qr hq k, ← EReal.coe_neg]

/-! ## A row: four columns interleaved -/

/-- Lane 4 k + j of four interleaved columns is the j-th column at k. -/
theorem row4_kj (a b c d : FVec Ideal S1024 .f32) (A B C D : ℕ → ℝ)
    (ha : ∀ k : Fin 1024, a (ix1 k) = ((A k.val : ℝ) : EReal)) (hb : ∀ k : Fin 1024, b (ix1 k) = ((B k.val : ℝ) : EReal))
    (hc : ∀ k : Fin 1024, c (ix1 k) = ((C k.val : ℝ) : EReal)) (hd : ∀ k : Fin 1024, d (ix1 k) = ((D k.val : ℝ) : EReal))
    (k : Fin 1024) (j : Fin 4) (l : Fin 4096) (hl : l.val = k.val * 4 + j.val) :
    shapeCast S4096 (concatenate S1024x4 1
        [⟨S1024x1, broadcastInDim S1024x1 ![0] bcast_S1024_S1024x1_0 a⟩, ⟨S1024x1, broadcastInDim S1024x1 ![0] bcast_S1024_S1024x1_0 b⟩,
         ⟨S1024x1, broadcastInDim S1024x1 ![0] bcast_S1024_S1024x1_0 c⟩, ⟨S1024x1, broadcastInDim S1024x1 ![0] bcast_S1024_S1024x1_0 d⟩]
        concatenates_S1024x1_S1024x1_S1024x1_S1024x1_S1024x4_d1) shapeCasts_S1024x4_S4096 (ix1 l)
      = (((if j.val = 0 then A k.val else if j.val = 1 then B k.val else if j.val = 2 then C k.val else D k.val : ℝ)) : EReal) := by
  rw [r_flat _ shapeCasts_S1024x4_S4096 k j l hl, r_concat4]
  match j with
  | ⟨0, _⟩ => exact (r_vec_col a bcast_S1024_S1024x1_0 k 0).trans (ha k)
  | ⟨1, _⟩ => exact (r_vec_col b bcast_S1024_S1024x1_0 k 0).trans (hb k)
  | ⟨2, _⟩ => exact (r_vec_col c bcast_S1024_S1024x1_0 k 0).trans (hc k)
  | ⟨3, _⟩ => exact (r_vec_col d bcast_S1024_S1024x1_0 k 0).trans (hd k)

/-- Row 0: its four columns interleaved. -/
theorem k14_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k14 q (ix1 l) = ((Cert.QuantModel.coef qr 0 l.val : ℝ) : EReal) := by
  refine (row4_kj (k1 q) (k1 q) (k1 q) (k1 q) (fun k => qr k 0) (fun k => qr k 0) (fun k => qr k 0) (fun k => qr k 0)
    (k1_at q qr hq) (k1_at q qr hq) (k1_at q qr hq) (k1_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun k => qr k 0) (l.val / 4) else if l.val % 4 = 1 then (fun k => qr k 0) (l.val / 4) else if l.val % 4 = 2 then (fun k => qr k 0) (l.val / 4) else (fun k => qr k 0) (l.val / 4)) = _
  obtain h | h | h | h : l.val % 4 = 0 ∨ l.val % 4 = 1 ∨ l.val % 4 = 2 ∨ l.val % 4 = 3 := by omega
  all_goals simp [Cert.QuantModel.coef, h]

/-- Row 1: its four columns interleaved. -/
theorem k23_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k23 q (ix1 l) = ((Cert.QuantModel.coef qr 1 l.val : ℝ) : EReal) := by
  refine (row4_kj (k15 q) (k16 q) (k17 q) (k8 q) (fun k => -(qr k 1)) (fun k => -(qr k 3)) (fun k => -(qr k 1)) (fun _ => 0)
    (k15_at q qr hq) (k16_at q qr hq) (k17_at q qr hq) (k8_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun k => -(qr k 1)) (l.val / 4) else if l.val % 4 = 1 then (fun k => -(qr k 3)) (l.val / 4) else if l.val % 4 = 2 then (fun k => -(qr k 1)) (l.val / 4) else (fun _ => 0) (l.val / 4)) = _
  obtain h | h | h | h : l.val % 4 = 0 ∨ l.val % 4 = 1 ∨ l.val % 4 = 2 ∨ l.val % 4 = 3 := by omega
  all_goals simp [Cert.QuantModel.coef, h]

/-- Row 2: its four columns interleaved. -/
theorem k29_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k29 q (ix1 l) = ((Cert.QuantModel.coef qr 2 l.val : ℝ) : EReal) := by
  refine (row4_kj (k8 q) (k3 q) (k7 q) (k3 q) (fun _ => 0) (fun k => qr k 1) (fun k => qr k 3) (fun k => qr k 1)
    (k8_at q qr hq) (k3_at q qr hq) (k7_at q qr hq) (k3_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun _ => 0) (l.val / 4) else if l.val % 4 = 1 then (fun k => qr k 1) (l.val / 4) else if l.val % 4 = 2 then (fun k => qr k 3) (l.val / 4) else (fun k => qr k 1) (l.val / 4)) = _
  obtain h | h | h | h : l.val % 4 = 0 ∨ l.val % 4 = 1 ∨ l.val % 4 = 2 ∨ l.val % 4 = 3 := by omega
  all_goals simp [Cert.QuantModel.coef, h]

/-- Row 3: its four columns interleaved. -/
theorem k36_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k36 q (ix1 l) = ((Cert.QuantModel.coef qr 3 l.val : ℝ) : EReal) := by
  refine (row4_kj (k30 q) (k5 q) (k8 q) (k8 q) (fun k => -(qr k 2)) (fun k => qr k 2) (fun _ => 0) (fun _ => 0)
    (k30_at q qr hq) (k5_at q qr hq) (k8_at q qr hq) (k8_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun k => -(qr k 2)) (l.val / 4) else if l.val % 4 = 1 then (fun k => qr k 2) (l.val / 4) else if l.val % 4 = 2 then (fun _ => 0) (l.val / 4) else (fun _ => 0) (l.val / 4)) = _
  obtain h | h | h | h : l.val % 4 = 0 ∨ l.val % 4 = 1 ∨ l.val % 4 = 2 ∨ l.val % 4 = 3 := by omega
  all_goals simp [Cert.QuantModel.coef, h]

/-- Row 4: its four columns interleaved. -/
theorem k43_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k43 q (ix1 l) = ((Cert.QuantModel.coef qr 4 l.val : ℝ) : EReal) := by
  refine (row4_kj (k8 q) (k8 q) (k5 q) (k37 q) (fun _ => 0) (fun _ => 0) (fun k => qr k 2) (fun k => -(qr k 2))
    (k8_at q qr hq) (k8_at q qr hq) (k5_at q qr hq) (k37_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun _ => 0) (l.val / 4) else if l.val % 4 = 1 then (fun _ => 0) (l.val / 4) else if l.val % 4 = 2 then (fun k => qr k 2) (l.val / 4) else (fun k => -(qr k 2)) (l.val / 4)) = _
  obtain h | h | h | h : l.val % 4 = 0 ∨ l.val % 4 = 1 ∨ l.val % 4 = 2 ∨ l.val % 4 = 3 := by omega
  all_goals simp [Cert.QuantModel.coef, h]

/-- Row 5: its four columns interleaved. -/
theorem k50_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k50 q (ix1 l) = ((Cert.QuantModel.coef qr 5 l.val : ℝ) : EReal) := by
  refine (row4_kj (k44 q) (k8 q) (k8 q) (k8 q) (fun k => -(qr k 3)) (fun _ => 0) (fun _ => 0) (fun _ => 0)
    (k44_at q qr hq) (k8_at q qr hq) (k8_at q qr hq) (k8_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun k => -(qr k 3)) (l.val / 4) else if l.val % 4 = 1 then (fun _ => 0) (l.val / 4) else if l.val % 4 = 2 then (fun _ => 0) (l.val / 4) else (fun _ => 0) (l.val / 4)) = _
  obtain h | h | h | h : l.val % 4 = 0 ∨ l.val % 4 = 1 ∨ l.val % 4 = 2 ∨ l.val % 4 = 3 := by omega
  all_goals simp [Cert.QuantModel.coef, h]

/-- Row 6: its four columns interleaved. -/
theorem k56_at (q : (⟨S1024x4, .f32⟩ : BufTy).Contents (Elt Ideal)) (qr : ℕ → ℕ → ℝ) (hq : ∀ (k : Fin 1024) (j : Fin 4), q (ix2 k j) = ((qr k.val j.val : ℝ) : EReal)) (l : Fin 4096) :
    k56 q (ix1 l) = ((Cert.QuantModel.coef qr 6 l.val : ℝ) : EReal) := by
  refine (row4_kj (k8 q) (k8 q) (k8 q) (k7 q) (fun _ => 0) (fun _ => 0) (fun _ => 0) (fun k => qr k 3)
    (k8_at q qr hq) (k8_at q qr hq) (k8_at q qr hq) (k7_at q qr hq) ⟨l.val / 4, by omega⟩ ⟨l.val % 4, by omega⟩ l (by show l.val = l.val / 4 * 4 + l.val % 4; omega)).trans ?_
  refine congrArg (fun t : ℝ => (t : EReal)) ?_
  show (if l.val % 4 = 0 then (fun _ => 0) (l.val / 4) else if l.val % 4 = 1 then (fun _ => 0) (l.val / 4) else if l.val % 4 = 2 then (fun _ => 0) (l.val / 4) else (fun k => qr k 3) (l.val / 4)) = _
  obtain h | h | h | h : l.val % 4 = 0 ∨ l.val % 4 = 1 ∨ l.val % 4 = 2 ∨ l.val % 4 = 3 := by omega
  all_goals simp [Cert.QuantModel.coef, h]

/-! ## The stacks -/

/-- The seven rows stacked. -/
theorem k64_at (q : (⟨S1024x4, .f32⟩ : BufTy).Contents (Elt Ideal)) (qr : ℕ → ℕ → ℝ) (hq : ∀ (k : Fin 1024) (j : Fin 4), q (ix2 k j) = ((qr k.val j.val : ℝ) : EReal)) (b : Fin 7) (l : Fin 4096) :
    k64 q (ix2 b l) = ((Cert.QuantModel.coef qr b.val l.val : ℝ) : EReal) := by
  unfold k64
  rw [r_concat7]
  match b with
  | ⟨0, _⟩ => exact (r_vec_row (k14 q) bcast_S4096_S1x4096_1 0 l).trans (k14_at q qr hq l)
  | ⟨1, _⟩ => exact (r_vec_row (k23 q) bcast_S4096_S1x4096_1 0 l).trans (k23_at q qr hq l)
  | ⟨2, _⟩ => exact (r_vec_row (k29 q) bcast_S4096_S1x4096_1 0 l).trans (k29_at q qr hq l)
  | ⟨3, _⟩ => exact (r_vec_row (k36 q) bcast_S4096_S1x4096_1 0 l).trans (k36_at q qr hq l)
  | ⟨4, _⟩ => exact (r_vec_row (k43 q) bcast_S4096_S1x4096_1 0 l).trans (k43_at q qr hq l)
  | ⟨5, _⟩ => exact (r_vec_row (k50 q) bcast_S4096_S1x4096_1 0 l).trans (k50_at q qr hq l)
  | ⟨6, _⟩ => exact (r_vec_row (k56 q) bcast_S4096_S1x4096_1 0 l).trans (k56_at q qr hq l)

/-- Both stacks: the fourteen rows. -/
theorem k69_at (q : (⟨S1024x4, .f32⟩ : BufTy).Contents (Elt Ideal)) (qr : ℕ → ℕ → ℝ) (hq : ∀ (k : Fin 1024) (j : Fin 4), q (ix2 k j) = ((qr k.val j.val : ℝ) : EReal)) (a : Fin 14) (l : Fin 4096) :
    k69 q (ix2 a l) = ((Cert.QuantModel.coef qr a.val l.val : ℝ) : EReal) := by
  unfold k69
  by_cases ha : a.val < 7
  · rw [r_rows_left _ _ concatenates_S7x4096_S7x4096_S14x4096_d0 a l (⟨a.val, ha⟩ : Fin 7) rfl]
    exact k64_at q qr hq ⟨a.val, ha⟩ l
  · rw [r_rows_right _ _ concatenates_S7x4096_S7x4096_S14x4096_d0 a l (⟨a.val - 7, by omega⟩ : Fin 7) (by show a.val - 7 + 7 = a.val; omega)]
    unfold k68
    by_cases h7 : a.val = 7
    · rw [r_rows_left _ _ concatenates_S1x4096_S6x4096_S7x4096_d0 (⟨a.val - 7, by omega⟩ : Fin 7) l (0 : Fin 1) (by show 0 = a.val - 7; omega)]
      refine ((r_vec_row (k14 q) bcast_S4096_S1x4096_1 0 l).trans (k14_at q qr hq l)).trans ?_
      rw [h7, coef_seven]
    · rw [r_rows_right _ _ concatenates_S1x4096_S6x4096_S7x4096_d0 (⟨a.val - 7, by omega⟩ : Fin 7) l (⟨a.val - 8, by omega⟩ : Fin 6) (by show a.val - 8 + 1 = a.val - 7; omega)]
      simp only [k67, k66, hnegf_apply]
      rw [extractStridedSlice_apply _ (k64 q) slices_S7x4096_S6x4096_1_0 _ (ix2 (⟨a.val - 7, by omega⟩ : Fin 7) l) (fun ax => by
        match ax with
        | ⟨0, _⟩ => show a.val - 7 = 1 + (a.val - 8); omega
        | ⟨1, _⟩ => show l.val = 0 + l.val; omega)]
      rw [k64_at q qr hq ⟨a.val - 7, by omega⟩ l, ← EReal.coe_neg]
      have e := coef_neg qr (a.val - 7) (by omega) (by omega) l.val
      rw [show a.val - 7 + 7 = a.val from by omega] at e
      rw [e]

end Cert.KernelIdeal.Hand.CoefR

namespace Cert.KernelIdeal.Hand

open Idealize.ShloMosaic Idealize.ShloMosaic.TcCoe Idealize.ShloMosaic.ValueIdx Idealize.SL.Sem
open Cert.KernelIdeal Cert.KernelIdeal.Gen

/-- The coefficient rows as the region finds them, for a table with real entries. -/
theorem V_coef_r (m : (ℓ : Loc nD τ sig) → Buf (Elt Ideal) ℓ) (c : Dev nD) (qr : ℕ → ℕ → ℝ)
    (hq : ∀ i : S1024x4.Idx, m ((c.tc : Thread nD τ).loc main_arg1) i = ((qr (i 0).val (i 1).val : ℝ) : EReal))
    (a : Fin 14) (l : Fin 4096) :
    V m c main_v69 (ValueIdx.ix2 a l) = ((Cert.QuantModel.coef qr a.val l.val : ℝ) : EReal) := by
  rw [CoefR.V_main_v69 m c]
  exact CoefR.k69_at _ qr (fun k j => hq (ix2 k j)) a l

end Cert.KernelIdeal.Hand

end
-- ==== Proof.KValue.lean ====
/-
  The idealized kernel's run, read as real numbers: for finite inputs each result array ends at the model's kernel
  function of the two argument arrays — the inverse rotation at (row, lane), the group means at (row, group), the
  clamped norm at (row) — and the arguments end unchanged.
-/
import proofs.«126109_g61838939127936_pilotgen1_510_3_alg».proof.Proof.KArrays
import proofs.«126109_g61838939127936_pilotgen1_510_3_alg».proof.Proof.KTablesCoefR

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen
open Cert.QuantModel Cert.Eps
open scoped BigOperators

/-- A column [a, 1] read as the vector [a]: entry i is the column at row i. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i 0) :=
  shapeCast_apply x h _ _ (by
    rw [Shape.rowMajor_val_two, Shape.rowMajor_val_one]
    show i.val * 1 + 0 = i.val
    omega)

/-- The third result as a vector. -/
def G7 (xr : ℕ → ℕ → ℝ) : S16384.Idx → EReal := fun i => ((nrm eR xr (i 0).val : ℝ) : EReal)

theorem run_value (m : (ℓ : Loc nD τ sig) → Buf (Elt Ideal) ℓ) (ρ : Dev nD → PrngReg) (xr qr : Dev nD → ℕ → ℕ → ℝ)
    (hX : ∀ (c : Dev nD) (i : S16384x4096.Idx), m ((c.tc : Thread nD τ).loc main_arg0) i = ((xr c (i 0).val (i 1).val : ℝ) : EReal))
    (hQ : ∀ (c : Dev nD) (i : S1024x4.Idx), m ((c.tc : Thread nD τ).loc main_arg1) i = ((qr c (i 0).val (i 1).val : ℝ) : EReal)) :
    θ_run (defs (F := Ideal)) (onTc (τ := τ) (main (F := Ideal))) ⟨m, fun _ => 0, ρ⟩ (fun r => ∀ c : Dev nD,
      r.2.mem ((c.tc : Thread nD τ).loc main_v79_0) = G4 (xr c) (qr c)
      ∧ r.2.mem ((c.tc : Thread nD τ).loc main_v79_1) = G5 (xr c) (qr c)
      ∧ r.2.mem ((c.tc : Thread nD τ).loc main_v80) = G7 (xr c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_named m ρ)
  obtain ⟨h0, h1, h2, h3, h4⟩ := h c
  have hC := V_coef_r m c (qr c) (hQ c)
  have hM := V_memb m c
  have hMT := V_membT m c
  refine ⟨h0.trans (final4 m c (xr c) (qr c) (hX c) hC hM hMT), h1.trans (final5 m c (xr c) (qr c) (hX c) hC hM), h2.trans ?_, h3, h4⟩
  rw [final6 m c (xr c) (hX c)]
  funext i
  obtain ⟨r', rfl⟩ : ∃ r' : Fin 16384, i = ix1 r' := ⟨i 0, eq_ix1 i⟩
  rw [shapeCast_a1_a_apply]
  rfl

end Cert.KernelIdeal.Hand

end
-- ==== Proof.KFinite.lean ====
/-
  The precondition read: when the all-finite predicate holds of two arrays at the ideal values, every entry of both
  is a real number (an extended real whose absolute value is below +∞ is neither infinity).
-/
import proofs.«126109_g61838939127936_pilotgen1_510_3_alg».proof.Pre_finite_inputs
import proofs.«126109_g61838939127936_pilotgen1_510_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- An extended real whose absolute value is below +∞ is a real number. -/
theorem real_of_abs_lt_inf (x : EReal) (h : Ideal.cmp .olt (max x (-x)) (Ideal.ofBits .f32 0x7F800000#32) = 1#1) :
    ∃ a : ℝ, x = (a : EReal) := by
  have hinf : Ideal.ofBits .f32 0x7F800000#32 = ⊤ := by simp [Ideal.ofBits, Ideal.ieee]
  rw [hinf] at h
  induction x using EReal.rec with
  | bot => exfalso; revert h; simp [Ideal.cmp]
  | coe a => exact ⟨a, rfl⟩
  | top => exfalso; revert h; simp [Ideal.cmp]

/-- The precondition makes every entry of both arrays a real number. -/
theorem finite_of_pre [hP : Cert.Pre_finite_inputs.Facts] (X : FVec Ideal Cert.Pre_finite_inputs.S16384x4096 .f32)
    (Q : FVec Ideal Cert.Pre_finite_inputs.S1024x4 .f32)
    (h : Cert.Pre_finite_inputs.fn (F := Ideal) X Q = fun _ => 1#1) :
    (∀ i, ∃ a : ℝ, X i = (a : EReal)) ∧ (∀ i, ∃ a : ℝ, Q i = (a : EReal)) := by
  have h0 := congrFun h ix0
  dsimp only [Cert.Pre_finite_inputs.fn] at h0
  obtain ⟨hA, hB⟩ := IntOp.andi_eq_one.mp h0
  refine ⟨fun i => ?_, fun i => ?_⟩
  · exact real_of_abs_lt_inf (X i) (Host.reduce_andi_all _ _ _ _ ix0 hA i)
  · exact real_of_abs_lt_inf (Q i) (Host.reduce_andi_all _ _ _ _ ix0 hB i)

end Cert.Finite

end
-- ==== Proof.RefOps.lean ====
/-
  The reference's @main as a list of host operations, window by window: the four printed windows as four lists
  (the two called functions' operations written at their call sites, over the call's buffers), their concatenation,
  and the facts the run of a straight line asks: @main is that line, every operation touches device buffers only,
  and which buffers each window writes.
-/
import proofs.«126109_g61838939127936_pilotgen1_510_3_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after two stretches run one after the other are the contents after their concatenation. -/
theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The concatenation that writes `main_v86`, with its four operands as plain arguments. -/
def fn_main_v86 : (main_v82 : Ref sig .tc).ty.Contents (Elt F) → (main_v83 : Ref sig .tc).ty.Contents (Elt F) → (main_v84 : Ref sig .tc).ty.Contents (Elt F) → (main_v85 : Ref sig .tc).ty.Contents (Elt F) → (main_v86 : Ref sig .tc).ty.Contents (Elt F) :=
  (fun u0 u1 u2 u3 => concatenate S16384x1024x4 2 [⟨S16384x1024x1, u0⟩, ⟨S16384x1024x1, u1⟩, ⟨S16384x1024x1, u2⟩, ⟨S16384x1024x1, u3⟩] concatenates_S16384x1024x1_S16384x1024x1_S16384x1024x1_S16384x1024x1_S16384x1024x4_d2)

/-- The concatenation that writes `main_v192`, with its four operands as plain arguments. -/
def fn_main_v192 : (main_v188 : Ref sig .tc).ty.Contents (Elt F) → (main_v189 : Ref sig .tc).ty.Contents (Elt F) → (main_v190 : Ref sig .tc).ty.Contents (Elt F) → (main_v191 : Ref sig .tc).ty.Contents (Elt F) → (main_v192 : Ref sig .tc).ty.Contents (Elt F) :=
  (fun u0 u1 u2 u3 => concatenate S16384x1024x4 2 [⟨S16384x1024x1, u0⟩, ⟨S16384x1024x1, u1⟩, ⟨S16384x1024x1, u2⟩, ⟨S16384x1024x1, u3⟩] concatenates_S16384x1024x1_S16384x1024x1_S16384x1024x1_S16384x1024x1_S16384x1024x4_d2)

/-- Window 0 of @main: 64 operations. -/
abbrev ops0 : List (HloOp τ sig (Elt F)) :=
  [ StableHlo.nullary main_cst (fun i => FloatOps.ofBits .f32 (lit0 (S4.rowMajor i))),
    TRef.binary (.of main_arg0 : TRef sig ⟨S16384x4096, .f32⟩) (.of main_arg0 : TRef sig ⟨S16384x4096, .f32⟩) main_call0.v0 mulf,
    TRef.nullary main_call0.cst (constant S_ .f32 0x00000000#32),
    TRef.binary main_call0.v0 main_call0.cst main_call0.v1 (fun x v => Host.reduceAdd x v reducesTo_S16384x4096_S16384_d1 h_S_),
    TRef.unary main_call0.v1 main_call0.v2 (broadcastInDim S16384x1 ![0] bcast_S16384_S16384x1_0),
    TRef.unary main_call0.v2 main_call0.v3 Host.sqrt,
    StableHlo.nullary main_cst_0 (constant S_ .f32 0x322BCC77#32),
    StableHlo.unary main_cst_0 main_v1 (broadcastInDim S16384x1 ![] bcast_S_S16384x1 : (⟨S_, .f32⟩ : BufTy).Contents (Elt F) → (⟨S16384x1, .f32⟩ : BufTy).Contents (Elt F)),
    StableHlo.binary main_v0 main_v1 main_v2 (maximumf : (⟨S16384x1, .f32⟩ : BufTy).Contents (Elt F) → (⟨S16384x1, .f32⟩ : BufTy).Contents (Elt F) → (⟨S16384x1, .f32⟩ : BufTy).Contents (Elt F)),
    StableHlo.unary main_v2 main_v3 (broadcastInDim S16384x4096 ![0, 1] bcast_S16384x1_S16384x4096_0_1 : (⟨S16384x1, .f32⟩ : BufTy).Contents (Elt F) → (⟨S16384x4096, .f32⟩ : BufTy).Contents (Elt F)),
    StableHlo.binary main_arg0 main_v3 main_v4 (Host.divf : (⟨S16384x4096, .f32⟩ : BufTy).Contents (Elt F) → (⟨S16384x4096, .f32⟩ : BufTy).Contents (Elt F) → (⟨S16384x4096, .f32⟩ : BufTy).Contents (Elt F)),
    StableHlo.reshape main_v4 main_v5 rfl shapeCasts_S16384x4096_S16384x1024x4,
    StableHlo.unary main_arg1 main_v6 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v6 main_v7 rfl shapeCasts_S1024x1_S1024,
    StableHlo.unary main_arg1 main_v8 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v8 main_v9 rfl shapeCasts_S1024x1_S1024,
    StableHlo.unary main_arg1 main_v10 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v10 main_v11 rfl shapeCasts_S1024x1_S1024,
    StableHlo.unary main_arg1 main_v12 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v12 main_v13 rfl shapeCasts_S1024x1_S1024,
    StableHlo.unary main_v5 main_v14 ((extractStridedSlice S16384x1024x1 ![0, 0, 0] · slices_S16384x1024x4_S16384x1024x1_0_0_0) : (⟨S16384x1024x4, .f32⟩ : BufTy).Contents (Elt F) → (⟨S16384x1024x1, .f32⟩ : BufTy).Contents (Elt F)),
    StableHlo.reshape main_v14 main_v15 rfl shapeCasts_S16384x1024x1_S16384x1024,
    StableHlo.unary main_v5 main_v16 ((extractStridedSlice S16384x1024x1 ![0, 0, 1] · slices_S16384x1024x4_S16384x1024x1_0_0_1) : (⟨S16384x1024x4, .f32⟩ : BufTy).Contents (Elt F) → (⟨S16384x1024x1, .f32⟩ : BufTy).Contents (Elt F)),
    StableHlo.reshape main_v16 main_v17 rfl shapeCasts_S16384x1024x1_S16384x1024,
    StableHlo.unary main_v5 main_v18 ((extractStridedSlice S16384x1024x1 ![0, 0, 2] · slices_S16384x1024x4_S16384x1024x1_0_0_2) : (⟨S16384x1024x4, .f32⟩ : BufTy).Contents (Elt F) → (⟨S16384x1024x1, .f32⟩ : BufTy).Contents (Elt F)),
    StableHlo.reshape main_v18 main_v19 rfl shapeCasts_S16384x1024x1_S16384x1024,
    StableHlo.unary main_v5 main_v20 ((extractStridedSlice S16384x1024x1 ![0, 0, 3] · slices_S16384x1024x4_S16384x1024x1_0_0_3) : (⟨S16384x1024x4, .f32⟩ : BufTy).Contents (Elt F) → (⟨S16384x1024x1, .f32⟩ : BufTy).Contents (Elt F)),
    StableHlo.reshape main_v20 main_v21 rfl shapeCasts_S16384x1024x1_S16384x1024,
    StableHlo.unary main_v7 main_v22 (broadcastInDim S1x1024 ![1] bcast_S1024_S1x1024_1 : (⟨S1024, .f32⟩ : BufTy).Contents (Elt F) → (⟨S1x1024, .f32⟩ : BufTy).Contents (Elt F)),
    StableHlo.unary main_v22 main_v23 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v23 main_v15 main_v24 (mulf : (⟨S16384x1024, .f32⟩ : BufTy).Contents (Elt F) → (⟨S16384x1024, .f32⟩ : BufTy).Contents (Elt F) → (⟨S16384x1024, .f32⟩ : BufTy).Contents (Elt F)),
    StableHlo.unary main_v9 main_v25 (broadcastInDim S1x1024 ![1] bcast_S1024_S1x1024_1 : (⟨S1024, .f32⟩ : BufTy).Contents (Elt F) → (⟨S1x1024, .f32⟩ : BufTy).Contents (Elt F)),
    StableHlo.unary main_v25 main_v26 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v26 main_v17 main_v27 (mulf : (⟨S16384x1024, .f32⟩ : BufTy).Contents (Elt F) → (⟨S16384x1024, .f32⟩ : BufTy).Contents (Elt F) → (⟨S16384x1024, .f32⟩ : BufTy).Contents (Elt F)),
    StableHlo.binary main_v24 main_v27 main_v28 (subf : (⟨S16384x1024, .f32⟩ : BufTy).Contents (Elt F) → (⟨S16384x1024, .f32⟩ : BufTy).Contents (Elt F) → (⟨S16384x1024, .f32⟩ : BufTy).Contents (Elt F)),
    StableHlo.unary main_v11 main_v29 (broadcastInDim S1x1024 ![1] bcast_S1024_S1x1024_1 : (⟨S1024, .f32⟩ : BufTy).Contents (Elt F) → (⟨S1x1024, .f32⟩ : BufTy).Contents (Elt F)),
    StableHlo.unary main_v29 main_v30 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v30 main_v19 main_v31 (mulf : (⟨S16384x1024, .f32⟩ : BufTy).Contents (Elt F) → (⟨S16384x1024, .f32⟩ : BufTy).Contents (Elt F) → (⟨S16384x1024, .f32⟩ : BufTy).Contents (Elt F)),
    StableHlo.binary main_v28 main_v31 main_v32 (subf : (⟨S16384x1024, .f32⟩ : BufTy).Contents (Elt F) → (⟨S16384x1024, .f32⟩ : BufTy).Contents (Elt F) → (⟨S16384x1024, .f32⟩ : BufTy).Contents (Elt F)),
    StableHlo.unary main_v13 main_v33 (broadcastInDim S1x1024 ![1] bcast_S1024_S1x1024_1 : (⟨S1024, .f32⟩ : BufTy).Contents (Elt F) → (⟨S1x1024, .f32⟩ : BufTy).Contents (Elt F)),
    StableHlo.unary main_v33 main_v34 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v34 main_v21 main_v35 (mulf : (⟨S16384x1024, .f32⟩ : BufTy).Contents (Elt F) → (⟨S16384x1024, .f32⟩ : BufTy).Contents (Elt F) → (⟨S16384x1024, .f32⟩ : BufTy).Contents (Elt F)),
    StableHlo.binary main_v32 main_v35 main_v36 (subf : (⟨S16384x1024, .f32⟩ : BufTy).Contents (Elt F) → (⟨S16384x1024, .f32⟩ : BufTy).Contents (Elt F) → (⟨S16384x1024, .f32⟩ : BufTy).Contents (Elt F)),
    StableHlo.unary main_v7 main_v37 (broadcastInDim S1x1024 ![1] bcast_S1024_S1x1024_1 : (⟨S1024, .f32⟩ : BufTy).Contents (Elt F) → (⟨S1x1024, .f32⟩ : BufTy).Contents (Elt F)),
    StableHlo.unary main_v37 main_v38 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v38 main_v17 main_v39 (mulf : (⟨S16384x1024, .f32⟩ : BufTy).Contents (Elt F) → (⟨S16384x1024, .f32⟩ : BufTy).Contents (Elt F) → (⟨S16384x1024, .f32⟩ : BufTy).Contents (Elt F)),
    StableHlo.unary main_v9 main_v40 (broadcastInDim S1x1024 ![1] bcast_S1024_S1x1024_1 : (⟨S1024, .f32⟩ : BufTy).Contents (Elt F) → (⟨S1x1024, .f32⟩ : BufTy).Contents (Elt F)),
    StableHlo.unary main_v40 main_v41 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v41 main_v15 main_v42 (mulf : (⟨S16384x1024, .f32⟩ : BufTy).Contents (Elt F) → (⟨S16384x1024, .f32⟩ : BufTy).Contents (Elt F) → (⟨S16384x1024, .f32⟩ : BufTy).Contents (Elt F)),
    StableHlo.binary main_v39 main_v42 main_v43 (addf : (⟨S16384x1024, .f32⟩ : BufTy).Contents (Elt F) → (⟨S16384x1024, .f32⟩ : BufTy).Contents (Elt F) → (⟨S16384x1024, .f32⟩ : BufTy).Contents (Elt F)),
    StableHlo.unary main_v11 main_v44 (broadcastInDim S1x1024 ![1] bcast_S1024_S1x1024_1 : (⟨S1024, .f32⟩ : BufTy).Contents (Elt F) → (⟨S1x1024, .f32⟩ : BufTy).Contents (Elt F)),
    StableHlo.unary main_v44 main_v45 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v45 main_v21 main_v46 (mulf : (⟨S16384x1024, .f32⟩ : BufTy).Contents (Elt F) → (⟨S16384x1024, .f32⟩ : BufTy).Contents (Elt F) → (⟨S16384x1024, .f32⟩ : BufTy).Contents (Elt F)),
    StableHlo.binary main_v43 main_v46 main_v47 (addf : (⟨S16384x1024, .f32⟩ : BufTy).Contents (Elt F) → (⟨S16384x1024, .f32⟩ : BufTy).Contents (Elt F) → (⟨S16384x1024, .f32⟩ : BufTy).Contents (Elt F)),
    StableHlo.unary main_v13 main_v48 (broadcastInDim S1x1024 ![1] bcast_S1024_S1x1024_1 : (⟨S1024, .f32⟩ : BufTy).Contents (Elt F) → (⟨S1x1024, .f32⟩ : BufTy).Contents (Elt F)),
    StableHlo.unary main_v48 main_v49 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v49 main_v19 main_v50 (mulf : (⟨S16384x1024, .f32⟩ : BufTy).Contents (Elt F) → (⟨S16384x1024, .f32⟩ : BufTy).Contents (Elt F) → (⟨S16384x1024, .f32⟩ : BufTy).Contents (Elt F)),
    StableHlo.binary main_v47 main_v50 main_v51 (subf : (⟨S16384x1024, .f32⟩ : BufTy).Contents (Elt F) → (⟨S16384x1024, .f32⟩ : BufTy).Contents (Elt F) → (⟨S16384x1024, .f32⟩ : BufTy).Contents (Elt F)),
    StableHlo.unary main_v7 main_v52 (broadcastInDim S1x1024 ![1] bcast_S1024_S1x1024_1 : (⟨S1024, .f32⟩ : BufTy).Contents (Elt F) → (⟨S1x1024, .f32⟩ : BufTy).Contents (Elt F)),
    StableHlo.unary main_v52 main_v53 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v53 main_v19 main_v54 (mulf : (⟨S16384x1024, .f32⟩ : BufTy).Contents (Elt F) → (⟨S16384x1024, .f32⟩ : BufTy).Contents (Elt F) → (⟨S16384x1024, .f32⟩ : BufTy).Contents (Elt F)),
    StableHlo.unary main_v9 main_v55 (broadcastInDim S1x1024 ![1] bcast_S1024_S1x1024_1 : (⟨S1024, .f32⟩ : BufTy).Contents (Elt F) → (⟨S1x1024, .f32⟩ : BufTy).Contents (Elt F)),
    StableHlo.unary main_v55 main_v56 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v56 main_v21 main_v57 (mulf : (⟨S16384x1024, .f32⟩ : BufTy).Contents (Elt F) → (⟨S16384x1024, .f32⟩ : BufTy).Contents (Elt F) → (⟨S16384x1024, .f32⟩ : BufTy).Contents (Elt F)) ]

set_option maxRecDepth 8192 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨nullary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub ..⟩

set_option maxRecDepth 8192 in
theorem ops0_fresh : ∀ op ∈ (ops0 : List (HloOp τ sig (Elt F))), op.fresh = ∅ := by
  intro _ h; (repeat (cases h with | head => rfl | tail _ h => ?_)); exact nomatch h

/-- The buffers window 0 writes. -/
abbrev ops0_W : List (Ref sig .tc) := [main_cst, main_call0_v0, main_call0_cst, main_call0_v1, main_call0_v2, main_v0, main_cst_0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57]

set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 1 of @main: 60 operations. -/
abbrev ops1 : List (HloOp τ sig (Elt F)) :=
  [ StableHlo.binary main_v54 main_v57 main_v58 (subf : (⟨S16384x1024, .f32⟩ : BufTy).Contents (Elt F) → (⟨S16384x1024, .f32⟩ : BufTy).Contents (Elt F) → (⟨S16384x1024, .f32⟩ : BufTy).Contents (Elt F)),
    StableHlo.unary main_v11 main_v59 (broadcastInDim S1x1024 ![1] bcast_S1024_S1x1024_1 : (⟨S1024, .f32⟩ : BufTy).Contents (Elt F) → (⟨S1x1024, .f32⟩ : BufTy).Contents (Elt F)),
    StableHlo.unary main_v59 main_v60 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v60 main_v15 main_v61 (mulf : (⟨S16384x1024, .f32⟩ : BufTy).Contents (Elt F) → (⟨S16384x1024, .f32⟩ : BufTy).Contents (Elt F) → (⟨S16384x1024, .f32⟩ : BufTy).Contents (Elt F)),
    StableHlo.binary main_v58 main_v61 main_v62 (addf : (⟨S16384x1024, .f32⟩ : BufTy).Contents (Elt F) → (⟨S16384x1024, .f32⟩ : BufTy).Contents (Elt F) → (⟨S16384x1024, .f32⟩ : BufTy).Contents (Elt F)),
    StableHlo.unary main_v13 main_v63 (broadcastInDim S1x1024 ![1] bcast_S1024_S1x1024_1 : (⟨S1024, .f32⟩ : BufTy).Contents (Elt F) → (⟨S1x1024, .f32⟩ : BufTy).Contents (Elt F)),
    StableHlo.unary main_v63 main_v64 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v64 main_v17 main_v65 (mulf : (⟨S16384x1024, .f32⟩ : BufTy).Contents (Elt F) → (⟨S16384x1024, .f32⟩ : BufTy).Contents (Elt F) → (⟨S16384x1024, .f32⟩ : BufTy).Contents (Elt F)),
    StableHlo.binary main_v62 main_v65 main_v66 (addf : (⟨S16384x1024, .f32⟩ : BufTy).Contents (Elt F) → (⟨S16384x1024, .f32⟩ : BufTy).Contents (Elt F) → (⟨S16384x1024, .f32⟩ : BufTy).Contents (Elt F)),
    StableHlo.unary main_v7 main_v67 (broadcastInDim S1x1024 ![1] bcast_S1024_S1x1024_1 : (⟨S1024, .f32⟩ : BufTy).Contents (Elt F) → (⟨S1x1024, .f32⟩ : BufTy).Contents (Elt F)),
    StableHlo.unary main_v67 main_v68 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v68 main_v21 main_v69 (mulf : (⟨S16384x1024, .f32⟩ : BufTy).Contents (Elt F) → (⟨S16384x1024, .f32⟩ : BufTy).Contents (Elt F) → (⟨S16384x1024, .f32⟩ : BufTy).Contents (Elt F)),
    StableHlo.unary main_v9 main_v70 (broadcastInDim S1x1024 ![1] bcast_S1024_S1x1024_1 : (⟨S1024, .f32⟩ : BufTy).Contents (Elt F) → (⟨S1x1024, .f32⟩ : BufTy).Contents (Elt F)),
    StableHlo.unary main_v70 main_v71 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v71 main_v19 main_v72 (mulf : (⟨S16384x1024, .f32⟩ : BufTy).Contents (Elt F) → (⟨S16384x1024, .f32⟩ : BufTy).Contents (Elt F) → (⟨S16384x1024, .f32⟩ : BufTy).Contents (Elt F)),
    StableHlo.binary main_v69 main_v72 main_v73 (addf : (⟨S16384x1024, .f32⟩ : BufTy).Contents (Elt F) → (⟨S16384x1024, .f32⟩ : BufTy).Contents (Elt F) → (⟨S16384x1024, .f32⟩ : BufTy).Contents (Elt F)),
    StableHlo.unary main_v11 main_v74 (broadcastInDim S1x1024 ![1] bcast_S1024_S1x1024_1 : (⟨S1024, .f32⟩ : BufTy).Contents (Elt F) → (⟨S1x1024, .f32⟩ : BufTy).Contents (Elt F)),
    StableHlo.unary main_v74 main_v75 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v75 main_v17 main_v76 (mulf : (⟨S16384x1024, .f32⟩ : BufTy).Contents (Elt F) → (⟨S16384x1024, .f32⟩ : BufTy).Contents (Elt F) → (⟨S16384x1024, .f32⟩ : BufTy).Contents (Elt F)),
    StableHlo.binary main_v73 main_v76 main_v77 (subf : (⟨S16384x1024, .f32⟩ : BufTy).Contents (Elt F) → (⟨S16384x1024, .f32⟩ : BufTy).Contents (Elt F) → (⟨S16384x1024, .f32⟩ : BufTy).Contents (Elt F)),
    StableHlo.unary main_v13 main_v78 (broadcastInDim S1x1024 ![1] bcast_S1024_S1x1024_1 : (⟨S1024, .f32⟩ : BufTy).Contents (Elt F) → (⟨S1x1024, .f32⟩ : BufTy).Contents (Elt F)),
    StableHlo.unary main_v78 main_v79 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v79 main_v15 main_v80 (mulf : (⟨S16384x1024, .f32⟩ : BufTy).Contents (Elt F) → (⟨S16384x1024, .f32⟩ : BufTy).Contents (Elt F) → (⟨S16384x1024, .f32⟩ : BufTy).Contents (Elt F)),
    StableHlo.binary main_v77 main_v80 main_v81 (addf : (⟨S16384x1024, .f32⟩ : BufTy).Contents (Elt F) → (⟨S16384x1024, .f32⟩ : BufTy).Contents (Elt F) → (⟨S16384x1024, .f32⟩ : BufTy).Contents (Elt F)),
    StableHlo.unary main_v36 main_v82 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v51 main_v83 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v66 main_v84 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v81 main_v85 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.nary ![main_v82, main_v83, main_v84, main_v85] main_v86 (fun u => fn_main_v86 (F := F) (u 0) (u 1) (u 2) (u 3)),
    StableHlo.reshape main_v86 main_v87 rfl shapeCasts_S16384x1024x4_S16384x4096,
    StableHlo.reshape main_v87 main_v88 rfl shapeCasts_S16384x4096_S16384x32x128,
    StableHlo.unary main_v88 main_v89 (Host.absf : (⟨S16384x32x128, .f32⟩ : BufTy).Contents (Elt F) → (⟨S16384x32x128, .f32⟩ : BufTy).Contents (Elt F)),
    StableHlo.nullary main_cst_1 (constant S_ .f32 0x00000000#32),
    StableHlo.binary main_v89 main_cst_1 main_v90 ((fun x v => Host.reduceAdd x v reducesTo_S16384x32x128_S16384x32_d2 h_S_) : (⟨S16384x32x128, .f32⟩ : BufTy).Contents (Elt F) → (⟨S_, .f32⟩ : BufTy).Contents (Elt F) → (⟨S16384x32, .f32⟩ : BufTy).Contents (Elt F)),
    StableHlo.nullary main_cst_2 (constant S_ .f32 0x43000000#32),
    StableHlo.unary main_cst_2 main_v91 (broadcastInDim S16384x32 ![] bcast_S_S16384x32 : (⟨S_, .f32⟩ : BufTy).Contents (Elt F) → (⟨S16384x32, .f32⟩ : BufTy).Contents (Elt F)),
    StableHlo.binary main_v90 main_v91 main_v92 (Host.divf : (⟨S16384x32, .f32⟩ : BufTy).Contents (Elt F) → (⟨S16384x32, .f32⟩ : BufTy).Contents (Elt F) → (⟨S16384x32, .f32⟩ : BufTy).Contents (Elt F)),
    StableHlo.unary main_v88 main_v93 (Host.sign : (⟨S16384x32x128, .f32⟩ : BufTy).Contents (Elt F) → (⟨S16384x32x128, .f32⟩ : BufTy).Contents (Elt F)),
    StableHlo.nullary main_cst_3 (constant S_ .f32 0x00000000#32),
    StableHlo.unary main_cst_3 main_v94 (broadcastInDim S16384x32x128 ![] bcast_S_S16384x32x128 : (⟨S_, .f32⟩ : BufTy).Contents (Elt F) → (⟨S16384x32x128, .f32⟩ : BufTy).Contents (Elt F)),
    StableHlo.binary main_v93 main_v94 main_v95 (cmpf .oeq : (⟨S16384x32x128, .f32⟩ : BufTy).Contents (Elt F) → (⟨S16384x32x128, .f32⟩ : BufTy).Contents (Elt F) → (⟨S16384x32x128, .i1⟩ : BufTy).Contents (Elt F)),
    StableHlo.nullary main_cst_4 (constant S_ .f32 0x3F800000#32),
    StableHlo.unary main_cst_4 main_v96 (broadcastInDim S16384x32x128 ![] bcast_S_S16384x32x128 : (⟨S_, .f32⟩ : BufTy).Contents (Elt F) → (⟨S16384x32x128, .f32⟩ : BufTy).Contents (Elt F)),
    TRef.ternary (.of main_v95 : TRef sig ⟨S16384x32x128, .i1⟩) (.of main_v96 : TRef sig ⟨S16384x32x128, .f32⟩) (.of main_v93 : TRef sig ⟨S16384x32x128, .f32⟩) main_call1.v0 select,
    StableHlo.binary main_v97 main_v88 main_v98 (subf : (⟨S16384x32x128, .f32⟩ : BufTy).Contents (Elt F) → (⟨S16384x32x128, .f32⟩ : BufTy).Contents (Elt F) → (⟨S16384x32x128, .f32⟩ : BufTy).Contents (Elt F)),
    StableHlo.binary main_v88 main_v98 main_v99 (addf : (⟨S16384x32x128, .f32⟩ : BufTy).Contents (Elt F) → (⟨S16384x32x128, .f32⟩ : BufTy).Contents (Elt F) → (⟨S16384x32x128, .f32⟩ : BufTy).Contents (Elt F)),
    StableHlo.nullary main_cst_5 (constant S_ .f32 0x322BCC77#32),
    StableHlo.unary main_cst_5 main_v100 (broadcastInDim S16384x32 ![] bcast_S_S16384x32 : (⟨S_, .f32⟩ : BufTy).Contents (Elt F) → (⟨S16384x32, .f32⟩ : BufTy).Contents (Elt F)),
    StableHlo.binary main_v92 main_v100 main_v101 (maximumf : (⟨S16384x32, .f32⟩ : BufTy).Contents (Elt F) → (⟨S16384x32, .f32⟩ : BufTy).Contents (Elt F) → (⟨S16384x32, .f32⟩ : BufTy).Contents (Elt F)),
    StableHlo.binary main_v101 main_v92 main_v102 (subf : (⟨S16384x32, .f32⟩ : BufTy).Contents (Elt F) → (⟨S16384x32, .f32⟩ : BufTy).Contents (Elt F) → (⟨S16384x32, .f32⟩ : BufTy).Contents (Elt F)),
    StableHlo.binary main_v92 main_v102 main_v103 (addf : (⟨S16384x32, .f32⟩ : BufTy).Contents (Elt F) → (⟨S16384x32, .f32⟩ : BufTy).Contents (Elt F) → (⟨S16384x32, .f32⟩ : BufTy).Contents (Elt F)),
    StableHlo.unary main_v103 main_v104 (broadcastInDim S16384x32x1 ![0, 1] bcast_S16384x32_S16384x32x1_0_1 : (⟨S16384x32, .f32⟩ : BufTy).Contents (Elt F) → (⟨S16384x32x1, .f32⟩ : BufTy).Contents (Elt F)),
    StableHlo.unary main_v104 main_v105 (broadcastInDim S16384x32x128 ![0, 1, 2] bcast_S16384x32x1_S16384x32x128_0_1_2 : (⟨S16384x32x1, .f32⟩ : BufTy).Contents (Elt F) → (⟨S16384x32x128, .f32⟩ : BufTy).Contents (Elt F)),
    StableHlo.binary main_v99 main_v105 main_v106 (mulf : (⟨S16384x32x128, .f32⟩ : BufTy).Contents (Elt F) → (⟨S16384x32x128, .f32⟩ : BufTy).Contents (Elt F) → (⟨S16384x32x128, .f32⟩ : BufTy).Contents (Elt F)),
    StableHlo.reshape main_v106 main_v107 rfl shapeCasts_S16384x32x128_S16384x4096,
    StableHlo.unary main_cst main_v108 (broadcastInDim S1x4 ![1] bcast_S4_S1x4_1 : (⟨S4, .f32⟩ : BufTy).Contents (Elt F) → (⟨S1x4, .f32⟩ : BufTy).Contents (Elt F)),
    StableHlo.unary main_v108 main_v109 (broadcastInDim S1024x4 ![0, 1] bcast_S1x4_S1024x4_0_1 : (⟨S1x4, .f32⟩ : BufTy).Contents (Elt F) → (⟨S1024x4, .f32⟩ : BufTy).Contents (Elt F)),
    StableHlo.binary main_arg1 main_v109 main_v110 (mulf : (⟨S1024x4, .f32⟩ : BufTy).Contents (Elt F) → (⟨S1024x4, .f32⟩ : BufTy).Contents (Elt F) → (⟨S1024x4, .f32⟩ : BufTy).Contents (Elt F)),
    StableHlo.reshape main_v107 main_v111 rfl shapeCasts_S16384x4096_S16384x1024x4,
    StableHlo.unary main_v110 main_v112 ((extractStridedSlice S1024x1 ![0, 0] · slices_S1024x4_S1024x1_0_0) : (⟨S1024x4, .f32⟩ : BufTy).Contents (Elt F) → (⟨S1024x1, .f32⟩ : BufTy).Contents (Elt F)) ]

set_option maxRecDepth 8192 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., unary_bufs_sub .., unary_bufs_sub .., nary_bufs_sub .., reshape_bufs_sub .., reshape_bufs_sub .., unary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., ternary_bufs_sub .., binary_bufs_sub .., binary_bufs_sub .., nullary_bufs_sub .., unary_bufs_sub .., binary_bufs_sub .., binary_bufs_sub .., binary_bufs_sub .., unary_bufs_sub .., unary_bufs_sub .., binary_bufs_sub .., reshape_bufs_sub .., unary_bufs_sub .., unary_bufs_sub .., binary_bufs_sub .., reshape_bufs_sub .., unary_bufs_sub ..⟩

set_option maxRecDepth 8192 in
theorem ops1_fresh : ∀ op ∈ (ops1 : List (HloOp τ sig (Elt F))), op.fresh = ∅ := by
  intro _ h; (repeat (cases h with | head => rfl | tail _ h => ?_)); exact nomatch h

/-- The buffers window 1 writes. -/
abbrev ops1_W : List (Ref sig .tc) := [main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_cst_1, main_v90, main_cst_2, main_v91, main_v92, main_v93, main_cst_3, main_v94, main_v95, main_cst_4, main_v96, main_v97, main_v98, main_v99, main_cst_5, main_v100, main_v101, main_v102, main_v103, main_v104, main_v105, main_v106, main_v107, main_v108, main_v109, main_v110, main_v111, main_v112]

set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 2 of @main: 60 operations. -/
abbrev ops2 : List (HloOp τ sig (Elt F)) :=
  [ StableHlo.reshape main_v112 main_v113 rfl shapeCasts_S1024x1_S1024,
    StableHlo.unary main_v110 main_v114 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v114 main_v115 rfl shapeCasts_S1024x1_S1024,
    StableHlo.unary main_v110 main_v116 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v116 main_v117 rfl shapeCasts_S1024x1_S1024,
    StableHlo.unary main_v110 main_v118 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v118 main_v119 rfl shapeCasts_S1024x1_S1024,
    StableHlo.unary main_v111 main_v120 ((extractStridedSlice S16384x1024x1 ![0, 0, 0] · slices_S16384x1024x4_S16384x1024x1_0_0_0) : (⟨S16384x1024x4, .f32⟩ : BufTy).Contents (Elt F) → (⟨S16384x1024x1, .f32⟩ : BufTy).Contents (Elt F)),
    StableHlo.reshape main_v120 main_v121 rfl shapeCasts_S16384x1024x1_S16384x1024,
    StableHlo.unary main_v111 main_v122 ((extractStridedSlice S16384x1024x1 ![0, 0, 1] · slices_S16384x1024x4_S16384x1024x1_0_0_1) : (⟨S16384x1024x4, .f32⟩ : BufTy).Contents (Elt F) → (⟨S16384x1024x1, .f32⟩ : BufTy).Contents (Elt F)),
    StableHlo.reshape main_v122 main_v123 rfl shapeCasts_S16384x1024x1_S16384x1024,
    StableHlo.unary main_v111 main_v124 ((extractStridedSlice S16384x1024x1 ![0, 0, 2] · slices_S16384x1024x4_S16384x1024x1_0_0_2) : (⟨S16384x1024x4, .f32⟩ : BufTy).Contents (Elt F) → (⟨S16384x1024x1, .f32⟩ : BufTy).Contents (Elt F)),
    StableHlo.reshape main_v124 main_v125 rfl shapeCasts_S16384x1024x1_S16384x1024,
    StableHlo.unary main_v111 main_v126 ((extractStridedSlice S16384x1024x1 ![0, 0, 3] · slices_S16384x1024x4_S16384x1024x1_0_0_3) : (⟨S16384x1024x4, .f32⟩ : BufTy).Contents (Elt F) → (⟨S16384x1024x1, .f32⟩ : BufTy).Contents (Elt F)),
    StableHlo.reshape main_v126 main_v127 rfl shapeCasts_S16384x1024x1_S16384x1024,
    StableHlo.unary main_v113 main_v128 (broadcastInDim S1x1024 ![1] bcast_S1024_S1x1024_1 : (⟨S1024, .f32⟩ : BufTy).Contents (Elt F) → (⟨S1x1024, .f32⟩ : BufTy).Contents (Elt F)),
    StableHlo.unary main_v128 main_v129 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v129 main_v121 main_v130 (mulf : (⟨S16384x1024, .f32⟩ : BufTy).Contents (Elt F) → (⟨S16384x1024, .f32⟩ : BufTy).Contents (Elt F) → (⟨S16384x1024, .f32⟩ : BufTy).Contents (Elt F)),
    StableHlo.unary main_v115 main_v131 (broadcastInDim S1x1024 ![1] bcast_S1024_S1x1024_1 : (⟨S1024, .f32⟩ : BufTy).Contents (Elt F) → (⟨S1x1024, .f32⟩ : BufTy).Contents (Elt F)),
    StableHlo.unary main_v131 main_v132 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v132 main_v123 main_v133 (mulf : (⟨S16384x1024, .f32⟩ : BufTy).Contents (Elt F) → (⟨S16384x1024, .f32⟩ : BufTy).Contents (Elt F) → (⟨S16384x1024, .f32⟩ : BufTy).Contents (Elt F)),
    StableHlo.binary main_v130 main_v133 main_v134 (subf : (⟨S16384x1024, .f32⟩ : BufTy).Contents (Elt F) → (⟨S16384x1024, .f32⟩ : BufTy).Contents (Elt F) → (⟨S16384x1024, .f32⟩ : BufTy).Contents (Elt F)),
    StableHlo.unary main_v117 main_v135 (broadcastInDim S1x1024 ![1] bcast_S1024_S1x1024_1 : (⟨S1024, .f32⟩ : BufTy).Contents (Elt F) → (⟨S1x1024, .f32⟩ : BufTy).Contents (Elt F)),
    StableHlo.unary main_v135 main_v136 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v136 main_v125 main_v137 (mulf : (⟨S16384x1024, .f32⟩ : BufTy).Contents (Elt F) → (⟨S16384x1024, .f32⟩ : BufTy).Contents (Elt F) → (⟨S16384x1024, .f32⟩ : BufTy).Contents (Elt F)),
    StableHlo.binary main_v134 main_v137 main_v138 (subf : (⟨S16384x1024, .f32⟩ : BufTy).Contents (Elt F) → (⟨S16384x1024, .f32⟩ : BufTy).Contents (Elt F) → (⟨S16384x1024, .f32⟩ : BufTy).Contents (Elt F)),
    StableHlo.unary main_v119 main_v139 (broadcastInDim S1x1024 ![1] bcast_S1024_S1x1024_1 : (⟨S1024, .f32⟩ : BufTy).Contents (Elt F) → (⟨S1x1024, .f32⟩ : BufTy).Contents (Elt F)),
    StableHlo.unary main_v139 main_v140 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v140 main_v127 main_v141 (mulf : (⟨S16384x1024, .f32⟩ : BufTy).Contents (Elt F) → (⟨S16384x1024, .f32⟩ : BufTy).Contents (Elt F) → (⟨S16384x1024, .f32⟩ : BufTy).Contents (Elt F)),
    StableHlo.binary main_v138 main_v141 main_v142 (subf : (⟨S16384x1024, .f32⟩ : BufTy).Contents (Elt F) → (⟨S16384x1024, .f32⟩ : BufTy).Contents (Elt F) → (⟨S16384x1024, .f32⟩ : BufTy).Contents (Elt F)),
    StableHlo.unary main_v113 main_v143 (broadcastInDim S1x1024 ![1] bcast_S1024_S1x1024_1 : (⟨S1024, .f32⟩ : BufTy).Contents (Elt F) → (⟨S1x1024, .f32⟩ : BufTy).Contents (Elt F)),
    StableHlo.unary main_v143 main_v144 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v144 main_v123 main_v145 (mulf : (⟨S16384x1024, .f32⟩ : BufTy).Contents (Elt F) → (⟨S16384x1024, .f32⟩ : BufTy).Contents (Elt F) → (⟨S16384x1024, .f32⟩ : BufTy).Contents (Elt F)),
    StableHlo.unary main_v115 main_v146 (broadcastInDim S1x1024 ![1] bcast_S1024_S1x1024_1 : (⟨S1024, .f32⟩ : BufTy).Contents (Elt F) → (⟨S1x1024, .f32⟩ : BufTy).Contents (Elt F)),
    StableHlo.unary main_v146 main_v147 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v147 main_v121 main_v148 (mulf : (⟨S16384x1024, .f32⟩ : BufTy).Contents (Elt F) → (⟨S16384x1024, .f32⟩ : BufTy).Contents (Elt F) → (⟨S16384x1024, .f32⟩ : BufTy).Contents (Elt F)),
    StableHlo.binary main_v145 main_v148 main_v149 (addf : (⟨S16384x1024, .f32⟩ : BufTy).Contents (Elt F) → (⟨S16384x1024, .f32⟩ : BufTy).Contents (Elt F) → (⟨S16384x1024, .f32⟩ : BufTy).Contents (Elt F)),
    StableHlo.unary main_v117 main_v150 (broadcastInDim S1x1024 ![1] bcast_S1024_S1x1024_1 : (⟨S1024, .f32⟩ : BufTy).Contents (Elt F) → (⟨S1x1024, .f32⟩ : BufTy).Contents (Elt F)),
    StableHlo.unary main_v150 main_v151 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v151 main_v127 main_v152 (mulf : (⟨S16384x1024, .f32⟩ : BufTy).Contents (Elt F) → (⟨S16384x1024, .f32⟩ : BufTy).Contents (Elt F) → (⟨S16384x1024, .f32⟩ : BufTy).Contents (Elt F)),
    StableHlo.binary main_v149 main_v152 main_v153 (addf : (⟨S16384x1024, .f32⟩ : BufTy).Contents (Elt F) → (⟨S16384x1024, .f32⟩ : BufTy).Contents (Elt F) → (⟨S16384x1024, .f32⟩ : BufTy).Contents (Elt F)),
    StableHlo.unary main_v119 main_v154 (broadcastInDim S1x1024 ![1] bcast_S1024_S1x1024_1 : (⟨S1024, .f32⟩ : BufTy).Contents (Elt F) → (⟨S1x1024, .f32⟩ : BufTy).Contents (Elt F)),
    StableHlo.unary main_v154 main_v155 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v155 main_v125 main_v156 (mulf : (⟨S16384x1024, .f32⟩ : BufTy).Contents (Elt F) → (⟨S16384x1024, .f32⟩ : BufTy).Contents (Elt F) → (⟨S16384x1024, .f32⟩ : BufTy).Contents (Elt F)),
    StableHlo.binary main_v153 main_v156 main_v157 (subf : (⟨S16384x1024, .f32⟩ : BufTy).Contents (Elt F) → (⟨S16384x1024, .f32⟩ : BufTy).Contents (Elt F) → (⟨S16384x1024, .f32⟩ : BufTy).Contents (Elt F)),
    StableHlo.unary main_v113 main_v158 (broadcastInDim S1x1024 ![1] bcast_S1024_S1x1024_1 : (⟨S1024, .f32⟩ : BufTy).Contents (Elt F) → (⟨S1x1024, .f32⟩ : BufTy).Contents (Elt F)),
    StableHlo.unary main_v158 main_v159 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v159 main_v125 main_v160 (mulf : (⟨S16384x1024, .f32⟩ : BufTy).Contents (Elt F) → (⟨S16384x1024, .f32⟩ : BufTy).Contents (Elt F) → (⟨S16384x1024, .f32⟩ : BufTy).Contents (Elt F)),
    StableHlo.unary main_v115 main_v161 (broadcastInDim S1x1024 ![1] bcast_S1024_S1x1024_1 : (⟨S1024, .f32⟩ : BufTy).Contents (Elt F) → (⟨S1x1024, .f32⟩ : BufTy).Contents (Elt F)),
    StableHlo.unary main_v161 main_v162 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v162 main_v127 main_v163 (mulf : (⟨S16384x1024, .f32⟩ : BufTy).Contents (Elt F) → (⟨S16384x1024, .f32⟩ : BufTy).Contents (Elt F) → (⟨S16384x1024, .f32⟩ : BufTy).Contents (Elt F)),
    StableHlo.binary main_v160 main_v163 main_v164 (subf : (⟨S16384x1024, .f32⟩ : BufTy).Contents (Elt F) → (⟨S16384x1024, .f32⟩ : BufTy).Contents (Elt F) → (⟨S16384x1024, .f32⟩ : BufTy).Contents (Elt F)),
    StableHlo.unary main_v117 main_v165 (broadcastInDim S1x1024 ![1] bcast_S1024_S1x1024_1 : (⟨S1024, .f32⟩ : BufTy).Contents (Elt F) → (⟨S1x1024, .f32⟩ : BufTy).Contents (Elt F)),
    StableHlo.unary main_v165 main_v166 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v166 main_v121 main_v167 (mulf : (⟨S16384x1024, .f32⟩ : BufTy).Contents (Elt F) → (⟨S16384x1024, .f32⟩ : BufTy).Contents (Elt F) → (⟨S16384x1024, .f32⟩ : BufTy).Contents (Elt F)),
    StableHlo.binary main_v164 main_v167 main_v168 (addf : (⟨S16384x1024, .f32⟩ : BufTy).Contents (Elt F) → (⟨S16384x1024, .f32⟩ : BufTy).Contents (Elt F) → (⟨S16384x1024, .f32⟩ : BufTy).Contents (Elt F)),
    StableHlo.unary main_v119 main_v169 (broadcastInDim S1x1024 ![1] bcast_S1024_S1x1024_1 : (⟨S1024, .f32⟩ : BufTy).Contents (Elt F) → (⟨S1x1024, .f32⟩ : BufTy).Contents (Elt F)),
    StableHlo.unary main_v169 main_v170 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v170 main_v123 main_v171 (mulf : (⟨S16384x1024, .f32⟩ : BufTy).Contents (Elt F) → (⟨S16384x1024, .f32⟩ : BufTy).Contents (Elt F) → (⟨S16384x1024, .f32⟩ : BufTy).Contents (Elt F)),
    StableHlo.binary main_v168 main_v171 main_v172 (addf : (⟨S16384x1024, .f32⟩ : BufTy).Contents (Elt F) → (⟨S16384x1024, .f32⟩ : BufTy).Contents (Elt F) → (⟨S16384x1024, .f32⟩ : BufTy).Contents (Elt F)) ]

set_option maxRecDepth 8192 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub ..⟩

set_option maxRecDepth 8192 in
theorem ops2_fresh : ∀ op ∈ (ops2 : List (HloOp τ sig (Elt F))), op.fresh = ∅ := by
  intro _ h; (repeat (cases h with | head => rfl | tail _ h => ?_)); exact nomatch h

/-- The buffers window 2 writes. -/
abbrev ops2_W : List (Ref sig .tc) := [main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172]

set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- Window 3 of @main: 24 operations. -/
abbrev ops3 : List (HloOp τ sig (Elt F)) :=
  [ StableHlo.unary main_v113 main_v173 (broadcastInDim S1x1024 ![1] bcast_S1024_S1x1024_1 : (⟨S1024, .f32⟩ : BufTy).Contents (Elt F) → (⟨S1x1024, .f32⟩ : BufTy).Contents (Elt F)),
    StableHlo.unary main_v173 main_v174 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v174 main_v127 main_v175 (mulf : (⟨S16384x1024, .f32⟩ : BufTy).Contents (Elt F) → (⟨S16384x1024, .f32⟩ : BufTy).Contents (Elt F) → (⟨S16384x1024, .f32⟩ : BufTy).Contents (Elt F)),
    StableHlo.unary main_v115 main_v176 (broadcastInDim S1x1024 ![1] bcast_S1024_S1x1024_1 : (⟨S1024, .f32⟩ : BufTy).Contents (Elt F) → (⟨S1x1024, .f32⟩ : BufTy).Contents (Elt F)),
    StableHlo.unary main_v176 main_v177 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v177 main_v125 main_v178 (mulf : (⟨S16384x1024, .f32⟩ : BufTy).Contents (Elt F) → (⟨S16384x1024, .f32⟩ : BufTy).Contents (Elt F) → (⟨S16384x1024, .f32⟩ : BufTy).Contents (Elt F)),
    StableHlo.binary main_v175 main_v178 main_v179 (addf : (⟨S16384x1024, .f32⟩ : BufTy).Contents (Elt F) → (⟨S16384x1024, .f32⟩ : BufTy).Contents (Elt F) → (⟨S16384x1024, .f32⟩ : BufTy).Contents (Elt F)),
    StableHlo.unary main_v117 main_v180 (broadcastInDim S1x1024 ![1] bcast_S1024_S1x1024_1 : (⟨S1024, .f32⟩ : BufTy).Contents (Elt F) → (⟨S1x1024, .f32⟩ : BufTy).Contents (Elt F)),
    StableHlo.unary main_v180 main_v181 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v181 main_v123 main_v182 (mulf : (⟨S16384x1024, .f32⟩ : BufTy).Contents (Elt F) → (⟨S16384x1024, .f32⟩ : BufTy).Contents (Elt F) → (⟨S16384x1024, .f32⟩ : BufTy).Contents (Elt F)),
    StableHlo.binary main_v179 main_v182 main_v183 (subf : (⟨S16384x1024, .f32⟩ : BufTy).Contents (Elt F) → (⟨S16384x1024, .f32⟩ : BufTy).Contents (Elt F) → (⟨S16384x1024, .f32⟩ : BufTy).Contents (Elt F)),
    StableHlo.unary main_v119 main_v184 (broadcastInDim S1x1024 ![1] bcast_S1024_S1x1024_1 : (⟨S1024, .f32⟩ : BufTy).Contents (Elt F) → (⟨S1x1024, .f32⟩ : BufTy).Contents (Elt F)),
    StableHlo.unary main_v184 main_v185 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v185 main_v121 main_v186 (mulf : (⟨S16384x1024, .f32⟩ : BufTy).Contents (Elt F) → (⟨S16384x1024, .f32⟩ : BufTy).Contents (Elt F) → (⟨S16384x1024, .f32⟩ : BufTy).Contents (Elt F)),
    StableHlo.binary main_v183 main_v186 main_v187 (addf : (⟨S16384x1024, .f32⟩ : BufTy).Contents (Elt F) → (⟨S16384x1024, .f32⟩ : BufTy).Contents (Elt F) → (⟨S16384x1024, .f32⟩ : BufTy).Contents (Elt F)),
    StableHlo.unary main_v142 main_v188 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v157 main_v189 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v172 main_v190 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.unary main_v187 main_v191 (broadcastInDim S16384x1024x1 ![0, 1] bcast_S16384x1024_S16384x1024x1_0_1 : (⟨S16384x1024, .f32⟩ : BufTy).Contents (Elt F) → (⟨S16384x1024x1, .f32⟩ : BufTy).Contents (Elt F)),
    StableHlo.nary ![main_v188, main_v189, main_v190, main_v191] main_v192 (fun u => fn_main_v192 (F := F) (u 0) (u 1) (u 2) (u 3)),
    StableHlo.reshape main_v192 main_v193 rfl shapeCasts_S16384x1024x4_S16384x4096,
    StableHlo.unary main_v2 main_v194 (broadcastInDim S16384x4096 ![0, 1] bcast_S16384x1_S16384x4096_0_1 : (⟨S16384x1, .f32⟩ : BufTy).Contents (Elt F) → (⟨S16384x4096, .f32⟩ : BufTy).Contents (Elt F)),
    StableHlo.binary main_v193 main_v194 main_v195 (mulf : (⟨S16384x4096, .f32⟩ : BufTy).Contents (Elt F) → (⟨S16384x4096, .f32⟩ : BufTy).Contents (Elt F) → (⟨S16384x4096, .f32⟩ : BufTy).Contents (Elt F)),
    StableHlo.reshape main_v2 main_v196 rfl shapeCasts_S16384x1_S16384 ]

set_option maxRecDepth 8192 in
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., unary_bufs_sub .., unary_bufs_sub .., nary_bufs_sub .., reshape_bufs_sub .., unary_bufs_sub .., binary_bufs_sub .., reshape_bufs_sub ..⟩

set_option maxRecDepth 8192 in
theorem ops3_fresh : ∀ op ∈ (ops3 : List (HloOp τ sig (Elt F))), op.fresh = ∅ := by
  intro _ h; (repeat (cases h with | head => rfl | tail _ h => ?_)); exact nomatch h

/-- The buffers window 3 writes. -/
abbrev ops3_W : List (Ref sig .tc) := [main_v173, main_v174, main_v175, main_v176, main_v177, main_v178, main_v179, main_v180, main_v181, main_v182, main_v183, main_v184, main_v185, main_v186, main_v187, main_v188, main_v189, main_v190, main_v191, main_v192, main_v193, main_v194, main_v195, main_v196]

set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations, in order. -/
abbrev ops : List (HloOp τ sig (Elt F)) := ops0 ++ (ops1 ++ (ops2 ++ ops3))

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

theorem ops_fresh : ∀ op ∈ (ops : List (HloOp τ sig (Elt F))), op.fresh = ∅ := by
  intro op h
  simp only [ops, List.mem_append] at h
  rcases h with h | h | h | h
  exacts [ops0_fresh op h, ops1_fresh op h, ops2_fresh op h, ops3_fresh op h]

end Cert.ReferenceIdeal.RefValue

end
-- ==== Proof.RefStages.lean ====
/-
  The reference program as pure functions of its two argument arrays.

  One definition per tensor value of the reference, each applying exactly the operation that produces the value to the
  definitions of its operands: `x` is the [16384, 4096] input, `q` the [1024, 4] quaternion table.  The values that carry
  the mathematics: `v2` the clamped row norms, `v4` the unit rows, `v36 v51 v66 v81` the four components of the rotated
  row, `v87` their interleaving, `v88` the same seen in 32 groups of 128, `v92` the group means of absolute values,
  `v99` the signs (zero counted positive), `v103` the clamped means, `v107` the quantised row, `v110` the conjugate
  table, `v142 v157 v172 v187` the components of the inverse rotation, `v193` their interleaving, `v195` that times the
  norms, `v196` the norms as a vector.  The three results are `out0 = v195`, `out1 = v92`, `out2 = v196`.
-/
import proofs.«126109_g61838939127936_pilotgen1_510_3_alg».proof.Proof.Gen.ReferenceIdeal

noncomputable section

namespace Cert.ReferenceIdeal.RefValue

open Cert.ReferenceIdeal Cert.ReferenceIdeal.Gen Idealize.ShloMosaic

variable {F : FTy → Type} [FloatOps F]

def cst (x : (⟨S16384x4096, .f32⟩ : BufTy).Contents (Elt F)) (q : (⟨S1024x4, .f32⟩ : BufTy).Contents (Elt F)) : (⟨S4, .f32⟩ : BufTy).Contents (Elt F) :=
  (fun i => FloatOps.ofBits .f32 (lit0 (S4.rowMajor i)))

def call0_v0 (x : (⟨S16384x4096, .f32⟩ : BufTy).Contents (Elt F)) (q : (⟨S1024x4, .f32⟩ : BufTy).Contents (Elt F)) : (⟨S16384x4096, .f32⟩ : BufTy).Contents (Elt F) :=
  (mulf : (⟨S16384x4096, .f32⟩ : BufTy).Contents (Elt F) → (⟨S16384x4096, .f32⟩ : BufTy).Contents (Elt F) → (⟨S16384x4096, .f32⟩ : BufTy).Contents (Elt F)) x x

def call0_cst (x : (⟨S16384x4096, .f32⟩ : BufTy).Contents (Elt F)) (q : (⟨S1024x4, .f32⟩ : BufTy).Contents (Elt F)) : (⟨S_, .f32⟩ : BufTy).Contents (Elt F) :=
  constant S_ .f32 0x00000000#32

def call0_v1 (x : (⟨S16384x4096, .f32⟩ : BufTy).Contents (Elt F)) (q : (⟨S1024x4, .f32⟩ : BufTy).Contents (Elt F)) : (⟨S16384, .f32⟩ : BufTy).Contents (Elt F) :=
  Host.reduceAdd (call0_v0 x q) (call0_cst x q) reducesTo_S16384x4096_S16384_d1 h_S_

def call0_v2 (x : (⟨S16384x4096, .f32⟩ : BufTy).Contents (Elt F)) (q : (⟨S1024x4, .f32⟩ : BufTy).Contents (Elt F)) : (⟨S16384x1, .f32⟩ : BufTy).Contents (Elt F) :=
  broadcastInDim S16384x1 ![0] bcast_S16384_S16384x1_0 (call0_v1 x q)

def v0 (x : (⟨S16384x4096, .f32⟩ : BufTy).Contents (Elt F)) (q : (⟨S1024x4, .f32⟩ : BufTy).Contents (Elt F)) : (⟨S16384x1, .f32⟩ : BufTy).Contents (Elt F) :=
  (Host.sqrt : (⟨S16384x1, .f32⟩ : BufTy).Contents (Elt F) → (⟨S16384x1, .f32⟩ : BufTy).Contents (Elt F)) (call0_v2 x q)

def cst_0 (x : (⟨S16384x4096, .f32⟩ : BufTy).Contents (Elt F)) (q : (⟨S1024x4, .f32⟩ : BufTy).Contents (Elt F)) : (⟨S_, .f32⟩ : BufTy).Contents (Elt F) :=
  (constant S_ .f32 0x322BCC77#32)

def v1 (x : (⟨S16384x4096, .f32⟩ : BufTy).Contents (Elt F)) (q : (⟨S1024x4, .f32⟩ : BufTy).Contents (Elt F)) : (⟨S16384x1, .f32⟩ : BufTy).Contents (Elt F) :=
  (broadcastInDim S16384x1 ![] bcast_S_S16384x1 : (⟨S_, .f32⟩ : BufTy).Contents (Elt F) → (⟨S16384x1, .f32⟩ : BufTy).Contents (Elt F)) (cst_0 x q)

def v2 (x : (⟨S16384x4096, .f32⟩ : BufTy).Contents (Elt F)) (q : (⟨S1024x4, .f32⟩ : BufTy).Contents (Elt F)) : (⟨S16384x1, .f32⟩ : BufTy).Contents (Elt F) :=
  (maximumf : (⟨S16384x1, .f32⟩ : BufTy).Contents (Elt F) → (⟨S16384x1, .f32⟩ : BufTy).Contents (Elt F) → (⟨S16384x1, .f32⟩ : BufTy).Contents (Elt F)) (v0 x q) (v1 x q)

def v3 (x : (⟨S16384x4096, .f32⟩ : BufTy).Contents (Elt F)) (q : (⟨S1024x4, .f32⟩ : BufTy).Contents (Elt F)) : (⟨S16384x4096, .f32⟩ : BufTy).Contents (Elt F) :=
  (broadcastInDim S16384x4096 ![0, 1] bcast_S16384x1_S16384x4096_0_1 : (⟨S16384x1, .f32⟩ : BufTy).Contents (Elt F) → (⟨S16384x4096, .f32⟩ : BufTy).Contents (Elt F)) (v2 x q)

def v4 (x : (⟨S16384x4096, .f32⟩ : BufTy).Contents (Elt F)) (q : (⟨S1024x4, .f32⟩ : BufTy).Contents (Elt F)) : (⟨S16384x4096, .f32⟩ : BufTy).Contents (Elt F) :=
  (Host.divf : (⟨S16384x4096, .f32⟩ : BufTy).Contents (Elt F) → (⟨S16384x4096, .f32⟩ : BufTy).Contents (Elt F) → (⟨S16384x4096, .f32⟩ : BufTy).Contents (Elt F)) x (v3 x q)

def v5 (x : (⟨S16384x4096, .f32⟩ : BufTy).Contents (Elt F)) (q : (⟨S1024x4, .f32⟩ : BufTy).Contents (Elt F)) : (⟨S16384x1024x4, .f32⟩ : BufTy).Contents (Elt F) :=
  shapeCast _ (v4 x q) shapeCasts_S16384x4096_S16384x1024x4

def v6 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 0] · slices_S1024x4_S1024x1_0_0) : (⟨S1024x4, .f32⟩ : BufTy).Contents (Elt F) → (⟨S1024x1, .f32⟩ : BufTy).Contents (Elt F)) q

def v7 (x : (⟨S16384x4096, .f32⟩ : BufTy).Contents (Elt F)) (q : (⟨S1024x4, .f32⟩ : BufTy).Contents (Elt F)) : (⟨S1024, .f32⟩ : BufTy).Contents (Elt F) :=
  shapeCast _ (v6 x q) shapeCasts_S1024x1_S1024

def v8 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 1] · slices_S1024x4_S1024x1_0_1) : (⟨S1024x4, .f32⟩ : BufTy).Contents (Elt F) → (⟨S1024x1, .f32⟩ : BufTy).Contents (Elt F)) q

def v9 (x : (⟨S16384x4096, .f32⟩ : BufTy).Contents (Elt F)) (q : (⟨S1024x4, .f32⟩ : BufTy).Contents (Elt F)) : (⟨S1024, .f32⟩ : BufTy).Contents (Elt F) :=
  shapeCast _ (v8 x q) shapeCasts_S1024x1_S1024

def v10 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 2] · slices_S1024x4_S1024x1_0_2) : (⟨S1024x4, .f32⟩ : BufTy).Contents (Elt F) → (⟨S1024x1, .f32⟩ : BufTy).Contents (Elt F)) q

def v11 (x : (⟨S16384x4096, .f32⟩ : BufTy).Contents (Elt F)) (q : (⟨S1024x4, .f32⟩ : BufTy).Contents (Elt F)) : (⟨S1024, .f32⟩ : BufTy).Contents (Elt F) :=
  shapeCast _ (v10 x q) shapeCasts_S1024x1_S1024

def v12 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 3] · slices_S1024x4_S1024x1_0_3) : (⟨S1024x4, .f32⟩ : BufTy).Contents (Elt F) → (⟨S1024x1, .f32⟩ : BufTy).Contents (Elt F)) q

def v13 (x : (⟨S16384x4096, .f32⟩ : BufTy).Contents (Elt F)) (q : (⟨S1024x4, .f32⟩ : BufTy).Contents (Elt F)) : (⟨S1024, .f32⟩ : BufTy).Contents (Elt F) :=
  shapeCast _ (v12 x q) shapeCasts_S1024x1_S1024

def v14 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 0] · slices_S16384x1024x4_S16384x1024x1_0_0_0) : (⟨S16384x1024x4, .f32⟩ : BufTy).Contents (Elt F) → (⟨S16384x1024x1, .f32⟩ : BufTy).Contents (Elt F)) (v5 x q)

def v15 (x : (⟨S16384x4096, .f32⟩ : BufTy).Contents (Elt F)) (q : (⟨S1024x4, .f32⟩ : BufTy).Contents (Elt F)) : (⟨S16384x1024, .f32⟩ : BufTy).Contents (Elt F) :=
  shapeCast _ (v14 x q) shapeCasts_S16384x1024x1_S16384x1024

def v16 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 1] · slices_S16384x1024x4_S16384x1024x1_0_0_1) : (⟨S16384x1024x4, .f32⟩ : BufTy).Contents (Elt F) → (⟨S16384x1024x1, .f32⟩ : BufTy).Contents (Elt F)) (v5 x q)

def v17 (x : (⟨S16384x4096, .f32⟩ : BufTy).Contents (Elt F)) (q : (⟨S1024x4, .f32⟩ : BufTy).Contents (Elt F)) : (⟨S16384x1024, .f32⟩ : BufTy).Contents (Elt F) :=
  shapeCast _ (v16 x q) shapeCasts_S16384x1024x1_S16384x1024

def v18 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 2] · slices_S16384x1024x4_S16384x1024x1_0_0_2) : (⟨S16384x1024x4, .f32⟩ : BufTy).Contents (Elt F) → (⟨S16384x1024x1, .f32⟩ : BufTy).Contents (Elt F)) (v5 x q)

def v19 (x : (⟨S16384x4096, .f32⟩ : BufTy).Contents (Elt F)) (q : (⟨S1024x4, .f32⟩ : BufTy).Contents (Elt F)) : (⟨S16384x1024, .f32⟩ : BufTy).Contents (Elt F) :=
  shapeCast _ (v18 x q) shapeCasts_S16384x1024x1_S16384x1024

def v20 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 3] · slices_S16384x1024x4_S16384x1024x1_0_0_3) : (⟨S16384x1024x4, .f32⟩ : BufTy).Contents (Elt F) → (⟨S16384x1024x1, .f32⟩ : BufTy).Contents (Elt F)) (v5 x q)

def v21 (x : (⟨S16384x4096, .f32⟩ : BufTy).Contents (Elt F)) (q : (⟨S1024x4, .f32⟩ : BufTy).Contents (Elt F)) : (⟨S16384x1024, .f32⟩ : BufTy).Contents (Elt F) :=
  shapeCast _ (v20 x q) shapeCasts_S16384x1024x1_S16384x1024

def v22 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v7 x q)

def v23 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v22 x q)

def v24 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v23 x q) (v15 x q)

def v25 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v9 x q)

def v26 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v25 x q)

def v27 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v26 x q) (v17 x q)

def v28 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v24 x q) (v27 x q)

def v29 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v11 x q)

def v30 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v29 x q)

def v31 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v30 x q) (v19 x q)

def v32 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v28 x q) (v31 x q)

def v33 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v13 x q)

def v34 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v33 x q)

def v35 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v34 x q) (v21 x q)

def v36 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v32 x q) (v35 x q)

def v37 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v7 x q)

def v38 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v37 x q)

def v39 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v38 x q) (v17 x q)

def v40 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v9 x q)

def v41 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v40 x q)

def v42 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v41 x q) (v15 x q)

def v43 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v39 x q) (v42 x q)

def v44 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v11 x q)

def v45 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v44 x q)

def v46 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v45 x q) (v21 x q)

def v47 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v43 x q) (v46 x q)

def v48 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v13 x q)

def v49 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v48 x q)

def v50 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v49 x q) (v19 x q)

def v51 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v47 x q) (v50 x q)

def v52 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v7 x q)

def v53 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v52 x q)

def v54 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v53 x q) (v19 x q)

def v55 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v9 x q)

def v56 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v55 x q)

def v57 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v56 x q) (v21 x q)

def v58 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v54 x q) (v57 x q)

def v59 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v11 x q)

def v60 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v59 x q)

def v61 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v60 x q) (v15 x q)

def v62 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v58 x q) (v61 x q)

def v63 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v13 x q)

def v64 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v63 x q)

def v65 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v64 x q) (v17 x q)

def v66 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v62 x q) (v65 x q)

def v67 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v7 x q)

def v68 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v67 x q)

def v69 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v68 x q) (v21 x q)

def v70 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v9 x q)

def v71 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v70 x q)

def v72 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v71 x q) (v19 x q)

def v73 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v69 x q) (v72 x q)

def v74 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v11 x q)

def v75 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v74 x q)

def v76 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v75 x q) (v17 x q)

def v77 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v73 x q) (v76 x q)

def v78 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v13 x q)

def v79 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v78 x q)

def v80 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v79 x q) (v15 x q)

def v81 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v77 x q) (v80 x q)

def v82 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v36 x q)

def v83 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v51 x q)

def v84 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v66 x q)

def v85 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v81 x q)

def v86 (x : (⟨S16384x4096, .f32⟩ : BufTy).Contents (Elt F)) (q : (⟨S1024x4, .f32⟩ : BufTy).Contents (Elt F)) : (⟨S16384x1024x4, .f32⟩ : BufTy).Contents (Elt F) :=
  concatenate S16384x1024x4 2 [⟨S16384x1024x1, v82 x q⟩, ⟨S16384x1024x1, v83 x q⟩, ⟨S16384x1024x1, v84 x q⟩, ⟨S16384x1024x1, v85 x q⟩] concatenates_S16384x1024x1_S16384x1024x1_S16384x1024x1_S16384x1024x1_S16384x1024x4_d2

def v87 (x : (⟨S16384x4096, .f32⟩ : BufTy).Contents (Elt F)) (q : (⟨S1024x4, .f32⟩ : BufTy).Contents (Elt F)) : (⟨S16384x4096, .f32⟩ : BufTy).Contents (Elt F) :=
  shapeCast _ (v86 x q) shapeCasts_S16384x1024x4_S16384x4096

def v88 (x : (⟨S16384x4096, .f32⟩ : BufTy).Contents (Elt F)) (q : (⟨S1024x4, .f32⟩ : BufTy).Contents (Elt F)) : (⟨S16384x32x128, .f32⟩ : BufTy).Contents (Elt F) :=
  shapeCast _ (v87 x q) shapeCasts_S16384x4096_S16384x32x128

def v89 (x : (⟨S16384x4096, .f32⟩ : BufTy).Contents (Elt F)) (q : (⟨S1024x4, .f32⟩ : BufTy).Contents (Elt F)) : (⟨S16384x32x128, .f32⟩ : BufTy).Contents (Elt F) :=
  (Host.absf : (⟨S16384x32x128, .f32⟩ : BufTy).Contents (Elt F) → (⟨S16384x32x128, .f32⟩ : BufTy).Contents (Elt F)) (v88 x q)

def cst_1 (x : (⟨S16384x4096, .f32⟩ : BufTy).Contents (Elt F)) (q : (⟨S1024x4, .f32⟩ : BufTy).Contents (Elt F)) : (⟨S_, .f32⟩ : BufTy).Contents (Elt F) :=
  (constant S_ .f32 0x00000000#32)

def v90 (x : (⟨S16384x4096, .f32⟩ : BufTy).Contents (Elt F)) (q : (⟨S1024x4, .f32⟩ : BufTy).Contents (Elt F)) : (⟨S16384x32, .f32⟩ : BufTy).Contents (Elt F) :=
  ((fun x v => Host.reduceAdd x v reducesTo_S16384x32x128_S16384x32_d2 h_S_) : (⟨S16384x32x128, .f32⟩ : BufTy).Contents (Elt F) → (⟨S_, .f32⟩ : BufTy).Contents (Elt F) → (⟨S16384x32, .f32⟩ : BufTy).Contents (Elt F)) (v89 x q) (cst_1 x q)

def cst_2 (x : (⟨S16384x4096, .f32⟩ : BufTy).Contents (Elt F)) (q : (⟨S1024x4, .f32⟩ : BufTy).Contents (Elt F)) : (⟨S_, .f32⟩ : BufTy).Contents (Elt F) :=
  (constant S_ .f32 0x43000000#32)

def v91 (x : (⟨S16384x4096, .f32⟩ : BufTy).Contents (Elt F)) (q : (⟨S1024x4, .f32⟩ : BufTy).Contents (Elt F)) : (⟨S16384x32, .f32⟩ : BufTy).Contents (Elt F) :=
  (broadcastInDim S16384x32 ![] bcast_S_S16384x32 : (⟨S_, .f32⟩ : BufTy).Contents (Elt F) → (⟨S16384x32, .f32⟩ : BufTy).Contents (Elt F)) (cst_2 x q)

def v92 (x : (⟨S16384x4096, .f32⟩ : BufTy).Contents (Elt F)) (q : (⟨S1024x4, .f32⟩ : BufTy).Contents (Elt F)) : (⟨S16384x32, .f32⟩ : BufTy).Contents (Elt F) :=
  (Host.divf : (⟨S16384x32, .f32⟩ : BufTy).Contents (Elt F) → (⟨S16384x32, .f32⟩ : BufTy).Contents (Elt F) → (⟨S16384x32, .f32⟩ : BufTy).Contents (Elt F)) (v90 x q) (v91 x q)

def v93 (x : (⟨S16384x4096, .f32⟩ : BufTy).Contents (Elt F)) (q : (⟨S1024x4, .f32⟩ : BufTy).Contents (Elt F)) : (⟨S16384x32x128, .f32⟩ : BufTy).Contents (Elt F) :=
  (Host.sign : (⟨S16384x32x128, .f32⟩ : BufTy).Contents (Elt F) → (⟨S16384x32x128, .f32⟩ : BufTy).Contents (Elt F)) (v88 x q)

def cst_3 (x : (⟨S16384x4096, .f32⟩ : BufTy).Contents (Elt F)) (q : (⟨S1024x4, .f32⟩ : BufTy).Contents (Elt F)) : (⟨S_, .f32⟩ : BufTy).Contents (Elt F) :=
  (constant S_ .f32 0x00000000#32)

def v94 (x : (⟨S16384x4096, .f32⟩ : BufTy).Contents (Elt F)) (q : (⟨S1024x4, .f32⟩ : BufTy).Contents (Elt F)) : (⟨S16384x32x128, .f32⟩ : BufTy).Contents (Elt F) :=
  (broadcastInDim S16384x32x128 ![] bcast_S_S16384x32x128 : (⟨S_, .f32⟩ : BufTy).Contents (Elt F) → (⟨S16384x32x128, .f32⟩ : BufTy).Contents (Elt F)) (cst_3 x q)

def v95 (x : (⟨S16384x4096, .f32⟩ : BufTy).Contents (Elt F)) (q : (⟨S1024x4, .f32⟩ : BufTy).Contents (Elt F)) : (⟨S16384x32x128, .i1⟩ : BufTy).Contents (Elt F) :=
  (cmpf .oeq : (⟨S16384x32x128, .f32⟩ : BufTy).Contents (Elt F) → (⟨S16384x32x128, .f32⟩ : BufTy).Contents (Elt F) → (⟨S16384x32x128, .i1⟩ : BufTy).Contents (Elt F)) (v93 x q) (v94 x q)

def cst_4 (x : (⟨S16384x4096, .f32⟩ : BufTy).Contents (Elt F)) (q : (⟨S1024x4, .f32⟩ : BufTy).Contents (Elt F)) : (⟨S_, .f32⟩ : BufTy).Contents (Elt F) :=
  (constant S_ .f32 0x3F800000#32)

def v96 (x : (⟨S16384x4096, .f32⟩ : BufTy).Contents (Elt F)) (q : (⟨S1024x4, .f32⟩ : BufTy).Contents (Elt F)) : (⟨S16384x32x128, .f32⟩ : BufTy).Contents (Elt F) :=
  (broadcastInDim S16384x32x128 ![] bcast_S_S16384x32x128 : (⟨S_, .f32⟩ : BufTy).Contents (Elt F) → (⟨S16384x32x128, .f32⟩ : BufTy).Contents (Elt F)) (cst_4 x q)

def v97 (x : (⟨S16384x4096, .f32⟩ : BufTy).Contents (Elt F)) (q : (⟨S1024x4, .f32⟩ : BufTy).Contents (Elt F)) : (⟨S16384x32x128, .f32⟩ : BufTy).Contents (Elt F) :=
  (select : (⟨S16384x32x128, .i1⟩ : BufTy).Contents (Elt F) → (⟨S16384x32x128, .f32⟩ : BufTy).Contents (Elt F) → (⟨S16384x32x128, .f32⟩ : BufTy).Contents (Elt F) → (⟨S16384x32x128, .f32⟩ : BufTy).Contents (Elt F)) (v95 x q) (v96 x q) (v93 x q)

def v98 (x : (⟨S16384x4096, .f32⟩ : BufTy).Contents (Elt F)) (q : (⟨S1024x4, .f32⟩ : BufTy).Contents (Elt F)) : (⟨S16384x32x128, .f32⟩ : BufTy).Contents (Elt F) :=
  (subf : (⟨S16384x32x128, .f32⟩ : BufTy).Contents (Elt F) → (⟨S16384x32x128, .f32⟩ : BufTy).Contents (Elt F) → (⟨S16384x32x128, .f32⟩ : BufTy).Contents (Elt F)) (v97 x q) (v88 x q)

def v99 (x : (⟨S16384x4096, .f32⟩ : BufTy).Contents (Elt F)) (q : (⟨S1024x4, .f32⟩ : BufTy).Contents (Elt F)) : (⟨S16384x32x128, .f32⟩ : BufTy).Contents (Elt F) :=
  (addf : (⟨S16384x32x128, .f32⟩ : BufTy).Contents (Elt F) → (⟨S16384x32x128, .f32⟩ : BufTy).Contents (Elt F) → (⟨S16384x32x128, .f32⟩ : BufTy).Contents (Elt F)) (v88 x q) (v98 x q)

def cst_5 (x : (⟨S16384x4096, .f32⟩ : BufTy).Contents (Elt F)) (q : (⟨S1024x4, .f32⟩ : BufTy).Contents (Elt F)) : (⟨S_, .f32⟩ : BufTy).Contents (Elt F) :=
  (constant S_ .f32 0x322BCC77#32)

def v100 (x : (⟨S16384x4096, .f32⟩ : BufTy).Contents (Elt F)) (q : (⟨S1024x4, .f32⟩ : BufTy).Contents (Elt F)) : (⟨S16384x32, .f32⟩ : BufTy).Contents (Elt F) :=
  (broadcastInDim S16384x32 ![] bcast_S_S16384x32 : (⟨S_, .f32⟩ : BufTy).Contents (Elt F) → (⟨S16384x32, .f32⟩ : BufTy).Contents (Elt F)) (cst_5 x q)

def v101 (x : (⟨S16384x4096, .f32⟩ : BufTy).Contents (Elt F)) (q : (⟨S1024x4, .f32⟩ : BufTy).Contents (Elt F)) : (⟨S16384x32, .f32⟩ : BufTy).Contents (Elt F) :=
  (maximumf : (⟨S16384x32, .f32⟩ : BufTy).Contents (Elt F) → (⟨S16384x32, .f32⟩ : BufTy).Contents (Elt F) → (⟨S16384x32, .f32⟩ : BufTy).Contents (Elt F)) (v92 x q) (v100 x q)

def v102 (x : (⟨S16384x4096, .f32⟩ : BufTy).Contents (Elt F)) (q : (⟨S1024x4, .f32⟩ : BufTy).Contents (Elt F)) : (⟨S16384x32, .f32⟩ : BufTy).Contents (Elt F) :=
  (subf : (⟨S16384x32, .f32⟩ : BufTy).Contents (Elt F) → (⟨S16384x32, .f32⟩ : BufTy).Contents (Elt F) → (⟨S16384x32, .f32⟩ : BufTy).Contents (Elt F)) (v101 x q) (v92 x q)

def v103 (x : (⟨S16384x4096, .f32⟩ : BufTy).Contents (Elt F)) (q : (⟨S1024x4, .f32⟩ : BufTy).Contents (Elt F)) : (⟨S16384x32, .f32⟩ : BufTy).Contents (Elt F) :=
  (addf : (⟨S16384x32, .f32⟩ : BufTy).Contents (Elt F) → (⟨S16384x32, .f32⟩ : BufTy).Contents (Elt F) → (⟨S16384x32, .f32⟩ : BufTy).Contents (Elt F)) (v92 x q) (v102 x q)

def v104 (x : (⟨S16384x4096, .f32⟩ : BufTy).Contents (Elt F)) (q : (⟨S1024x4, .f32⟩ : BufTy).Contents (Elt F)) : (⟨S16384x32x1, .f32⟩ : BufTy).Contents (Elt F) :=
  (broadcastInDim S16384x32x1 ![0, 1] bcast_S16384x32_S16384x32x1_0_1 : (⟨S16384x32, .f32⟩ : BufTy).Contents (Elt F) → (⟨S16384x32x1, .f32⟩ : BufTy).Contents (Elt F)) (v103 x q)

def v105 (x : (⟨S16384x4096, .f32⟩ : BufTy).Contents (Elt F)) (q : (⟨S1024x4, .f32⟩ : BufTy).Contents (Elt F)) : (⟨S16384x32x128, .f32⟩ : BufTy).Contents (Elt F) :=
  (broadcastInDim S16384x32x128 ![0, 1, 2] bcast_S16384x32x1_S16384x32x128_0_1_2 : (⟨S16384x32x1, .f32⟩ : BufTy).Contents (Elt F) → (⟨S16384x32x128, .f32⟩ : BufTy).Contents (Elt F)) (v104 x q)

def v106 (x : (⟨S16384x4096, .f32⟩ : BufTy).Contents (Elt F)) (q : (⟨S1024x4, .f32⟩ : BufTy).Contents (Elt F)) : (⟨S16384x32x128, .f32⟩ : BufTy).Contents (Elt F) :=
  (mulf : (⟨S16384x32x128, .f32⟩ : BufTy).Contents (Elt F) → (⟨S16384x32x128, .f32⟩ : BufTy).Contents (Elt F) → (⟨S16384x32x128, .f32⟩ : BufTy).Contents (Elt F)) (v99 x q) (v105 x q)

def v107 (x : (⟨S16384x4096, .f32⟩ : BufTy).Contents (Elt F)) (q : (⟨S1024x4, .f32⟩ : BufTy).Contents (Elt F)) : (⟨S16384x4096, .f32⟩ : BufTy).Contents (Elt F) :=
  shapeCast _ (v106 x q) shapeCasts_S16384x32x128_S16384x4096

def v108 (x : (⟨S16384x4096, .f32⟩ : BufTy).Contents (Elt F)) (q : (⟨S1024x4, .f32⟩ : BufTy).Contents (Elt F)) : (⟨S1x4, .f32⟩ : BufTy).Contents (Elt F) :=
  (broadcastInDim S1x4 ![1] bcast_S4_S1x4_1 : (⟨S4, .f32⟩ : BufTy).Contents (Elt F) → (⟨S1x4, .f32⟩ : BufTy).Contents (Elt F)) (cst x q)

def v109 (x : (⟨S16384x4096, .f32⟩ : BufTy).Contents (Elt F)) (q : (⟨S1024x4, .f32⟩ : BufTy).Contents (Elt F)) : (⟨S1024x4, .f32⟩ : BufTy).Contents (Elt F) :=
  (broadcastInDim S1024x4 ![0, 1] bcast_S1x4_S1024x4_0_1 : (⟨S1x4, .f32⟩ : BufTy).Contents (Elt F) → (⟨S1024x4, .f32⟩ : BufTy).Contents (Elt F)) (v108 x q)

def v110 (x : (⟨S16384x4096, .f32⟩ : BufTy).Contents (Elt F)) (q : (⟨S1024x4, .f32⟩ : BufTy).Contents (Elt F)) : (⟨S1024x4, .f32⟩ : BufTy).Contents (Elt F) :=
  (mulf : (⟨S1024x4, .f32⟩ : BufTy).Contents (Elt F) → (⟨S1024x4, .f32⟩ : BufTy).Contents (Elt F) → (⟨S1024x4, .f32⟩ : BufTy).Contents (Elt F)) q (v109 x q)

def v111 (x : (⟨S16384x4096, .f32⟩ : BufTy).Contents (Elt F)) (q : (⟨S1024x4, .f32⟩ : BufTy).Contents (Elt F)) : (⟨S16384x1024x4, .f32⟩ : BufTy).Contents (Elt F) :=
  shapeCast _ (v107 x q) shapeCasts_S16384x4096_S16384x1024x4

def v112 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 0] · slices_S1024x4_S1024x1_0_0) : (⟨S1024x4, .f32⟩ : BufTy).Contents (Elt F) → (⟨S1024x1, .f32⟩ : BufTy).Contents (Elt F)) (v110 x q)

def v113 (x : (⟨S16384x4096, .f32⟩ : BufTy).Contents (Elt F)) (q : (⟨S1024x4, .f32⟩ : BufTy).Contents (Elt F)) : (⟨S1024, .f32⟩ : BufTy).Contents (Elt F) :=
  shapeCast _ (v112 x q) shapeCasts_S1024x1_S1024

def v114 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 1] · slices_S1024x4_S1024x1_0_1) : (⟨S1024x4, .f32⟩ : BufTy).Contents (Elt F) → (⟨S1024x1, .f32⟩ : BufTy).Contents (Elt F)) (v110 x q)

def v115 (x : (⟨S16384x4096, .f32⟩ : BufTy).Contents (Elt F)) (q : (⟨S1024x4, .f32⟩ : BufTy).Contents (Elt F)) : (⟨S1024, .f32⟩ : BufTy).Contents (Elt F) :=
  shapeCast _ (v114 x q) shapeCasts_S1024x1_S1024

def v116 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 2] · slices_S1024x4_S1024x1_0_2) : (⟨S1024x4, .f32⟩ : BufTy).Contents (Elt F) → (⟨S1024x1, .f32⟩ : BufTy).Contents (Elt F)) (v110 x q)

def v117 (x : (⟨S16384x4096, .f32⟩ : BufTy).Contents (Elt F)) (q : (⟨S1024x4, .f32⟩ : BufTy).Contents (Elt F)) : (⟨S1024, .f32⟩ : BufTy).Contents (Elt F) :=
  shapeCast _ (v116 x q) shapeCasts_S1024x1_S1024

def v118 (x : (⟨S16384x4096, .f32⟩ : BufTy).Contents (Elt F)) (q : (⟨S1024x4, .f32⟩ : BufTy).Contents (Elt F)) : (⟨S1024x1, .f32⟩ : BufTy).Contents (Elt F) :=
  ((extractStridedSlice S1024x1 ![0, 3] · slices_S1024x4_S1024x1_0_3) : (⟨S1024x4, .f32⟩ : BufTy).Contents (Elt F) → (⟨S1024x1, .f32⟩ : BufTy).Contents (Elt F)) (v110 x q)

def v119 (x : (⟨S16384x4096, .f32⟩ : BufTy).Contents (Elt F)) (q : (⟨S1024x4, .f32⟩ : BufTy).Contents (Elt F)) : (⟨S1024, .f32⟩ : BufTy).Contents (Elt F) :=
  shapeCast _ (v118 x q) shapeCasts_S1024x1_S1024

def v120 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 0] · slices_S16384x1024x4_S16384x1024x1_0_0_0) : (⟨S16384x1024x4, .f32⟩ : BufTy).Contents (Elt F) → (⟨S16384x1024x1, .f32⟩ : BufTy).Contents (Elt F)) (v111 x q)

def v121 (x : (⟨S16384x4096, .f32⟩ : BufTy).Contents (Elt F)) (q : (⟨S1024x4, .f32⟩ : BufTy).Contents (Elt F)) : (⟨S16384x1024, .f32⟩ : BufTy).Contents (Elt F) :=
  shapeCast _ (v120 x q) shapeCasts_S16384x1024x1_S16384x1024

def v122 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 1] · slices_S16384x1024x4_S16384x1024x1_0_0_1) : (⟨S16384x1024x4, .f32⟩ : BufTy).Contents (Elt F) → (⟨S16384x1024x1, .f32⟩ : BufTy).Contents (Elt F)) (v111 x q)

def v123 (x : (⟨S16384x4096, .f32⟩ : BufTy).Contents (Elt F)) (q : (⟨S1024x4, .f32⟩ : BufTy).Contents (Elt F)) : (⟨S16384x1024, .f32⟩ : BufTy).Contents (Elt F) :=
  shapeCast _ (v122 x q) shapeCasts_S16384x1024x1_S16384x1024

def v124 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 2] · slices_S16384x1024x4_S16384x1024x1_0_0_2) : (⟨S16384x1024x4, .f32⟩ : BufTy).Contents (Elt F) → (⟨S16384x1024x1, .f32⟩ : BufTy).Contents (Elt F)) (v111 x q)

def v125 (x : (⟨S16384x4096, .f32⟩ : BufTy).Contents (Elt F)) (q : (⟨S1024x4, .f32⟩ : BufTy).Contents (Elt F)) : (⟨S16384x1024, .f32⟩ : BufTy).Contents (Elt F) :=
  shapeCast _ (v124 x q) shapeCasts_S16384x1024x1_S16384x1024

def v126 (x : (⟨S16384x4096, .f32⟩ : BufTy).Contents (Elt F)) (q : (⟨S1024x4, .f32⟩ : BufTy).Contents (Elt F)) : (⟨S16384x1024x1, .f32⟩ : BufTy).Contents (Elt F) :=
  ((extractStridedSlice S16384x1024x1 ![0, 0, 3] · slices_S16384x1024x4_S16384x1024x1_0_0_3) : (⟨S16384x1024x4, .f32⟩ : BufTy).Contents (Elt F) → (⟨S16384x1024x1, .f32⟩ : BufTy).Contents (Elt F)) (v111 x q)

def v127 (x : (⟨S16384x4096, .f32⟩ : BufTy).Contents (Elt F)) (q : (⟨S1024x4, .f32⟩ : BufTy).Contents (Elt F)) : (⟨S16384x1024, .f32⟩ : BufTy).Contents (Elt F) :=
  shapeCast _ (v126 x q) shapeCasts_S16384x1024x1_S16384x1024

def v128 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v113 x q)

def v129 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v128 x q)

def v130 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v129 x q) (v121 x q)

def v131 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v115 x q)

def v132 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v131 x q)

def v133 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v132 x q) (v123 x q)

def v134 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v130 x q) (v133 x q)

def v135 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v117 x q)

def v136 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v135 x q)

def v137 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v136 x q) (v125 x q)

def v138 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v134 x q) (v137 x q)

def v139 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v119 x q)

def v140 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v139 x q)

def v141 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v140 x q) (v127 x q)

def v142 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v138 x q) (v141 x q)

def v143 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v113 x q)

def v144 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v143 x q)

def v145 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v144 x q) (v123 x q)

def v146 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v115 x q)

def v147 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v146 x q)

def v148 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v147 x q) (v121 x q)

def v149 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v145 x q) (v148 x q)

def v150 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v117 x q)

def v151 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v150 x q)

def v152 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v151 x q) (v127 x q)

def v153 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v149 x q) (v152 x q)

def v154 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v119 x q)

def v155 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v154 x q)

def v156 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v155 x q) (v125 x q)

def v157 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v153 x q) (v156 x q)

def v158 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v113 x q)

def v159 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v158 x q)

def v160 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v159 x q) (v125 x q)

def v161 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v115 x q)

def v162 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v161 x q)

def v163 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v162 x q) (v127 x q)

def v164 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v160 x q) (v163 x q)

def v165 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v117 x q)

def v166 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v165 x q)

def v167 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v166 x q) (v121 x q)

def v168 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v164 x q) (v167 x q)

def v169 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v119 x q)

def v170 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v169 x q)

def v171 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v170 x q) (v123 x q)

def v172 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v168 x q) (v171 x q)

def v173 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v113 x q)

def v174 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v173 x q)

def v175 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v174 x q) (v127 x q)

def v176 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v115 x q)

def v177 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v176 x q)

def v178 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v177 x q) (v125 x q)

def v179 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v175 x q) (v178 x q)

def v180 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v117 x q)

def v181 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v180 x q)

def v182 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v181 x q) (v123 x q)

def v183 (x : (⟨S16384x4096, .f32⟩ : BufTy).Contents (Elt F)) (q : (⟨S1024x4, .f32⟩ : BufTy).Contents (Elt F)) : (⟨S16384x1024, .f32⟩ : BufTy).Contents (Elt F) :=
  (subf : (⟨S16384x1024, .f32⟩ : BufTy).Contents (Elt F) → (⟨S16384x1024, .f32⟩ : BufTy).Contents (Elt F) → (⟨S16384x1024, .f32⟩ : BufTy).Contents (Elt F)) (v179 x q) (v182 x q)

def v184 (x : (⟨S16384x4096, .f32⟩ : BufTy).Contents (Elt F)) (q : (⟨S1024x4, .f32⟩ : BufTy).Contents (Elt F)) : (⟨S1x1024, .f32⟩ : BufTy).Contents (Elt F) :=
  (broadcastInDim S1x1024 ![1] bcast_S1024_S1x1024_1 : (⟨S1024, .f32⟩ : BufTy).Contents (Elt F) → (⟨S1x1024, .f32⟩ : BufTy).Contents (Elt F)) (v119 x q)

def v185 (x : (⟨S16384x4096, .f32⟩ : BufTy).Contents (Elt F)) (q : (⟨S1024x4, .f32⟩ : BufTy).Contents (Elt F)) : (⟨S16384x1024, .f32⟩ : BufTy).Contents (Elt F) :=
  (broadcastInDim S16384x1024 ![0, 1] bcast_S1x1024_S16384x1024_0_1 : (⟨S1x1024, .f32⟩ : BufTy).Contents (Elt F) → (⟨S16384x1024, .f32⟩ : BufTy).Contents (Elt F)) (v184 x q)

def v186 (x : (⟨S16384x4096, .f32⟩ : BufTy).Contents (Elt F)) (q : (⟨S1024x4, .f32⟩ : BufTy).Contents (Elt F)) : (⟨S16384x1024, .f32⟩ : BufTy).Contents (Elt F) :=
  (mulf : (⟨S16384x1024, .f32⟩ : BufTy).Contents (Elt F) → (⟨S16384x1024, .f32⟩ : BufTy).Contents (Elt F) → (⟨S16384x1024, .f32⟩ : BufTy).Contents (Elt F)) (v185 x q) (v121 x q)

def v187 (x : (⟨S16384x4096, .f32⟩ : BufTy).Contents (Elt F)) (q : (⟨S1024x4, .f32⟩ : BufTy).Contents (Elt F)) : (⟨S16384x1024, .f32⟩ : BufTy).Contents (Elt F) :=
  (addf : (⟨S16384x1024, .f32⟩ : BufTy).Contents (Elt F) → (⟨S16384x1024, .f32⟩ : BufTy).Contents (Elt F) → (⟨S16384x1024, .f32⟩ : BufTy).Contents (Elt F)) (v183 x q) (v186 x q)

def v188 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v142 x q)

def v189 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v157 x q)

def v190 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v172 x q)

def v191 (x : (⟨S16384x4096, .f32⟩ : BufTy).Contents (Elt F)) (q : (⟨S1024x4, .f32⟩ : BufTy).Contents (Elt F)) : (⟨S16384x1024x1, .f32⟩ : BufTy).Contents (Elt F) :=
  (broadcastInDim S16384x1024x1 ![0, 1] bcast_S16384x1024_S16384x1024x1_0_1 : (⟨S16384x1024, .f32⟩ : BufTy).Contents (Elt F) → (⟨S16384x1024x1, .f32⟩ : BufTy).Contents (Elt F)) (v187 x q)

def v192 (x : (⟨S16384x4096, .f32⟩ : BufTy).Contents (Elt F)) (q : (⟨S1024x4, .f32⟩ : BufTy).Contents (Elt F)) : (⟨S16384x1024x4, .f32⟩ : BufTy).Contents (Elt F) :=
  concatenate S16384x1024x4 2 [⟨S16384x1024x1, v188 x q⟩, ⟨S16384x1024x1, v189 x q⟩, ⟨S16384x1024x1, v190 x q⟩, ⟨S16384x1024x1, v191 x q⟩] concatenates_S16384x1024x1_S16384x1024x1_S16384x1024x1_S16384x1024x1_S16384x1024x4_d2

def v193 (x : (⟨S16384x4096, .f32⟩ : BufTy).Contents (Elt F)) (q : (⟨S1024x4, .f32⟩ : BufTy).Contents (Elt F)) : (⟨S16384x4096, .f32⟩ : BufTy).Contents (Elt F) :=
  shapeCast _ (v192 x q) shapeCasts_S16384x1024x4_S16384x4096

def v194 (x : (⟨S16384x4096, .f32⟩ : BufTy).Contents (Elt F)) (q : (⟨S1024x4, .f32⟩ : BufTy).Contents (Elt F)) : (⟨S16384x4096, .f32⟩ : BufTy).Contents (Elt F) :=
  (broadcastInDim S16384x4096 ![0, 1] bcast_S16384x1_S16384x4096_0_1 : (⟨S16384x1, .f32⟩ : BufTy).Contents (Elt F) → (⟨S16384x4096, .f32⟩ : BufTy).Contents (Elt F)) (v2 x q)

def v195 (x : (⟨S16384x4096, .f32⟩ : BufTy).Contents (Elt F)) (q : (⟨S1024x4, .f32⟩ : BufTy).Contents (Elt F)) : (⟨S16384x4096, .f32⟩ : BufTy).Contents (Elt F) :=
  (mulf : (⟨S16384x4096, .f32⟩ : BufTy).Contents (Elt F) → (⟨S16384x4096, .f32⟩ : BufTy).Contents (Elt F) → (⟨S16384x4096, .f32⟩ : BufTy).Contents (Elt F)) (v193 x q) (v194 x q)

def v196 (x : (⟨S16384x4096, .f32⟩ : BufTy).Contents (Elt F)) (q : (⟨S1024x4, .f32⟩ : BufTy).Contents (Elt F)) : (⟨S16384, .f32⟩ : BufTy).Contents (Elt F) :=
  shapeCast _ (v2 x q) shapeCasts_S16384x1_S16384

/-- The first result: the dequantised rows. -/
def out0 (x : (⟨S16384x4096, .f32⟩ : BufTy).Contents (Elt F)) (q : (⟨S1024x4, .f32⟩ : BufTy).Contents (Elt F)) : (⟨S16384x4096, .f32⟩ : BufTy).Contents (Elt F) := v195 x q
/-- The second result: the group scales. -/
def out1 (x : (⟨S16384x4096, .f32⟩ : BufTy).Contents (Elt F)) (q : (⟨S1024x4, .f32⟩ : BufTy).Contents (Elt F)) : (⟨S16384x32, .f32⟩ : BufTy).Contents (Elt F) := v92 x q
/-- The third result: the clamped row norms. -/
def out2 (x : (⟨S16384x4096, .f32⟩ : BufTy).Contents (Elt F)) (q : (⟨S1024x4, .f32⟩ : BufTy).Contents (Elt F)) : (⟨S16384, .f32⟩ : BufTy).Contents (Elt F) := v196 x q

end Cert.ReferenceIdeal.RefValue

end
-- ==== Proof.RefRun1.lean ====
/-
  The buffer contents after the first 1 window of the reference's @main, from any contents: every buffer still read
  later (and each result) holds its stage — the pure function of the two argument arrays that composes the operations
  producing it.
-/
import proofs.«126109_g61838939127936_pilotgen1_510_3_alg».proof.Proof.RefOps
import proofs.«126109_g61838939127936_pilotgen1_510_3_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents before the first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The contents after the first 1 window. -/
def val1 (V0 : Valuation τ sig (Elt F)) : Valuation τ sig (Elt F) := after ops0 (val0 V0)

/-- A buffer that window 0 does not write keeps its contents through it. -/
theorem val1_keep (V0 : Valuation τ sig (Elt F)) (r : Ref sig .tc) (h : r ∉ ops0_W) :
    val1 V0 (Proc.devRef .tc r) = val0 V0 (Proc.devRef .tc r) :=
  after_of_writes_sub ops0 _ ops0_writes h

theorem val1_main_arg0 (V0 : Valuation τ sig (Elt F)) : val1 V0 (no_index (Proc.devRef .tc main_arg0)) = V0 (Proc.devRef .tc main_arg0) :=
  (val1_keep V0 main_arg0 (by decide)).trans (val0_main_arg0 V0)

theorem val1_main_arg1 (V0 : Valuation τ sig (Elt F)) : val1 V0 (no_index (Proc.devRef .tc main_arg1)) = V0 (Proc.devRef .tc main_arg1) :=
  (val1_keep V0 main_arg1 (by decide)).trans (val0_main_arg1 V0)

set_option maxRecDepth 8192 in
set_option maxHeartbeats 2000000 in
theorem val1_main_cst (V0 : Valuation τ sig (Elt F)) : val1 V0 (no_index (Proc.devRef .tc main_cst)) = cst (V0 (Proc.devRef .tc main_arg0)) (V0 (Proc.devRef .tc main_arg1)) := by
  unfold val1
  simp only [ops0]
  after_results_simp
  all_goals rfl

set_option maxRecDepth 8192 in
set_option maxHeartbeats 2000000 in
theorem val1_main_v2 (V0 : Valuation τ sig (Elt F)) : val1 V0 (no_index (Proc.devRef .tc main_v2)) = v2 (V0 (Proc.devRef .tc main_arg0)) (V0 (Proc.devRef .tc main_arg1)) := by
  unfold val1
  simp only [ops0]
  after_results_simp
  simp only [val0_main_arg0] <;> rfl

set_option maxRecDepth 8192 in
set_option maxHeartbeats 2000000 in
theorem val1_main_v7 (V0 : Valuation τ sig (Elt F)) : val1 V0 (no_index (Proc.devRef .tc main_v7)) = v7 (V0 (Proc.devRef .tc main_arg0)) (V0 (Proc.devRef .tc main_arg1)) := by
  unfold val1
  simp only [ops0]
  after_results_simp
  simp only [val0_main_arg1] <;> rfl

set_option maxRecDepth 8192 in
set_option maxHeartbeats 2000000 in
theorem val1_main_v9 (V0 : Valuation τ sig (Elt F)) : val1 V0 (no_index (Proc.devRef .tc main_v9)) = v9 (V0 (Proc.devRef .tc main_arg0)) (V0 (Proc.devRef .tc main_arg1)) := by
  unfold val1
  simp only [ops0]
  after_results_simp
  simp only [val0_main_arg1] <;> rfl

set_option maxRecDepth 8192 in
set_option maxHeartbeats 2000000 in
theorem val1_main_v11 (V0 : Valuation τ sig (Elt F)) : val1 V0 (no_index (Proc.devRef .tc main_v11)) = v11 (V0 (Proc.devRef .tc main_arg0)) (V0 (Proc.devRef .tc main_arg1)) := by
  unfold val1
  simp only [ops0]
  after_results_simp
  simp only [val0_main_arg1] <;> rfl

set_option maxRecDepth 8192 in
set_option maxHeartbeats 2000000 in
theorem val1_main_v13 (V0 : Valuation τ sig (Elt F)) : val1 V0 (no_index (Proc.devRef .tc main_v13)) = v13 (V0 (Proc.devRef .tc main_arg0)) (V0 (Proc.devRef .tc main_arg1)) := by
  unfold val1
  simp only [ops0]
  after_results_simp
  simp only [val0_main_arg1] <;> rfl

set_option maxRecDepth 8192 in
set_option maxHeartbeats 2000000 in
theorem val1_main_v15 (V0 : Valuation τ sig (Elt F)) : val1 V0 (no_index (Proc.devRef .tc main_v15)) = v15 (V0 (Proc.devRef .tc main_arg0)) (V0 (Proc.devRef .tc main_arg1)) := by
  unfold val1
  simp only [ops0]
  after_results_simp
  simp only [val0_main_arg0] <;> rfl

set_option maxRecDepth 8192 in
set_option maxHeartbeats 2000000 in
theorem val1_main_v17 (V0 : Valuation τ sig (Elt F)) : val1 V0 (no_index (Proc.devRef .tc main_v17)) = v17 (V0 (Proc.devRef .tc main_arg0)) (V0 (Proc.devRef .tc main_arg1)) := by
  unfold val1
  simp only [ops0]
  after_results_simp
  simp only [val0_main_arg0] <;> rfl

set_option maxRecDepth 8192 in
set_option maxHeartbeats 2000000 in
theorem val1_main_v19 (V0 : Valuation τ sig (Elt F)) : val1 V0 (no_index (Proc.devRef .tc main_v19)) = v19 (V0 (Proc.devRef .tc main_arg0)) (V0 (Proc.devRef .tc main_arg1)) := by
  unfold val1
  simp only [ops0]
  after_results_simp
  simp only [val0_main_arg0] <;> rfl

set_option maxRecDepth 8192 in
set_option maxHeartbeats 2000000 in
theorem val1_main_v21 (V0 : Valuation τ sig (Elt F)) : val1 V0 (no_index (Proc.devRef .tc main_v21)) = v21 (V0 (Proc.devRef .tc main_arg0)) (V0 (Proc.devRef .tc main_arg1)) := by
  unfold val1
  simp only [ops0]
  after_results_simp
  simp only [val0_main_arg0] <;> rfl

set_option maxRecDepth 8192 in
set_option maxHeartbeats 2000000 in
theorem val1_main_v36 (V0 : Valuation τ sig (Elt F)) : val1 V0 (no_index (Proc.devRef .tc main_v36)) = v36 (V0 (Proc.devRef .tc main_arg0)) (V0 (Proc.devRef .tc main_arg1)) := by
  unfold val1
  simp only [ops0]
  after_results_simp
  simp only [val0_main_arg0, val0_main_arg1] <;> rfl

set_option maxRecDepth 8192 in
set_option maxHeartbeats 2000000 in
theorem val1_main_v51 (V0 : Valuation τ sig (Elt F)) : val1 V0 (no_index (Proc.devRef .tc main_v51)) = v51 (V0 (Proc.devRef .tc main_arg0)) (V0 (Proc.devRef .tc main_arg1)) := by
  unfold val1
  simp only [ops0]
  after_results_simp
  simp only [val0_main_arg0, val0_main_arg1] <;> rfl

set_option maxRecDepth 8192 in
set_option maxHeartbeats 2000000 in
theorem val1_main_v54 (V0 : Valuation τ sig (Elt F)) : val1 V0 (no_index (Proc.devRef .tc main_v54)) = v54 (V0 (Proc.devRef .tc main_arg0)) (V0 (Proc.devRef .tc main_arg1)) := by
  unfold val1
  simp only [ops0]
  after_results_simp
  simp only [val0_main_arg0, val0_main_arg1] <;> rfl

set_option maxRecDepth 8192 in
set_option maxHeartbeats 2000000 in
theorem val1_main_v57 (V0 : Valuation τ sig (Elt F)) : val1 V0 (no_index (Proc.devRef .tc main_v57)) = v57 (V0 (Proc.devRef .tc main_arg0)) (V0 (Proc.devRef .tc main_arg1)) := by
  unfold val1
  simp only [ops0]
  after_results_simp
  simp only [val0_main_arg0, val0_main_arg1] <;> rfl

end Cert.ReferenceIdeal.RefValue

end
-- ==== Proof.RefRun2.lean ====
/-
  The buffer contents after the first 2 windows of the reference's @main, from any contents: every buffer still read
  later (and each result) holds its stage — the pure function of the two argument arrays that composes the operations
  producing it.
-/
import proofs.«126109_g61838939127936_pilotgen1_510_3_alg».proof.Proof.RefRun1

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after the first 2 windows. -/
def val2 (V0 : Valuation τ sig (Elt F)) : Valuation τ sig (Elt F) := after ops1 (val1 V0)

/-- A buffer that window 1 does not write keeps its contents through it. -/
theorem val2_keep (V0 : Valuation τ sig (Elt F)) (r : Ref sig .tc) (h : r ∉ ops1_W) :
    val2 V0 (Proc.devRef .tc r) = val1 V0 (Proc.devRef .tc r) :=
  after_of_writes_sub ops1 _ ops1_writes h

theorem val2_main_arg0 (V0 : Valuation τ sig (Elt F)) : val2 V0 (no_index (Proc.devRef .tc main_arg0)) = V0 (Proc.devRef .tc main_arg0) :=
  (val2_keep V0 main_arg0 (by decide)).trans (val1_main_arg0 V0)

theorem val2_main_arg1 (V0 : Valuation τ sig (Elt F)) : val2 V0 (no_index (Proc.devRef .tc main_arg1)) = V0 (Proc.devRef .tc main_arg1) :=
  (val2_keep V0 main_arg1 (by decide)).trans (val1_main_arg1 V0)

theorem val2_main_v2 (V0 : Valuation τ sig (Elt F)) : val2 V0 (no_index (Proc.devRef .tc main_v2)) = v2 (V0 (Proc.devRef .tc main_arg0)) (V0 (Proc.devRef .tc main_arg1)) :=
  (val2_keep V0 main_v2 (by decide)).trans (val1_main_v2 V0)

set_option maxRecDepth 8192 in
set_option maxHeartbeats 2000000 in
theorem val2_main_v92 (V0 : Valuation τ sig (Elt F)) : val2 V0 (no_index (Proc.devRef .tc main_v92)) = v92 (V0 (Proc.devRef .tc main_arg0)) (V0 (Proc.devRef .tc main_arg1)) := by
  unfold val2
  simp only [ops1]
  after_results_simp
  try dsimp only [Matrix.cons_val]
  try after_results_simp
  simp only [val1_main_v15, val1_main_v13, val1_main_v17, val1_main_v11, val1_main_v19, val1_main_v9, val1_main_v21, val1_main_v7, val1_main_v57, val1_main_v54, val1_main_v51, val1_main_v36] <;> rfl

set_option maxRecDepth 8192 in
set_option maxHeartbeats 2000000 in
theorem val2_main_v110 (V0 : Valuation τ sig (Elt F)) : val2 V0 (no_index (Proc.devRef .tc main_v110)) = v110 (V0 (Proc.devRef .tc main_arg0)) (V0 (Proc.devRef .tc main_arg1)) := by
  unfold val2
  simp only [ops1]
  after_results_simp
  try dsimp only [Matrix.cons_val]
  try after_results_simp
  simp only [val1_main_cst, val1_main_arg1] <;> rfl

set_option maxRecDepth 8192 in
set_option maxHeartbeats 2000000 in
theorem val2_main_v111 (V0 : Valuation τ sig (Elt F)) : val2 V0 (no_index (Proc.devRef .tc main_v111)) = v111 (V0 (Proc.devRef .tc main_arg0)) (V0 (Proc.devRef .tc main_arg1)) := by
  unfold val2
  simp only [ops1]
  after_results_simp
  try dsimp only [Matrix.cons_val]
  try after_results_simp
  simp only [val1_main_v15, val1_main_v13, val1_main_v17, val1_main_v11, val1_main_v19, val1_main_v9, val1_main_v21, val1_main_v7, val1_main_v57, val1_main_v54, val1_main_v51, val1_main_v36] <;> rfl

set_option maxRecDepth 8192 in
set_option maxHeartbeats 2000000 in
theorem val2_main_v112 (V0 : Valuation τ sig (Elt F)) : val2 V0 (no_index (Proc.devRef .tc main_v112)) = v112 (V0 (Proc.devRef .tc main_arg0)) (V0 (Proc.devRef .tc main_arg1)) := by
  unfold val2
  simp only [ops1]
  after_results_simp
  try dsimp only [Matrix.cons_val]
  try after_results_simp
  simp only [val1_main_cst, val1_main_arg1] <;> rfl

end Cert.ReferenceIdeal.RefValue

end
-- ==== Proof.RefRun3.lean ====
/-
  The buffer contents after the first 3 windows of the reference's @main, from any contents: every buffer still read
  later (and each result) holds its stage — the pure function of the two argument arrays that composes the operations
  producing it.
-/
import proofs.«126109_g61838939127936_pilotgen1_510_3_alg».proof.Proof.RefRun2

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after the first 3 windows. -/
def val3 (V0 : Valuation τ sig (Elt F)) : Valuation τ sig (Elt F) := after ops2 (val2 V0)

/-- A buffer that window 2 does not write keeps its contents through it. -/
theorem val3_keep (V0 : Valuation τ sig (Elt F)) (r : Ref sig .tc) (h : r ∉ ops2_W) :
    val3 V0 (Proc.devRef .tc r) = val2 V0 (Proc.devRef .tc r) :=
  after_of_writes_sub ops2 _ ops2_writes h

theorem val3_main_arg0 (V0 : Valuation τ sig (Elt F)) : val3 V0 (no_index (Proc.devRef .tc main_arg0)) = V0 (Proc.devRef .tc main_arg0) :=
  (val3_keep V0 main_arg0 (by decide)).trans (val2_main_arg0 V0)

theorem val3_main_arg1 (V0 : Valuation τ sig (Elt F)) : val3 V0 (no_index (Proc.devRef .tc main_arg1)) = V0 (Proc.devRef .tc main_arg1) :=
  (val3_keep V0 main_arg1 (by decide)).trans (val2_main_arg1 V0)

theorem val3_main_v2 (V0 : Valuation τ sig (Elt F)) : val3 V0 (no_index (Proc.devRef .tc main_v2)) = v2 (V0 (Proc.devRef .tc main_arg0)) (V0 (Proc.devRef .tc main_arg1)) :=
  (val3_keep V0 main_v2 (by decide)).trans (val2_main_v2 V0)

theorem val3_main_v92 (V0 : Valuation τ sig (Elt F)) : val3 V0 (no_index (Proc.devRef .tc main_v92)) = v92 (V0 (Proc.devRef .tc main_arg0)) (V0 (Proc.devRef .tc main_arg1)) :=
  (val3_keep V0 main_v92 (by decide)).trans (val2_main_v92 V0)

set_option maxRecDepth 8192 in
set_option maxHeartbeats 2000000 in
theorem val3_main_v113 (V0 : Valuation τ sig (Elt F)) : val3 V0 (no_index (Proc.devRef .tc main_v113)) = v113 (V0 (Proc.devRef .tc main_arg0)) (V0 (Proc.devRef .tc main_arg1)) := by
  unfold val3
  simp only [ops2]
  after_results_simp
  simp only [val2_main_v112] <;> rfl

set_option maxRecDepth 8192 in
set_option maxHeartbeats 2000000 in
theorem val3_main_v115 (V0 : Valuation τ sig (Elt F)) : val3 V0 (no_index (Proc.devRef .tc main_v115)) = v115 (V0 (Proc.devRef .tc main_arg0)) (V0 (Proc.devRef .tc main_arg1)) := by
  unfold val3
  simp only [ops2]
  after_results_simp
  simp only [val2_main_v110] <;> rfl

set_option maxRecDepth 8192 in
set_option maxHeartbeats 2000000 in
theorem val3_main_v117 (V0 : Valuation τ sig (Elt F)) : val3 V0 (no_index (Proc.devRef .tc main_v117)) = v117 (V0 (Proc.devRef .tc main_arg0)) (V0 (Proc.devRef .tc main_arg1)) := by
  unfold val3
  simp only [ops2]
  after_results_simp
  simp only [val2_main_v110] <;> rfl

set_option maxRecDepth 8192 in
set_option maxHeartbeats 2000000 in
theorem val3_main_v119 (V0 : Valuation τ sig (Elt F)) : val3 V0 (no_index (Proc.devRef .tc main_v119)) = v119 (V0 (Proc.devRef .tc main_arg0)) (V0 (Proc.devRef .tc main_arg1)) := by
  unfold val3
  simp only [ops2]
  after_results_simp
  simp only [val2_main_v110] <;> rfl

set_option maxRecDepth 8192 in
set_option maxHeartbeats 2000000 in
theorem val3_main_v121 (V0 : Valuation τ sig (Elt F)) : val3 V0 (no_index (Proc.devRef .tc main_v121)) = v121 (V0 (Proc.devRef .tc main_arg0)) (V0 (Proc.devRef .tc main_arg1)) := by
  unfold val3
  simp only [ops2]
  after_results_simp
  simp only [val2_main_v111] <;> rfl

set_option maxRecDepth 8192 in
set_option maxHeartbeats 2000000 in
theorem val3_main_v123 (V0 : Valuation τ sig (Elt F)) : val3 V0 (no_index (Proc.devRef .tc main_v123)) = v123 (V0 (Proc.devRef .tc main_arg0)) (V0 (Proc.devRef .tc main_arg1)) := by
  unfold val3
  simp only [ops2]
  after_results_simp
  simp only [val2_main_v111] <;> rfl

set_option maxRecDepth 8192 in
set_option maxHeartbeats 2000000 in
theorem val3_main_v125 (V0 : Valuation τ sig (Elt F)) : val3 V0 (no_index (Proc.devRef .tc main_v125)) = v125 (V0 (Proc.devRef .tc main_arg0)) (V0 (Proc.devRef .tc main_arg1)) := by
  unfold val3
  simp only [ops2]
  after_results_simp
  simp only [val2_main_v111] <;> rfl

set_option maxRecDepth 8192 in
set_option maxHeartbeats 2000000 in
theorem val3_main_v127 (V0 : Valuation τ sig (Elt F)) : val3 V0 (no_index (Proc.devRef .tc main_v127)) = v127 (V0 (Proc.devRef .tc main_arg0)) (V0 (Proc.devRef .tc main_arg1)) := by
  unfold val3
  simp only [ops2]
  after_results_simp
  simp only [val2_main_v111] <;> rfl

set_option maxRecDepth 8192 in
set_option maxHeartbeats 2000000 in
theorem val3_main_v142 (V0 : Valuation τ sig (Elt F)) : val3 V0 (no_index (Proc.devRef .tc main_v142)) = v142 (V0 (Proc.devRef .tc main_arg0)) (V0 (Proc.devRef .tc main_arg1)) := by
  unfold val3
  simp only [ops2]
  after_results_simp
  simp only [val2_main_v111, val2_main_v110, val2_main_v112] <;> rfl

set_option maxRecDepth 8192 in
set_option maxHeartbeats 2000000 in
theorem val3_main_v157 (V0 : Valuation τ sig (Elt F)) : val3 V0 (no_index (Proc.devRef .tc main_v157)) = v157 (V0 (Proc.devRef .tc main_arg0)) (V0 (Proc.devRef .tc main_arg1)) := by
  unfold val3
  simp only [ops2]
  after_results_simp
  simp only [val2_main_v111, val2_main_v110, val2_main_v112] <;> rfl

set_option maxRecDepth 8192 in
set_option maxHeartbeats 2000000 in
theorem val3_main_v172 (V0 : Valuation τ sig (Elt F)) : val3 V0 (no_index (Proc.devRef .tc main_v172)) = v172 (V0 (Proc.devRef .tc main_arg0)) (V0 (Proc.devRef .tc main_arg1)) := by
  unfold val3
  simp only [ops2]
  after_results_simp
  simp only [val2_main_v111, val2_main_v110, val2_main_v112] <;> rfl

end Cert.ReferenceIdeal.RefValue

end
-- ==== Proof.RefRun4.lean ====
/-
  The buffer contents after the first 4 windows of the reference's @main, from any contents: every buffer still read
  later (and each result) holds its stage — the pure function of the two argument arrays that composes the operations
  producing it.
-/
import proofs.«126109_g61838939127936_pilotgen1_510_3_alg».proof.Proof.RefRun3

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after the first 4 windows. -/
def val4 (V0 : Valuation τ sig (Elt F)) : Valuation τ sig (Elt F) := after ops3 (val3 V0)

/-- A buffer that window 3 does not write keeps its contents through it. -/
theorem val4_keep (V0 : Valuation τ sig (Elt F)) (r : Ref sig .tc) (h : r ∉ ops3_W) :
    val4 V0 (Proc.devRef .tc r) = val3 V0 (Proc.devRef .tc r) :=
  after_of_writes_sub ops3 _ ops3_writes h

theorem val4_main_arg0 (V0 : Valuation τ sig (Elt F)) : val4 V0 (no_index (Proc.devRef .tc main_arg0)) = V0 (Proc.devRef .tc main_arg0) :=
  (val4_keep V0 main_arg0 (by decide)).trans (val3_main_arg0 V0)

theorem val4_main_arg1 (V0 : Valuation τ sig (Elt F)) : val4 V0 (no_index (Proc.devRef .tc main_arg1)) = V0 (Proc.devRef .tc main_arg1) :=
  (val4_keep V0 main_arg1 (by decide)).trans (val3_main_arg1 V0)

theorem val4_main_v92 (V0 : Valuation τ sig (Elt F)) : val4 V0 (no_index (Proc.devRef .tc main_v92)) = v92 (V0 (Proc.devRef .tc main_arg0)) (V0 (Proc.devRef .tc main_arg1)) :=
  (val4_keep V0 main_v92 (by decide)).trans (val3_main_v92 V0)

set_option maxRecDepth 8192 in
set_option maxHeartbeats 2000000 in
theorem val4_main_v195 (V0 : Valuation τ sig (Elt F)) : val4 V0 (no_index (Proc.devRef .tc main_v195)) = v195 (V0 (Proc.devRef .tc main_arg0)) (V0 (Proc.devRef .tc main_arg1)) := by
  unfold val4
  simp only [ops3]
  after_results_simp
  try dsimp only [Matrix.cons_val]
  try after_results_simp
  simp only [val3_main_v2, val3_main_v121, val3_main_v119, val3_main_v123, val3_main_v117, val3_main_v125, val3_main_v115, val3_main_v127, val3_main_v113, val3_main_v172, val3_main_v157, val3_main_v142] <;> rfl

set_option maxRecDepth 8192 in
set_option maxHeartbeats 2000000 in
theorem val4_main_v196 (V0 : Valuation τ sig (Elt F)) : val4 V0 (no_index (Proc.devRef .tc main_v196)) = v196 (V0 (Proc.devRef .tc main_arg0)) (V0 (Proc.devRef .tc main_arg1)) := by
  unfold val4
  simp only [ops3]
  after_results_simp
  try dsimp only [Matrix.cons_val]
  try after_results_simp
  simp only [val3_main_v2] <;> rfl

end Cert.ReferenceIdeal.RefValue

end
-- ==== Proof.RefRun.lean ====
/-
  The run of the reference: every weakly fair execution of its @main terminates, each result buffer holding its stage
  (the pure function of the two argument arrays that composes the operations producing it), the arguments unchanged.
-/
import proofs.«126109_g61838939127936_pilotgen1_510_3_alg».proof.Proof.RefRun4
import proofs.«126109_g61838939127936_pilotgen1_510_3_alg».proof.Proof.Gen.Pre_finite_inputs
import proofs.«126109_g61838939127936_pilotgen1_510_3_alg».proof.Defs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The contents after the whole line are the contents after its four windows in order. -/
theorem after_ops (V0 : Valuation τ sig (Elt F)) : after ops V0 = val4 V0 := by
  simp only [ops, after_app]
  rfl

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v195) = out0 (m ((c.tc : Thread nD τ).loc main_arg0)) (m ((c.tc : Thread nD τ).loc main_arg1))
      ∧ r.2.mem ((c.tc : Thread nD τ).loc main_v92) = out1 (m ((c.tc : Thread nD τ).loc main_arg0)) (m ((c.tc : Thread nD τ).loc main_arg1))
      ∧ r.2.mem ((c.tc : Thread nD τ).loc main_v196) = out2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v195).trans (by rw [after_ops]; exact val4_main_v195 _),
      (h c main_v92).trans (by rw [after_ops]; exact val4_main_v92 _),
      (h c main_v196).trans (by rw [after_ops]; exact val4_main_v196 _),
      (h c main_arg0).trans (by rw [after_ops]; exact val4_main_arg0 _),
      (h c main_arg1).trans (by rw [after_ops]; exact val4_main_arg1 _)⟩)
    (run_seq scopedRefs_eq scopedSems_eq defs main (fun _ => ops) main_eq (fun _ => ops_sub) m ρ (fun _ => ops_fresh))

/-- The reference runs and leaves its arguments as they were. -/
theorem frame : Cert.frame_ReferenceIdeal := fun m g _ =>
  (θ_run (defs (F := Ideal)) _ _).mono (fun _ h c => ⟨(h c).2.2.2.1, (h c).2.2.2.2⟩) (run (F := Ideal) m g)

end Cert.ReferenceIdeal.RefValue

end
-- ==== Proof.RefReadLib.lean ====
/-
  Reading the reference's layout operations and host sums at an index, at the shapes of this program, and the
  arithmetic of coerced reals they meet.

  The row of 4096 lanes is seen as 1024 blocks of 4 (lane l is component l % 4 of block l / 4) and as 32 groups of
  128 (lane l is entry l % 128 of group l / 128); a component of the blocks is a slice of width one along the last
  axis with that axis then dropped; four such components with a unit last axis restored are interleaved by a
  concatenation along it; a table column is spread over the rows, a row statistic over the lanes, a scalar everywhere.
-/
import proofs.«126109_g61838939127936_pilotgen1_510_3_alg».proof.ReferenceIdeal
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx
open scoped BigOperators

/-! ## Coerced reals -/

theorem coe_max' (a b : ℝ) : max (a : EReal) (b : EReal) = ((max a b : ℝ) : EReal) :=
  (EReal.coe_strictMono.monotone.map_max).symm

theorem coe_abs' (a : ℝ) : max (a : EReal) (-(a : EReal)) = ((|a| : ℝ) : EReal) := by
  rw [← EReal.coe_neg, coe_max', abs_eq_max_neg]

theorem coe_sum' {ι : Type} (s : Finset ι) (f : ι → ℝ) : ∑ k ∈ s, ((f k : ℝ) : EReal) = ((∑ k ∈ s, f k : ℝ) : EReal) := by
  classical
  refine Finset.induction_on s (by simp) (fun a s ha ih => ?_)
  rw [Finset.sum_insert ha, Finset.sum_insert ha, ih, EReal.coe_add]

/-- The word 0x43000000 is 128. -/
theorem w128 : Ideal.ofBits .f32 0x43000000#32 = ((128 : ℝ) : EReal) := by
  show Ideal.ieee 8 23 (0x43000000#32) = _
  have h1 : ((0x43000000#32 : BitVec 32).extractLsb' 23 8).toNat = 134 := by decide
  have h2 : ((0x43000000#32 : BitVec 32).extractLsb' 0 23).toNat = 0 := by decide
  have h3 : ((0x43000000#32 : BitVec 32).extractLsb' (8 + 23) 1 == 1#1) = false := by decide
  unfold Ideal.ieee
  simp only [h1, h2, h3]
  norm_num

/-- The word 0x3F800000 is 1. -/
theorem w1 : Ideal.ofBits .f32 0x3F800000#32 = ((1 : ℝ) : EReal) := by
  show Ideal.ieee 8 23 (0x3F800000#32) = _
  have h1 : ((0x3F800000#32 : BitVec 32).extractLsb' 23 8).toNat = 127 := by decide
  have h2 : ((0x3F800000#32 : BitVec 32).extractLsb' 0 23).toNat = 0 := by decide
  have h3 : ((0x3F800000#32 : BitVec 32).extractLsb' (8 + 23) 1 == 1#1) = false := by decide
  unfold Ideal.ieee
  simp only [h1, h2, h3]
  norm_num

/-- The word 0xBF800000 is -1. -/
theorem wneg1 : Ideal.ofBits .f32 0xBF800000#32 = ((-1 : ℝ) : EReal) := by
  show Ideal.ieee 8 23 (0xBF800000#32) = _
  have h1 : ((0xBF800000#32 : BitVec 32).extractLsb' 23 8).toNat = 127 := by decide
  have h2 : ((0xBF800000#32 : BitVec 32).extractLsb' 0 23).toNat = 0 := by decide
  have h3 : ((0xBF800000#32 : BitVec 32).extractLsb' (8 + 23) 1 == 1#1) = true := by decide
  unfold Ideal.ieee
  simp only [h1, h2, h3]
  norm_num

/-! ## Layout operations at an index -/

section Layout
variable {α : Type}

theorem rs_split4 (u : S16384x4096.Idx → α) (h : S16384x4096.ShapeCasts S16384x1024x4) (r : Fin 16384) (k : Fin 1024) (j : Fin 4) :
    shapeCast S16384x1024x4 u h (ix3 r k j) = u (ix2 r ⟨4 * k.val + j.val, by omega⟩) :=
  shapeCast_apply u h _ _ (by
    rw [Shape.rowMajor_val_three, Shape.rowMajor_val_two]
    show r.val * 4096 + (4 * k.val + j.val) = (r.val * 1024 + k.val) * 4 + j.val
    omega)

theorem rs_merge4 (w : S16384x1024x4.Idx → α) (h : S16384x1024x4.ShapeCasts S16384x4096) (r : Fin 16384) (l : Fin 4096) :
    shapeCast S16384x4096 w h (ix2 r l) = w (ix3 r ⟨l.val / 4, by omega⟩ ⟨l.val % 4, by omega⟩) :=
  shapeCast_apply w h _ _ (by
    rw [Shape.rowMajor_val_three, Shape.rowMajor_val_two]
    show (r.val * 1024 + l.val / 4) * 4 + l.val % 4 = r.val * 4096 + l.val
    omega)

theorem rs_split128 (u : S16384x4096.Idx → α) (h : S16384x4096.ShapeCasts S16384x32x128) (r : Fin 16384) (g : Fin 32) (t : Fin 128) :
    shapeCast S16384x32x128 u h (ix3 r g t) = u (ix2 r ⟨128 * g.val + t.val, by omega⟩) :=
  shapeCast_apply u h _ _ (by
    rw [Shape.rowMajor_val_three, Shape.rowMajor_val_two]
    show r.val * 4096 + (128 * g.val + t.val) = (r.val * 32 + g.val) * 128 + t.val
    omega)

theorem rs_merge128 (w : S16384x32x128.Idx → α) (h : S16384x32x128.ShapeCasts S16384x4096) (r : Fin 16384) (l : Fin 4096) :
    shapeCast S16384x4096 w h (ix2 r l) = w (ix3 r ⟨l.val / 128, by omega⟩ ⟨l.val % 128, by omega⟩) :=
  shapeCast_apply w h _ _ (by
    rw [Shape.rowMajor_val_three, Shape.rowMajor_val_two]
    show (r.val * 32 + l.val / 128) * 128 + l.val % 128 = r.val * 4096 + l.val
    omega)

/-- Component c of the blocks: the slice of width one at c along the last axis, that axis dropped. -/
theorem comp3 (w : S16384x1024x4.Idx → α) (c : ℕ) (hc : c < 4) (hs : S16384x1024x4.Slices ![0, 0, c] S16384x1024x1)
    (h : S16384x1024x1.ShapeCasts S16384x1024) (r : Fin 16384) (k : Fin 1024) :
    shapeCast S16384x1024 (extractStridedSlice S16384x1024x1 ![0, 0, c] w hs) h (ix2 r k) = w (ix3 r k ⟨c, hc⟩) := by
  refine (shapeCast_apply _ h (ix2 r k) (ix3 r k (0 : Fin 1)) (by
    rw [Shape.rowMajor_val_three, Shape.rowMajor_val_two]
    show (r.val * 1024 + k.val) * 1 + 0 = r.val * 1024 + k.val
    omega)).trans ?_
  exact extractStridedSlice_apply _ w hs _ _ (fun a => by
    match a with
    | ⟨0, _⟩ => show r.val = 0 + r.val; omega
    | ⟨1, _⟩ => show k.val = 0 + k.val; omega
    | ⟨2, _⟩ => show c = c + 0; omega)

/-- Column c of the table: the slice of width one at c along the last axis, that axis dropped. -/
theorem comp2 (p : S1024x4.Idx → α) (c : ℕ) (hc : c < 4) (hs : S1024x4.Slices ![0, c] S1024x1)
    (h : S1024x1.ShapeCasts S1024) (k : Fin 1024) :
    shapeCast S1024 (extractStridedSlice S1024x1 ![0, c] p hs) h (ix1 k) = p (ix2 k ⟨c, hc⟩) := by
  refine (shapeCast_apply _ h (ix1 k) (ix2 k (0 : Fin 1)) (by
    rw [Shape.rowMajor_val_two, Shape.rowMajor_val_one]
    show k.val * 1 + 0 = k.val
    omega)).trans ?_
  exact extractStridedSlice_apply _ p hs _ _ (fun a => by
    match a with
    | ⟨0, _⟩ => show k.val = 0 + k.val; omega
    | ⟨1, _⟩ => show c = c + 0; omega)

/-- A table column spread over the rows. -/
theorem bcRow (w : S1024.Idx → α) (h1 : S1024.BroadcastsInDim S1x1024 (![1] : Fin 1 → Fin S1x1024.rank))
    (h2 : S1x1024.BroadcastsInDim S16384x1024 (![0, 1] : Fin 2 → Fin S16384x1024.rank)) (r : Fin 16384) (k : Fin 1024) :
    broadcastInDim S16384x1024 ![0, 1] h2 (broadcastInDim S1x1024 ![1] h1 w) (ix2 r k) = w (ix1 k) := by
  refine (broadcastInDim_apply _ h2 _ (ix2 r k) (ix2 (0 : Fin 1) k) (fun a => by
    match a with
    | ⟨0, _⟩ => rfl
    | ⟨1, _⟩ => rfl)).trans ?_
  exact broadcastInDim_apply _ h1 w _ (ix1 k) (fun a => by
    match a with
    | ⟨0, _⟩ => rfl)

/-- The sign row spread over the table's rows. -/
theorem bcConj (w : S4.Idx → α) (h1 : S4.BroadcastsInDim S1x4 (![1] : Fin 1 → Fin S1x4.rank))
    (h2 : S1x4.BroadcastsInDim S1024x4 (![0, 1] : Fin 2 → Fin S1024x4.rank)) (k : Fin 1024) (j : Fin 4) :
    broadcastInDim S1024x4 ![0, 1] h2 (broadcastInDim S1x4 ![1] h1 w) (ix2 k j) = w (ix1 j) := by
  refine (broadcastInDim_apply _ h2 _ (ix2 k j) (ix2 (0 : Fin 1) j) (fun a => by
    match a with
    | ⟨0, _⟩ => rfl
    | ⟨1, _⟩ => rfl)).trans ?_
  exact broadcastInDim_apply _ h1 w _ (ix1 j) (fun a => by
    match a with
    | ⟨0, _⟩ => rfl)

/-- A unit last axis restored. -/
theorem bcUnit3 (w : S16384x1024.Idx → α) (h : S16384x1024.BroadcastsInDim S16384x1024x1 (![0, 1] : Fin 2 → Fin S16384x1024x1.rank))
    (r : Fin 16384) (k : Fin 1024) (z : Fin 1) :
    broadcastInDim S16384x1024x1 ![0, 1] h w (ix3 r k z) = w (ix2 r k) :=
  broadcastInDim_apply _ h w _ (ix2 r k) (fun a => by
    match a with
    | ⟨0, _⟩ => rfl
    | ⟨1, _⟩ => rfl)

theorem bcGroupUnit (w : S16384x32.Idx → α) (h : S16384x32.BroadcastsInDim S16384x32x1 (![0, 1] : Fin 2 → Fin S16384x32x1.rank))
    (r : Fin 16384) (g : Fin 32) (z : Fin 1) :
    broadcastInDim S16384x32x1 ![0, 1] h w (ix3 r g z) = w (ix2 r g) :=
  broadcastInDim_apply _ h w _ (ix2 r g) (fun a => by
    match a with
    | ⟨0, _⟩ => rfl
    | ⟨1, _⟩ => rfl)

/-- A group statistic spread over the group's lanes. -/
theorem bcGroup (w : S16384x32x1.Idx → α) (h : S16384x32x1.BroadcastsInDim S16384x32x128 (![0, 1, 2] : Fin 3 → Fin S16384x32x128.rank))
    (r : Fin 16384) (g : Fin 32) (t : Fin 128) :
    broadcastInDim S16384x32x128 ![0, 1, 2] h w (ix3 r g t) = w (ix3 r g (0 : Fin 1)) :=
  broadcastInDim_apply _ h w _ (ix3 r g (0 : Fin 1)) (fun a => by
    match a with
    | ⟨0, _⟩ => rfl
    | ⟨1, _⟩ => rfl
    | ⟨2, _⟩ => rfl)

/-- A row statistic spread over the row's lanes. -/
theorem bcCol (w : S16384x1.Idx → α) (h : S16384x1.BroadcastsInDim S16384x4096 (![0, 1] : Fin 2 → Fin S16384x4096.rank))
    (r : Fin 16384) (l : Fin 4096) :
    broadcastInDim S16384x4096 ![0, 1] h w (ix2 r l) = w (ix2 r (0 : Fin 1)) :=
  broadcastInDim_apply _ h w _ (ix2 r (0 : Fin 1)) (fun a => by
    match a with
    | ⟨0, _⟩ => rfl
    | ⟨1, _⟩ => rfl)

/-- A vector of row statistics as a column. -/
theorem bcVecCol (w : S16384.Idx → α) (h : S16384.BroadcastsInDim S16384x1 (![0] : Fin 1 → Fin S16384x1.rank))
    (r : Fin 16384) (z : Fin 1) :
    broadcastInDim S16384x1 ![0] h w (ix2 r z) = w (ix1 r) :=
  broadcastInDim_apply _ h w _ (ix1 r) (fun a => by
    match a with
    | ⟨0, _⟩ => rfl)

/-- The column of row statistics as a vector. -/
theorem rsCol (w : S16384x1.Idx → α) (h : S16384x1.ShapeCasts S16384) (r : Fin 16384) :
    shapeCast S16384 w h (ix1 r) = w (ix2 r (0 : Fin 1)) :=
  shapeCast_apply w h _ _ (by
    rw [Shape.rowMajor_val_two, Shape.rowMajor_val_one]
    show r.val * 1 + 0 = r.val
    omega)

/-- A scalar spread everywhere. -/
theorem bcScalar {t : Shape} (c : S_.Idx → α) (h : S_.BroadcastsInDim t (![] : Fin 0 → Fin t.rank)) (j : t.Idx) :
    broadcastInDim t ![] h c j = c ix0 :=
  broadcastInDim_apply _ h c j ix0 (fun a => a.elim0)

/-! ## Four components interleaved

Four arrays with a unit last axis concatenated along it: at last coordinate c the result reads the c-th array. -/

theorem concat4_0 (A B C D : S16384x1024x1.Idx → α)
    (h : Shape.Concatenates [S16384x1024x1, S16384x1024x1, S16384x1024x1, S16384x1024x1] S16384x1024x4 2)
    (r : Fin 16384) (k : Fin 1024) :
    concatenate S16384x1024x4 2 [⟨S16384x1024x1, A⟩, ⟨S16384x1024x1, B⟩, ⟨S16384x1024x1, C⟩, ⟨S16384x1024x1, D⟩] h (ix3 r k (0 : Fin 4))
      = A (ix3 r k (0 : Fin 1)) := by
  show A _ = A _
  refine congrArg A (funext fun b => ?_)
  match b with
  | ⟨0, _⟩ => rfl
  | ⟨1, _⟩ => rfl
  | ⟨2, _⟩ => rfl

theorem concat4_1 (A B C D : S16384x1024x1.Idx → α)
    (h : Shape.Concatenates [S16384x1024x1, S16384x1024x1, S16384x1024x1, S16384x1024x1] S16384x1024x4 2)
    (r : Fin 16384) (k : Fin 1024) :
    concatenate S16384x1024x4 2 [⟨S16384x1024x1, A⟩, ⟨S16384x1024x1, B⟩, ⟨S16384x1024x1, C⟩, ⟨S16384x1024x1, D⟩] h (ix3 r k (1 : Fin 4))
      = B (ix3 r k (0 : Fin 1)) := by
  show B _ = B _
  refine congrArg B (funext fun b => ?_)
  match b with
  | ⟨0, _⟩ => rfl
  | ⟨1, _⟩ => rfl
  | ⟨2, _⟩ => rfl

theorem concat4_2 (A B C D : S16384x1024x1.Idx → α)
    (h : Shape.Concatenates [S16384x1024x1, S16384x1024x1, S16384x1024x1, S16384x1024x1] S16384x1024x4 2)
    (r : Fin 16384) (k : Fin 1024) :
    concatenate S16384x1024x4 2 [⟨S16384x1024x1, A⟩, ⟨S16384x1024x1, B⟩, ⟨S16384x1024x1, C⟩, ⟨S16384x1024x1, D⟩] h (ix3 r k (2 : Fin 4))
      = C (ix3 r k (0 : Fin 1)) := by
  show C _ = C _
  refine congrArg C (funext fun b => ?_)
  match b with
  | ⟨0, _⟩ => rfl
  | ⟨1, _⟩ => rfl
  | ⟨2, _⟩ => rfl

theorem concat4_3 (A B C D : S16384x1024x1.Idx → α)
    (h : Shape.Concatenates [S16384x1024x1, S16384x1024x1, S16384x1024x1, S16384x1024x1] S16384x1024x4 2)
    (r : Fin 16384) (k : Fin 1024) :
    concatenate S16384x1024x4 2 [⟨S16384x1024x1, A⟩, ⟨S16384x1024x1, B⟩, ⟨S16384x1024x1, C⟩, ⟨S16384x1024x1, D⟩] h (ix3 r k (3 : Fin 4))
      = D (ix3 r k (0 : Fin 1)) := by
  show D _ = D _
  refine congrArg D (funext fun b => ?_)
  match b with
  | ⟨0, _⟩ => rfl
  | ⟨1, _⟩ => rfl
  | ⟨2, _⟩ => rfl

end Layout

/-! ## The host's sums over the last axis, at the ideal values -/

/-- The sum over the lanes of a row: the initial value plus the sum of the row's 4096 entries. -/
theorem hostSum2 (x : FVec Ideal S16384x4096 .f32) (init : S_.Idx → Ideal .f32)
    (h' : S16384x4096.ReducesTo [1] S16384) (hu : 0 < S_.numel) (r : Fin 16384) :
    Host.reduceAdd x init h' hu (ix1 r) = init ix0 + ∑ k : Fin 4096, x (ix2 r k) := by
  have h : S16384x4096.Reduces [1] S16384 := by decide
  show Ideal.hostReduceAdd h' x (init (Shape.Idx.first hu)) (ix1 r) = _
  rw [Ideal.hostReduceAdd_single h' h]
  refine congr (congrArg _ (congrArg init (funext fun a => a.elim0))) (Finset.sum_congr rfl fun k _ => congrArg x ?_)
  exact funext fun ax => Fin.ext (by match ax with | ⟨0, _⟩ => rfl | ⟨1, _⟩ => rfl)

/-- The sum over the entries of a group: the initial value plus the sum of the group's 128 entries. -/
theorem hostSum3 (x : FVec Ideal S16384x32x128 .f32) (init : S_.Idx → Ideal .f32)
    (h' : S16384x32x128.ReducesTo [2] S16384x32) (hu : 0 < S_.numel) (r : Fin 16384) (g : Fin 32) :
    Host.reduceAdd x init h' hu (ix2 r g) = init ix0 + ∑ t : Fin 128, x (ix3 r g t) := by
  have h : S16384x32x128.Reduces [2] S16384x32 := by decide
  show Ideal.hostReduceAdd h' x (init (Shape.Idx.first hu)) (ix2 r g) = _
  rw [Ideal.hostReduceAdd_single h' h]
  refine congr (congrArg _ (congrArg init (funext fun a => a.elim0))) (Finset.sum_congr rfl fun k _ => congrArg x ?_)
  exact funext fun ax => Fin.ext (by match ax with | ⟨0, _⟩ => rfl | ⟨1, _⟩ => rfl | ⟨2, _⟩ => rfl)

end Cert.ReferenceIdeal.RefValue

end
-- ==== Proof.RefReadA.lean ====
/-
  The reference's stages read at an index as real numbers, first part: for inputs with real entries, the clamped
  row norm is the real clamped norm, the unit row the real quotient, and the rotated row — blocks of four lanes
  multiplied by the table's quaternions, component by component, then interleaved — the real rotated row.
-/
import proofs.«126109_g61838939127936_pilotgen1_510_3_alg».proof.Proof.RefStages
import proofs.«126109_g61838939127936_pilotgen1_510_3_alg».proof.Proof.RefReadLib
import proofs.«126109_g61838939127936_pilotgen1_510_3_alg».proof.Proof.RealModel
import proofs.«126109_g61838939127936_pilotgen1_510_3_alg».proof.Proof.Eps

noncomputable section

namespace Cert.ReferenceIdeal.RefValue

open Cert.ReferenceIdeal Cert.ReferenceIdeal.Gen Idealize.ShloMosaic Idealize.ShloMosaic.ValueIdx Cert.Eps
open scoped BigOperators

/-! ## The host's pointwise operations at an index, at the ideal values -/

theorem hsqrt_apply {s : Shape} {φ : FTy} (a : FVec Ideal s φ) (i : s.Idx) : Host.sqrt a i = Ideal.sqrt (a i) := rfl
theorem hdivf_apply {s : Shape} {φ : FTy} (a b : FVec Ideal s φ) (i : s.Idx) : Host.divf a b i = Ideal.div (a i) (b i) := rfl
theorem habsf_apply {s : Shape} {φ : FTy} (a : FVec Ideal s φ) (i : s.Idx) : Host.absf a i = max (a i) (-(a i)) := rfl
theorem hsign_apply {s : Shape} {φ : FTy} (a : FVec Ideal s φ) (i : s.Idx) : Host.sign a i = Ideal.sign (a i) := rfl
theorem fcmpf {φ : FTy} (p : CmpFPredicate) (a b : Ideal φ) : FloatOps.cmpf p a b = Ideal.cmp p a b := rfl

/-! ## The norm and the unit row -/

theorem sumsq_nonneg (xr : ℕ → ℕ → ℝ) (r : ℕ) : 0 ≤ ∑ l ∈ Finset.range 4096, xr r l * xr r l :=
  Finset.sum_nonneg fun l _ => mul_self_nonneg _

theorem nrm_pos (xr : ℕ → ℕ → ℝ) (r : ℕ) : 0 < Cert.QuantModel.nrm eR xr r :=
  lt_of_lt_of_le eR_pos (le_max_right _ _)

/-- The row's sum of squares. -/
theorem call0_v1_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (r : Fin 16384) :
    call0_v1 x q (ix1 r) = ((∑ l ∈ Finset.range 4096, xr r.val l * xr r.val l : ℝ) : EReal) := by
  refine (hostSum2 _ _ reducesTo_S16384x4096_S16384_d1 h_S_ r).trans ?_
  have e0 : call0_cst (F := Ideal) x q ix0 = 0 := Ideal.ofBits_zero_f32
  have e1 : ∀ k : Fin 4096, call0_v0 x q (ix2 r k) = ((xr r.val k.val * xr r.val k.val : ℝ) : EReal) := fun k => by
    show x (ix2 r k) * x (ix2 r k) = _
    rw [hx r k, EReal.coe_mul]
  rw [e0, zero_add]
  simp only [e1]
  rw [coe_sum', Fin.sum_univ_eq_sum_range (fun l => xr r.val l * xr r.val l) 4096]

/-- The clamped norm of the row. -/
theorem v2_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (r : Fin 16384) (z : Fin 1) :
    v2 x q (ix2 r z) = ((Cert.QuantModel.nrm eR xr r.val : ℝ) : EReal) := by
  simp only [v2, v0, v1, call0_v2, cst_0, maximumf_apply, hsqrt_apply]
  rw [bcVecCol _ bcast_S16384_S16384x1_0 r z, bcScalar _ bcast_S_S16384x1 (ix2 r z), constant_apply,
    call0_v1_at x q xr hx r, eps_eq, Ideal.sqrt_coe, if_neg (not_lt.mpr (sumsq_nonneg xr r.val)), coe_max']
  rfl

/-- The unit row. -/
theorem v4_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (r : Fin 16384) (l : Fin 4096) :
    v4 x q (ix2 r l) = ((xr r.val l.val / Cert.QuantModel.nrm eR xr r.val : ℝ) : EReal) := by
  simp only [v4, v3, hdivf_apply]
  rw [bcCol _ bcast_S16384x1_S16384x4096_0_1 r l, v2_at x q xr hx r 0, hx r l, Ideal.div_coe (ne_of_gt (nrm_pos xr r.val)), ← EReal.coe_mul, mul_one_div]

/-! ## The rotation (forward): blocks of four lanes times the table's quaternions -/

theorem v5_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) (j : Fin 4) :
    v5 x q (ix3 r k j) = ((U r.val (4 * k.val + j.val) : ℝ) : EReal) :=
  (rs_split4 _ shapeCasts_S16384x4096_S16384x1024x4 r k j).trans (hU r ⟨4 * k.val + j.val, by omega⟩)

theorem v7_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (k : Fin 1024) :
    v7 x q (ix1 k) = ((P k.val 0 : ℝ) : EReal) :=
  (comp2 _ 0 (by omega) slices_S1024x4_S1024x1_0_0 shapeCasts_S1024x1_S1024 k).trans (hP k ⟨0, by omega⟩)

theorem v9_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (k : Fin 1024) :
    v9 x q (ix1 k) = ((P k.val 1 : ℝ) : EReal) :=
  (comp2 _ 1 (by omega) slices_S1024x4_S1024x1_0_1 shapeCasts_S1024x1_S1024 k).trans (hP k ⟨1, by omega⟩)

theorem v11_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (k : Fin 1024) :
    v11 x q (ix1 k) = ((P k.val 2 : ℝ) : EReal) :=
  (comp2 _ 2 (by omega) slices_S1024x4_S1024x1_0_2 shapeCasts_S1024x1_S1024 k).trans (hP k ⟨2, by omega⟩)

theorem v13_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (k : Fin 1024) :
    v13 x q (ix1 k) = ((P k.val 3 : ℝ) : EReal) :=
  (comp2 _ 3 (by omega) slices_S1024x4_S1024x1_0_3 shapeCasts_S1024x1_S1024 k).trans (hP k ⟨3, by omega⟩)

theorem v15_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v15 x q (ix2 r k) = ((U r.val (4 * k.val + 0) : ℝ) : EReal) :=
  (comp3 _ 0 (by omega) slices_S16384x1024x4_S16384x1024x1_0_0_0 shapeCasts_S16384x1024x1_S16384x1024 r k).trans (v5_at x q U P hU hP r k ⟨0, by omega⟩)

theorem v17_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v17 x q (ix2 r k) = ((U r.val (4 * k.val + 1) : ℝ) : EReal) :=
  (comp3 _ 1 (by omega) slices_S16384x1024x4_S16384x1024x1_0_0_1 shapeCasts_S16384x1024x1_S16384x1024 r k).trans (v5_at x q U P hU hP r k ⟨1, by omega⟩)

theorem v19_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v19 x q (ix2 r k) = ((U r.val (4 * k.val + 2) : ℝ) : EReal) :=
  (comp3 _ 2 (by omega) slices_S16384x1024x4_S16384x1024x1_0_0_2 shapeCasts_S16384x1024x1_S16384x1024 r k).trans (v5_at x q U P hU hP r k ⟨2, by omega⟩)

theorem v21_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v21 x q (ix2 r k) = ((U r.val (4 * k.val + 3) : ℝ) : EReal) :=
  (comp3 _ 3 (by omega) slices_S16384x1024x4_S16384x1024x1_0_0_3 shapeCasts_S16384x1024x1_S16384x1024 r k).trans (v5_at x q U P hU hP r k ⟨3, by omega⟩)

theorem v36_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v36 x q (ix2 r k) = ((((P k.val 0 * U r.val (4 * k.val + 0) - P k.val 1 * U r.val (4 * k.val + 1)) - P k.val 2 * U r.val (4 * k.val + 2)) - P k.val 3 * U r.val (4 * k.val + 3) : ℝ) : EReal) := by
  simp only [v36, v32, v28, v24, v23, v22, v27, v26, v25, v31, v30, v29, v35, v34, v33, subf_apply, addf_apply, mulf_apply]
  rw [bcRow (v7 x q) bcast_S1024_S1x1024_1 bcast_S1x1024_S16384x1024_0_1 r k, bcRow (v9 x q) bcast_S1024_S1x1024_1 bcast_S1x1024_S16384x1024_0_1 r k, bcRow (v11 x q) bcast_S1024_S1x1024_1 bcast_S1x1024_S16384x1024_0_1 r k, bcRow (v13 x q) bcast_S1024_S1x1024_1 bcast_S1x1024_S16384x1024_0_1 r k]
  rw [v7_at x q U P hU hP k, v9_at x q U P hU hP k, v11_at x q U P hU hP k, v13_at x q U P hU hP k, v15_at x q U P hU hP r k, v17_at x q U P hU hP r k, v19_at x q U P hU hP r k, v21_at x q U P hU hP r k]
  simp only [← EReal.coe_mul, ← EReal.coe_sub, ← EReal.coe_add]

theorem v51_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v51 x q (ix2 r k) = ((((P k.val 0 * U r.val (4 * k.val + 1) + P k.val 1 * U r.val (4 * k.val + 0)) + P k.val 2 * U r.val (4 * k.val + 3)) - P k.val 3 * U r.val (4 * k.val + 2) : ℝ) : EReal) := by
  simp only [v51, v47, v43, v39, v38, v37, v42, v41, v40, v46, v45, v44, v50, v49, v48, subf_apply, addf_apply, mulf_apply]
  rw [bcRow (v7 x q) bcast_S1024_S1x1024_1 bcast_S1x1024_S16384x1024_0_1 r k, bcRow (v9 x q) bcast_S1024_S1x1024_1 bcast_S1x1024_S16384x1024_0_1 r k, bcRow (v11 x q) bcast_S1024_S1x1024_1 bcast_S1x1024_S16384x1024_0_1 r k, bcRow (v13 x q) bcast_S1024_S1x1024_1 bcast_S1x1024_S16384x1024_0_1 r k]
  rw [v7_at x q U P hU hP k, v9_at x q U P hU hP k, v11_at x q U P hU hP k, v13_at x q U P hU hP k, v17_at x q U P hU hP r k, v15_at x q U P hU hP r k, v21_at x q U P hU hP r k, v19_at x q U P hU hP r k]
  simp only [← EReal.coe_mul, ← EReal.coe_sub, ← EReal.coe_add]

theorem v66_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v66 x q (ix2 r k) = ((((P k.val 0 * U r.val (4 * k.val + 2) - P k.val 1 * U r.val (4 * k.val + 3)) + P k.val 2 * U r.val (4 * k.val + 0)) + P k.val 3 * U r.val (4 * k.val + 1) : ℝ) : EReal) := by
  simp only [v66, v62, v58, v54, v53, v52, v57, v56, v55, v61, v60, v59, v65, v64, v63, subf_apply, addf_apply, mulf_apply]
  rw [bcRow (v7 x q) bcast_S1024_S1x1024_1 bcast_S1x1024_S16384x1024_0_1 r k, bcRow (v9 x q) bcast_S1024_S1x1024_1 bcast_S1x1024_S16384x1024_0_1 r k, bcRow (v11 x q) bcast_S1024_S1x1024_1 bcast_S1x1024_S16384x1024_0_1 r k, bcRow (v13 x q) bcast_S1024_S1x1024_1 bcast_S1x1024_S16384x1024_0_1 r k]
  rw [v7_at x q U P hU hP k, v9_at x q U P hU hP k, v11_at x q U P hU hP k, v13_at x q U P hU hP k, v19_at x q U P hU hP r k, v21_at x q U P hU hP r k, v15_at x q U P hU hP r k, v17_at x q U P hU hP r k]
  simp only [← EReal.coe_mul, ← EReal.coe_sub, ← EReal.coe_add]

theorem v81_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) :
    v81 x q (ix2 r k) = ((((P k.val 0 * U r.val (4 * k.val + 3) + P k.val 1 * U r.val (4 * k.val + 2)) - P k.val 2 * U r.val (4 * k.val + 1)) + P k.val 3 * U r.val (4 * k.val + 0) : ℝ) : EReal) := by
  simp only [v81, v77, v73, v69, v68, v67, v72, v71, v70, v76, v75, v74, v80, v79, v78, subf_apply, addf_apply, mulf_apply]
  rw [bcRow (v7 x q) bcast_S1024_S1x1024_1 bcast_S1x1024_S16384x1024_0_1 r k, bcRow (v9 x q) bcast_S1024_S1x1024_1 bcast_S1x1024_S16384x1024_0_1 r k, bcRow (v11 x q) bcast_S1024_S1x1024_1 bcast_S1x1024_S16384x1024_0_1 r k, bcRow (v13 x q) bcast_S1024_S1x1024_1 bcast_S1x1024_S16384x1024_0_1 r k]
  rw [v7_at x q U P hU hP k, v9_at x q U P hU hP k, v11_at x q U P hU hP k, v13_at x q U P hU hP k, v21_at x q U P hU hP r k, v19_at x q U P hU hP r k, v17_at x q U P hU hP r k, v15_at x q U P hU hP r k]
  simp only [← EReal.coe_mul, ← EReal.coe_sub, ← EReal.coe_add]

theorem v86_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (k : Fin 1024) (j : Fin 4) :
    v86 x q (ix3 r k j) = ((Cert.QuantModel.ham (P k.val) (fun i => U r.val (4 * k.val + i)) j.val : ℝ) : EReal) := by
  match j with
  | ⟨0, _⟩ =>
    exact ((concat4_0 (v82 x q) (v83 x q) (v84 x q) (v85 x q) concatenates_S16384x1024x1_S16384x1024x1_S16384x1024x1_S16384x1024x1_S16384x1024x4_d2 r k).trans
      ((bcUnit3 _ bcast_S16384x1024_S16384x1024x1_0_1 r k 0).trans (v36_at x q U P hU hP r k)))
  | ⟨1, _⟩ =>
    exact ((concat4_1 (v82 x q) (v83 x q) (v84 x q) (v85 x q) concatenates_S16384x1024x1_S16384x1024x1_S16384x1024x1_S16384x1024x1_S16384x1024x4_d2 r k).trans
      ((bcUnit3 _ bcast_S16384x1024_S16384x1024x1_0_1 r k 0).trans (v51_at x q U P hU hP r k)))
  | ⟨2, _⟩ =>
    exact ((concat4_2 (v82 x q) (v83 x q) (v84 x q) (v85 x q) concatenates_S16384x1024x1_S16384x1024x1_S16384x1024x1_S16384x1024x1_S16384x1024x4_d2 r k).trans
      ((bcUnit3 _ bcast_S16384x1024_S16384x1024x1_0_1 r k 0).trans (v66_at x q U P hU hP r k)))
  | ⟨3, _⟩ =>
    exact ((concat4_3 (v82 x q) (v83 x q) (v84 x q) (v85 x q) concatenates_S16384x1024x1_S16384x1024x1_S16384x1024x1_S16384x1024x1_S16384x1024x4_d2 r k).trans
      ((bcUnit3 _ bcast_S16384x1024_S16384x1024x1_0_1 r k 0).trans (v81_at x q U P hU hP r k)))

/-- Lane l of the rotated row: component l % 4 of the product of quaternion l / 4 with block l / 4. -/
theorem v87_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v4 x q (ix2 r l) = ((U r.val l.val : ℝ) : EReal))
    (hP : ∀ (k : Fin 1024) (j : Fin 4), q (ix2 k j) = ((P k.val j.val : ℝ) : EReal)) (r : Fin 16384) (l : Fin 4096) :
    v87 x q (ix2 r l) = ((Cert.QuantModel.rot P (U r.val) l.val : ℝ) : EReal) :=
  (rs_merge4 _ shapeCasts_S16384x1024x4_S16384x4096 r l).trans (v86_at x q U P hU hP r ⟨l.val / 4, by omega⟩ ⟨l.val % 4, by omega⟩)

/-- The rotated unit row. -/
theorem v87_read (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (l : Fin 4096) :
    v87 x q (ix2 r l) = ((Cert.QuantModel.refRot eR xr qr r.val l.val : ℝ) : EReal) :=
  v87_at x q (fun r l => xr r l / Cert.QuantModel.nrm eR xr r) qr (fun r l => v4_at x q xr hx r l) hq r l

end Cert.ReferenceIdeal.RefValue

end
-- ==== Proof.RefReadB.lean ====
/-
  The reference's stages read at an index as real numbers, second part: the group means of absolute values, the
  signs with zero counted positive, the clamped means, and the quantised rotated row.
-/
import proofs.«126109_g61838939127936_pilotgen1_510_3_alg».proof.Proof.RefReadA

noncomputable section

namespace Cert.ReferenceIdeal.RefValue

open Cert.ReferenceIdeal Cert.ReferenceIdeal.Gen Idealize.ShloMosaic Idealize.ShloMosaic.ValueIdx Cert.Eps
open scoped BigOperators

/-! ## Groups of 128 lanes -/

theorem v88_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) (t : Fin 128) :
    v88 x q (ix3 r g t) = ((Cert.QuantModel.refRot eR xr qr r.val (128 * g.val + t.val) : ℝ) : EReal) :=
  (rs_split128 _ shapeCasts_S16384x4096_S16384x32x128 r g t).trans (v87_read x q xr hx qr hq r ⟨128 * g.val + t.val, by omega⟩)

/-- The group's sum of absolute values. -/
theorem v90_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) :
    v90 x q (ix2 r g) = ((∑ t ∈ Finset.range 128, |Cert.QuantModel.refRot eR xr qr r.val (128 * g.val + t)| : ℝ) : EReal) := by
  refine (hostSum3 _ _ reducesTo_S16384x32x128_S16384x32_d2 h_S_ r g).trans ?_
  have e0 : cst_1 (F := Ideal) x q ix0 = 0 := Ideal.ofBits_zero_f32
  have e1 : ∀ t : Fin 128, v89 x q (ix3 r g t) = ((|Cert.QuantModel.refRot eR xr qr r.val (128 * g.val + t.val)| : ℝ) : EReal) := fun t => by
    simp only [v89, habsf_apply]
    rw [v88_at x q xr hx qr hq r g t, coe_abs']
  rw [e0, zero_add]
  simp only [e1]
  rw [coe_sum', Fin.sum_univ_eq_sum_range (fun t => |Cert.QuantModel.refRot eR xr qr r.val (128 * g.val + t)|) 128]

/-- The group's mean absolute value. -/
theorem v92_read (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) :
    v92 x q (ix2 r g) = ((Cert.QuantModel.refScale eR xr qr r.val g.val : ℝ) : EReal) := by
  simp only [v92, v91, cst_2, hdivf_apply]
  rw [bcScalar _ bcast_S_S16384x32 (ix2 r g), constant_apply, v90_at x q xr hx qr hq r g, w128, Ideal.div_coe (by norm_num : (128 : ℝ) ≠ 0), ← EReal.coe_mul, mul_one_div]
  rfl

/-! ## Signs, zero counted positive -/

/-- The sign of a real, replaced by one where it is zero, as the comparison and selection compute it. -/
theorem select_sign (a : ℝ) :
    Scalar.select (Ideal.cmp .oeq (Ideal.sign (a : EReal)) 0) (((1 : ℝ)) : EReal) (Ideal.sign (a : EReal))
      = ((Cert.QuantModel.sgn1 a : ℝ) : EReal) := by
  rw [Ideal.sign_coe]
  unfold Cert.QuantModel.sgn1
  by_cases hs : ((SignType.sign a : ℝ)) = 0
  · have hc : Ideal.cmp .oeq (((SignType.sign a : ℝ)) : EReal) 0 = 1#1 := by
      rw [hs]; simp [Ideal.cmp]
    rw [hc, select_one, if_pos hs]
  · have hc : Ideal.cmp .oeq (((SignType.sign a : ℝ)) : EReal) 0 = 0#1 := by
      have h' : ¬ ((((SignType.sign a : ℝ)) : EReal) = 0) := fun h => hs (by exact_mod_cast h)
      show BitVec.ofBool (decide ((((SignType.sign a : ℝ)) : EReal) = 0)) = 0#1
      rw [decide_eq_false h']
      rfl
    rw [hc, select_zero, if_neg hs]

theorem v97_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) (t : Fin 128) :
    v97 x q (ix3 r g t) = ((Cert.QuantModel.sgn1 (Cert.QuantModel.refRot eR xr qr r.val (128 * g.val + t.val)) : ℝ) : EReal) := by
  simp only [v97, v95, v93, v94, v96, cst_3, cst_4, select_apply, cmpf_apply, fcmpf, hsign_apply]
  rw [bcScalar (constant S_ .f32 0x00000000#32) bcast_S_S16384x32x128 (ix3 r g t),
    bcScalar (constant S_ .f32 0x3F800000#32) bcast_S_S16384x32x128 (ix3 r g t), constant_apply, constant_apply, v88_at x q xr hx qr hq r g t, Ideal.ofBits_zero_f32, w1]
  exact select_sign _

theorem v99_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) (t : Fin 128) :
    v99 x q (ix3 r g t) = ((Cert.QuantModel.refRot eR xr qr r.val (128 * g.val + t.val) + (Cert.QuantModel.sgn1 (Cert.QuantModel.refRot eR xr qr r.val (128 * g.val + t.val)) - Cert.QuantModel.refRot eR xr qr r.val (128 * g.val + t.val)) : ℝ) : EReal) := by
  simp only [v99, v98, addf_apply, subf_apply]
  rw [v88_at x q xr hx qr hq r g t, v97_at x q xr hx qr hq r g t, ← EReal.coe_sub, ← EReal.coe_add]

/-! ## The clamped means and the quantised row -/

theorem v103_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) :
    v103 x q (ix2 r g) = ((Cert.QuantModel.refScale eR xr qr r.val g.val + (max (Cert.QuantModel.refScale eR xr qr r.val g.val) eR - Cert.QuantModel.refScale eR xr qr r.val g.val) : ℝ) : EReal) := by
  simp only [v103, v102, v101, v100, cst_5, addf_apply, subf_apply, maximumf_apply]
  rw [bcScalar _ bcast_S_S16384x32 (ix2 r g), constant_apply, v92_read x q xr hx qr hq r g, eps_eq, coe_max', ← EReal.coe_sub, ← EReal.coe_add]

theorem v106_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) (t : Fin 128) :
    v106 x q (ix3 r g t) = (((Cert.QuantModel.refRot eR xr qr r.val (128 * g.val + t.val) + (Cert.QuantModel.sgn1 (Cert.QuantModel.refRot eR xr qr r.val (128 * g.val + t.val)) - Cert.QuantModel.refRot eR xr qr r.val (128 * g.val + t.val)))
      * (Cert.QuantModel.refScale eR xr qr r.val g.val + (max (Cert.QuantModel.refScale eR xr qr r.val g.val) eR - Cert.QuantModel.refScale eR xr qr r.val g.val)) : ℝ) : EReal) := by
  simp only [v106, v105, v104, mulf_apply]
  rw [bcGroup _ bcast_S16384x32x1_S16384x32x128_0_1_2 r g t, bcGroupUnit _ bcast_S16384x32_S16384x32x1_0_1 r g 0, v99_at x q xr hx qr hq r g t, v103_at x q xr hx qr hq r g, ← EReal.coe_mul]

/-- The quantised rotated row. -/
theorem v107_read (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (l : Fin 4096) :
    v107 x q (ix2 r l) = ((Cert.QuantModel.refQuant eR xr qr r.val l.val : ℝ) : EReal) := by
  refine (rs_merge128 _ shapeCasts_S16384x32x128_S16384x4096 r l).trans ?_
  rw [v106_at x q xr hx qr hq r ⟨l.val / 128, by omega⟩ ⟨l.val % 128, by omega⟩]
  have e : 128 * (l.val / 128) + l.val % 128 = l.val := by omega
  simp only [e]
  rfl

end Cert.ReferenceIdeal.RefValue

end
-- ==== Proof.RefReadC.lean ====
/-
  The reference's stages read at an index as real numbers, last part: the conjugate table, the inverse rotation of
  the quantised row, and the three results — for inputs with real entries each result is the real model's value.
-/
import proofs.«126109_g61838939127936_pilotgen1_510_3_alg».proof.Proof.RefReadB

noncomputable section

namespace Cert.ReferenceIdeal.RefValue

open Cert.ReferenceIdeal Cert.ReferenceIdeal.Gen Idealize.ShloMosaic Idealize.ShloMosaic.ValueIdx Cert.Eps
open scoped BigOperators

/-! ## The conjugate table -/

/-- The sign row 1, -1, -1, -1. -/
theorem cst_at (x : (⟨S16384x4096, .f32⟩ : BufTy).Contents (Elt Ideal)) (q : (⟨S1024x4, .f32⟩ : BufTy).Contents (Elt Ideal)) (j : Fin 4) :
    cst (F := Ideal) x q (ix1 j) = (((if j.val = 0 then 1 else -1 : ℝ)) : EReal) := by
  have hj : S4.rowMajor (ix1 j) = j := Fin.ext (Shape.rowMajor_val_one _)
  simp only [cst, Ideal.ofBits_def, hj]
  match j with
  | ⟨0, _⟩ => exact w1.trans (by simp)
  | ⟨1, _⟩ => exact wneg1.trans (by simp)
  | ⟨2, _⟩ => exact wneg1.trans (by simp)
  | ⟨3, _⟩ => exact wneg1.trans (by simp)

theorem v110_at (x : (⟨S16384x4096, .f32⟩ : BufTy).Contents (Elt Ideal)) (q : (⟨S1024x4, .f32⟩ : BufTy).Contents (Elt Ideal)) (qr : ℕ → ℕ → ℝ) (hq : ∀ (k : Fin 1024) (j : Fin 4), q (ix2 k j) = ((qr k.val j.val : ℝ) : EReal)) (k : Fin 1024) (j : Fin 4) :
    v110 x q (ix2 k j) = ((Cert.QuantModel.conj qr k.val j.val : ℝ) : EReal) := by
  simp only [v110, v109, v108, mulf_apply]
  rw [bcConj _ bcast_S4_S1x4_1 bcast_S1x4_S1024x4_0_1 k j, cst_at x q j, hq k j, ← EReal.coe_mul]
  rfl

/-! ## The rotation (inverse): blocks of four lanes times the table's quaternions -/

theorem v111_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) (j : Fin 4) :
    v111 x q (ix3 r k j) = ((U r.val (4 * k.val + j.val) : ℝ) : EReal) :=
  (rs_split4 _ shapeCasts_S16384x4096_S16384x1024x4 r k j).trans (hU r ⟨4 * k.val + j.val, by omega⟩)

theorem v113_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (k : Fin 1024) :
    v113 x q (ix1 k) = ((P k.val 0 : ℝ) : EReal) :=
  (comp2 _ 0 (by omega) slices_S1024x4_S1024x1_0_0 shapeCasts_S1024x1_S1024 k).trans (hP k ⟨0, by omega⟩)

theorem v115_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (k : Fin 1024) :
    v115 x q (ix1 k) = ((P k.val 1 : ℝ) : EReal) :=
  (comp2 _ 1 (by omega) slices_S1024x4_S1024x1_0_1 shapeCasts_S1024x1_S1024 k).trans (hP k ⟨1, by omega⟩)

theorem v117_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (k : Fin 1024) :
    v117 x q (ix1 k) = ((P k.val 2 : ℝ) : EReal) :=
  (comp2 _ 2 (by omega) slices_S1024x4_S1024x1_0_2 shapeCasts_S1024x1_S1024 k).trans (hP k ⟨2, by omega⟩)

theorem v119_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (k : Fin 1024) :
    v119 x q (ix1 k) = ((P k.val 3 : ℝ) : EReal) :=
  (comp2 _ 3 (by omega) slices_S1024x4_S1024x1_0_3 shapeCasts_S1024x1_S1024 k).trans (hP k ⟨3, by omega⟩)

theorem v121_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v121 x q (ix2 r k) = ((U r.val (4 * k.val + 0) : ℝ) : EReal) :=
  (comp3 _ 0 (by omega) slices_S16384x1024x4_S16384x1024x1_0_0_0 shapeCasts_S16384x1024x1_S16384x1024 r k).trans (v111_at x q U P hU hP r k ⟨0, by omega⟩)

theorem v123_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v123 x q (ix2 r k) = ((U r.val (4 * k.val + 1) : ℝ) : EReal) :=
  (comp3 _ 1 (by omega) slices_S16384x1024x4_S16384x1024x1_0_0_1 shapeCasts_S16384x1024x1_S16384x1024 r k).trans (v111_at x q U P hU hP r k ⟨1, by omega⟩)

theorem v125_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v125 x q (ix2 r k) = ((U r.val (4 * k.val + 2) : ℝ) : EReal) :=
  (comp3 _ 2 (by omega) slices_S16384x1024x4_S16384x1024x1_0_0_2 shapeCasts_S16384x1024x1_S16384x1024 r k).trans (v111_at x q U P hU hP r k ⟨2, by omega⟩)

theorem v127_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v127 x q (ix2 r k) = ((U r.val (4 * k.val + 3) : ℝ) : EReal) :=
  (comp3 _ 3 (by omega) slices_S16384x1024x4_S16384x1024x1_0_0_3 shapeCasts_S16384x1024x1_S16384x1024 r k).trans (v111_at x q U P hU hP r k ⟨3, by omega⟩)

theorem v142_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v142 x q (ix2 r k) = ((((P k.val 0 * U r.val (4 * k.val + 0) - P k.val 1 * U r.val (4 * k.val + 1)) - P k.val 2 * U r.val (4 * k.val + 2)) - P k.val 3 * U r.val (4 * k.val + 3) : ℝ) : EReal) := by
  simp only [v142, v138, v134, v130, v129, v128, v133, v132, v131, v137, v136, v135, v141, v140, v139, subf_apply, addf_apply, mulf_apply]
  rw [bcRow (v113 x q) bcast_S1024_S1x1024_1 bcast_S1x1024_S16384x1024_0_1 r k, bcRow (v115 x q) bcast_S1024_S1x1024_1 bcast_S1x1024_S16384x1024_0_1 r k, bcRow (v117 x q) bcast_S1024_S1x1024_1 bcast_S1x1024_S16384x1024_0_1 r k, bcRow (v119 x q) bcast_S1024_S1x1024_1 bcast_S1x1024_S16384x1024_0_1 r k]
  rw [v113_at x q U P hU hP k, v115_at x q U P hU hP k, v117_at x q U P hU hP k, v119_at x q U P hU hP k, v121_at x q U P hU hP r k, v123_at x q U P hU hP r k, v125_at x q U P hU hP r k, v127_at x q U P hU hP r k]
  simp only [← EReal.coe_mul, ← EReal.coe_sub, ← EReal.coe_add]

theorem v157_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v157 x q (ix2 r k) = ((((P k.val 0 * U r.val (4 * k.val + 1) + P k.val 1 * U r.val (4 * k.val + 0)) + P k.val 2 * U r.val (4 * k.val + 3)) - P k.val 3 * U r.val (4 * k.val + 2) : ℝ) : EReal) := by
  simp only [v157, v153, v149, v145, v144, v143, v148, v147, v146, v152, v151, v150, v156, v155, v154, subf_apply, addf_apply, mulf_apply]
  rw [bcRow (v113 x q) bcast_S1024_S1x1024_1 bcast_S1x1024_S16384x1024_0_1 r k, bcRow (v115 x q) bcast_S1024_S1x1024_1 bcast_S1x1024_S16384x1024_0_1 r k, bcRow (v117 x q) bcast_S1024_S1x1024_1 bcast_S1x1024_S16384x1024_0_1 r k, bcRow (v119 x q) bcast_S1024_S1x1024_1 bcast_S1x1024_S16384x1024_0_1 r k]
  rw [v113_at x q U P hU hP k, v115_at x q U P hU hP k, v117_at x q U P hU hP k, v119_at x q U P hU hP k, v123_at x q U P hU hP r k, v121_at x q U P hU hP r k, v127_at x q U P hU hP r k, v125_at x q U P hU hP r k]
  simp only [← EReal.coe_mul, ← EReal.coe_sub, ← EReal.coe_add]

theorem v172_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v172 x q (ix2 r k) = ((((P k.val 0 * U r.val (4 * k.val + 2) - P k.val 1 * U r.val (4 * k.val + 3)) + P k.val 2 * U r.val (4 * k.val + 0)) + P k.val 3 * U r.val (4 * k.val + 1) : ℝ) : EReal) := by
  simp only [v172, v168, v164, v160, v159, v158, v163, v162, v161, v167, v166, v165, v171, v170, v169, subf_apply, addf_apply, mulf_apply]
  rw [bcRow (v113 x q) bcast_S1024_S1x1024_1 bcast_S1x1024_S16384x1024_0_1 r k, bcRow (v115 x q) bcast_S1024_S1x1024_1 bcast_S1x1024_S16384x1024_0_1 r k, bcRow (v117 x q) bcast_S1024_S1x1024_1 bcast_S1x1024_S16384x1024_0_1 r k, bcRow (v119 x q) bcast_S1024_S1x1024_1 bcast_S1x1024_S16384x1024_0_1 r k]
  rw [v113_at x q U P hU hP k, v115_at x q U P hU hP k, v117_at x q U P hU hP k, v119_at x q U P hU hP k, v125_at x q U P hU hP r k, v127_at x q U P hU hP r k, v121_at x q U P hU hP r k, v123_at x q U P hU hP r k]
  simp only [← EReal.coe_mul, ← EReal.coe_sub, ← EReal.coe_add]

theorem v187_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) :
    v187 x q (ix2 r k) = ((((P k.val 0 * U r.val (4 * k.val + 3) + P k.val 1 * U r.val (4 * k.val + 2)) - P k.val 2 * U r.val (4 * k.val + 1)) + P k.val 3 * U r.val (4 * k.val + 0) : ℝ) : EReal) := by
  simp only [v187, v183, v179, v175, v174, v173, v178, v177, v176, v182, v181, v180, v186, v185, v184, subf_apply, addf_apply, mulf_apply]
  rw [bcRow (v113 x q) bcast_S1024_S1x1024_1 bcast_S1x1024_S16384x1024_0_1 r k, bcRow (v115 x q) bcast_S1024_S1x1024_1 bcast_S1x1024_S16384x1024_0_1 r k, bcRow (v117 x q) bcast_S1024_S1x1024_1 bcast_S1x1024_S16384x1024_0_1 r k, bcRow (v119 x q) bcast_S1024_S1x1024_1 bcast_S1x1024_S16384x1024_0_1 r k]
  rw [v113_at x q U P hU hP k, v115_at x q U P hU hP k, v117_at x q U P hU hP k, v119_at x q U P hU hP k, v127_at x q U P hU hP r k, v125_at x q U P hU hP r k, v123_at x q U P hU hP r k, v121_at x q U P hU hP r k]
  simp only [← EReal.coe_mul, ← EReal.coe_sub, ← EReal.coe_add]

theorem v192_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (k : Fin 1024) (j : Fin 4) :
    v192 x q (ix3 r k j) = ((Cert.QuantModel.ham (P k.val) (fun i => U r.val (4 * k.val + i)) j.val : ℝ) : EReal) := by
  match j with
  | ⟨0, _⟩ =>
    exact ((concat4_0 (v188 x q) (v189 x q) (v190 x q) (v191 x q) concatenates_S16384x1024x1_S16384x1024x1_S16384x1024x1_S16384x1024x1_S16384x1024x4_d2 r k).trans
      ((bcUnit3 _ bcast_S16384x1024_S16384x1024x1_0_1 r k 0).trans (v142_at x q U P hU hP r k)))
  | ⟨1, _⟩ =>
    exact ((concat4_1 (v188 x q) (v189 x q) (v190 x q) (v191 x q) concatenates_S16384x1024x1_S16384x1024x1_S16384x1024x1_S16384x1024x1_S16384x1024x4_d2 r k).trans
      ((bcUnit3 _ bcast_S16384x1024_S16384x1024x1_0_1 r k 0).trans (v157_at x q U P hU hP r k)))
  | ⟨2, _⟩ =>
    exact ((concat4_2 (v188 x q) (v189 x q) (v190 x q) (v191 x q) concatenates_S16384x1024x1_S16384x1024x1_S16384x1024x1_S16384x1024x1_S16384x1024x4_d2 r k).trans
      ((bcUnit3 _ bcast_S16384x1024_S16384x1024x1_0_1 r k 0).trans (v172_at x q U P hU hP r k)))
  | ⟨3, _⟩ =>
    exact ((concat4_3 (v188 x q) (v189 x q) (v190 x q) (v191 x q) concatenates_S16384x1024x1_S16384x1024x1_S16384x1024x1_S16384x1024x1_S16384x1024x4_d2 r k).trans
      ((bcUnit3 _ bcast_S16384x1024_S16384x1024x1_0_1 r k 0).trans (v187_at x q U P hU hP r k)))

/-- Lane l of the rotated row: component l % 4 of the product of quaternion l / 4 with block l / 4. -/
theorem v193_at (x : (⟨S16384x4096, .f32⟩ : BufTy).Contents (Elt Ideal)) (q : (⟨S1024x4, .f32⟩ : BufTy).Contents (Elt Ideal)) (U P : ℕ → ℕ → ℝ)
    (hU : ∀ (r : Fin 16384) (l : Fin 4096), v107 x q (ix2 r l) = ((U r.val l.val : ℝ) : EReal))
    (hP : ∀ (k : Fin 1024) (j : Fin 4), v110 x q (ix2 k j) = ((P k.val j.val : ℝ) : EReal)) (r : Fin 16384) (l : Fin 4096) :
    v193 x q (ix2 r l) = ((Cert.QuantModel.rot P (U r.val) l.val : ℝ) : EReal) :=
  (rs_merge4 _ shapeCasts_S16384x1024x4_S16384x4096 r l).trans (v192_at x q U P hU hP r ⟨l.val / 4, by omega⟩ ⟨l.val % 4, by omega⟩)

/-! ## The three results -/

/-- The first result at row r, lane l. -/
theorem out0_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (l : Fin 4096) :
    out0 x q (ix2 r l) = ((Cert.QuantModel.refOut eR xr qr r.val l.val : ℝ) : EReal) := by
  simp only [out0, v195, v194, mulf_apply]
  rw [bcCol _ bcast_S16384x1_S16384x4096_0_1 r l, v193_at x q (fun r l => Cert.QuantModel.refQuant eR xr qr r l) (Cert.QuantModel.conj qr)
      (fun r l => v107_read x q xr hx qr hq r l) (fun k j => v110_at x q qr hq k j) r l,
    v2_at x q xr hx r 0, ← EReal.coe_mul]
  rfl

/-- The second result at row r, group g. -/
theorem out1_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (qr : ℕ → ℕ → ℝ) (hq : ∀ (k : Fin 1024) (j : Fin 4), q (ix2 k j) = ((qr k.val j.val : ℝ) : EReal)) (r : Fin 16384) (g : Fin 32) :
    out1 x q (ix2 r g) = ((Cert.QuantModel.refScale eR xr qr r.val g.val : ℝ) : EReal) := by
  simp only [out1]
  exact v92_read x q xr hx qr hq r g

/-- The third result at row r. -/
theorem out2_at (x : (⟨S16384x4096, .f32⟩ : BufTy).Contents (Elt Ideal)) (q : (⟨S1024x4, .f32⟩ : BufTy).Contents (Elt Ideal)) (xr : ℕ → ℕ → ℝ) (hx : ∀ (r : Fin 16384) (l : Fin 4096), x (ix2 r l) = ((xr r.val l.val : ℝ) : EReal)) (r : Fin 16384) :
    out2 x q (ix1 r) = ((Cert.QuantModel.nrm eR xr r.val : ℝ) : EReal) := by
  simp only [out2]
  exact (rsCol _ shapeCasts_S16384x1_S16384 r).trans (v2_at x q xr hx r 0)

/-! ## The same, from the entries given index by index -/

theorem out0_read (x : (⟨S16384x4096, .f32⟩ : BufTy).Contents (Elt Ideal)) (q : (⟨S1024x4, .f32⟩ : BufTy).Contents (Elt Ideal)) (xr qr : ℕ → ℕ → ℝ)
    (hx : ∀ i, x i = ((xr (i 0).val (i 1).val : ℝ) : EReal)) (hq : ∀ i, q i = ((qr (i 0).val (i 1).val : ℝ) : EReal))
    (r : Fin 16384) (l : Fin 4096) :
    out0 x q (ix2 r l) = ((Cert.QuantModel.refOut eR xr qr r.val l.val : ℝ) : EReal) :=
  out0_at x q xr (fun r l => hx (ix2 r l)) qr (fun k j => hq (ix2 k j)) r l

theorem out1_read (x : (⟨S16384x4096, .f32⟩ : BufTy).Contents (Elt Ideal)) (q : (⟨S1024x4, .f32⟩ : BufTy).Contents (Elt Ideal)) (xr qr : ℕ → ℕ → ℝ)
    (hx : ∀ i, x i = ((xr (i 0).val (i 1).val : ℝ) : EReal)) (hq : ∀ i, q i = ((qr (i 0).val (i 1).val : ℝ) : EReal))
    (r : Fin 16384) (g : Fin 32) :
    out1 x q (ix2 r g) = ((Cert.QuantModel.refScale eR xr qr r.val g.val : ℝ) : EReal) :=
  out1_at x q xr (fun r l => hx (ix2 r l)) qr (fun k j => hq (ix2 k j)) r g

theorem out2_read (x : (⟨S16384x4096, .f32⟩ : BufTy).Contents (Elt Ideal)) (q : (⟨S1024x4, .f32⟩ : BufTy).Contents (Elt Ideal)) (xr qr : ℕ → ℕ → ℝ)
    (hx : ∀ i, x i = ((xr (i 0).val (i 1).val : ℝ) : EReal)) (hq : ∀ i, q i = ((qr (i 0).val (i 1).val : ℝ) : EReal))
    (r : Fin 16384) :
    out2 x q (ix1 r) = ((Cert.QuantModel.nrm eR xr r.val : ℝ) : EReal) :=
  out2_at x q xr (fun r l => hx (ix2 r l)) r

end Cert.ReferenceIdeal.RefValue

end
-- ==== Proof.lean ====
/-
  The certificate: a row-wise 1-bit quantiser in a rotated basis, as one Pallas kernel, against its jnp reference.

  Per row x of 4096 lanes: n = max(‖x‖, ε); rotate every aligned block of four lanes by its unit quaternion (a Hamilton
  product); per group of 128 lanes take the mean absolute value of the rotated unit row; replace every rotated entry
  by its sign (zero counted positive) times the mean clamped below by ε; rotate back by the conjugate quaternion;
  multiply by n.  The kernel writes the rotation as seven cyclic lane rotations of the row, each times a coefficient row
  that vanishes wherever the rotation would cross a block boundary; takes the group sums and spreads them back over the
  lanes by products with the 0/1 group-membership matrix; and, the rotation being linear, never divides the row by n but
  moves the factor n across.  Over the reals, for finite inputs (so that n ≥ ε > 0 is a real number and every product
  and sum is finite), the two agree: the rotation identity lane by lane, |a / n| = |a| / n, sign(a / n) = sign(a),
  max(S/128, ε n) = max(S/(128 n), ε) n, and linearity of the Hamilton product.

  The three frames: each kernel program is host operations, one region over 128 row blocks, one reshape; the body loads
  its four input blocks whole and stores its three output blocks whole.  The reference is a straight line of host
  operations with two outlined calls.  The idealisation rewrote nothing, so its preservation claim is trivial.
-/
import proofs.«126109_g61838939127936_pilotgen1_510_3_alg».proof.Defs
import proofs.«126109_g61838939127936_pilotgen1_510_3_alg».proof.Proof.Gen.Kernel
import proofs.«126109_g61838939127936_pilotgen1_510_3_alg».proof.Proof.Gen.KernelIdeal
import proofs.«126109_g61838939127936_pilotgen1_510_3_alg».proof.Proof.Gen.ReferenceIdeal
import proofs.«126109_g61838939127936_pilotgen1_510_3_alg».proof.Proof.Gen.Pre_finite_inputs
import proofs.«126109_g61838939127936_pilotgen1_510_3_alg».proof.Proof.BPost
import proofs.«126109_g61838939127936_pilotgen1_510_3_alg».proof.Proof.KValue
import proofs.«126109_g61838939127936_pilotgen1_510_3_alg».proof.Proof.KFinite
import proofs.«126109_g61838939127936_pilotgen1_510_3_alg».proof.Proof.RefRun
import proofs.«126109_g61838939127936_pilotgen1_510_3_alg».proof.Proof.RefReadC
import proofs.«126109_g61838939127936_pilotgen1_510_3_alg».proof.Proof.RealBridge

set_option maxRecDepth 16384

noncomputable section

namespace Cert.Proof

open Idealize.ShloMosaic Idealize.ShloMosaic.ValueIdx Idealize.SL.Sem
open Cert.QuantModel Cert.Eps

/-- An array of two axes whose entries are real numbers is the coercion of a real function of its two coordinates. -/
theorem exists_real_array2 {a b : ℕ} (X : (⟨2, ![a, b]⟩ : Shape).Idx → EReal) (h : ∀ i, ∃ r : ℝ, X i = (r : EReal)) :
    ∃ xr : ℕ → ℕ → ℝ, ∀ i, X i = ((xr (i 0).val (i 1).val : ℝ) : EReal) := by
  choose f hf using h
  refine ⟨fun r l => if hh : r < a ∧ l < b then f (ix2 ⟨r, hh.1⟩ ⟨l, hh.2⟩) else 0, fun i => ?_⟩
  have hi : (i 0).val < a ∧ (i 1).val < b := ⟨(i 0).isLt, (i 1).isLt⟩
  show X i = ((if hh : (i 0).val < a ∧ (i 1).val < b then f (ix2 ⟨(i 0).val, hh.1⟩ ⟨(i 1).val, hh.2⟩) else 0 : ℝ) : EReal)
  rw [dif_pos hi]
  conv_lhs => rw [eq_ix2 i]
  exact hf _

theorem frame_k : @Cert.frame_Kernel Cert.Kernel.Gen.facts Cert.Pre_finite_inputs.Gen.facts :=
  fun m ρ _ => Cert.Kernel.Hand.frame m ρ
theorem frame_ki : @Cert.frame_KernelIdeal Cert.KernelIdeal.Gen.facts Cert.Pre_finite_inputs.Gen.facts :=
  fun m ρ _ => Cert.KernelIdeal.Hand.frame m ρ

/-- Both idealized programs end, from memories agreeing on the two arguments, with the model's results — the kernel's
    form on one side, the reference's on the other — which are equal real numbers at every index. -/
theorem algebraic : @Cert.algebraic_KernelIdeal_ReferenceIdeal Cert.KernelIdeal.Gen.facts Cert.ReferenceIdeal.Gen.facts Cert.Pre_finite_inputs.Gen.facts := by
  intro m ρ m' ρ' hpre hagree
  have hfin := fun c => Cert.Finite.finite_of_pre (hP := Cert.Pre_finite_inputs.Gen.facts) _ _ (hpre c)
  choose xr hX using fun c => exists_real_array2 _ (hfin c).1
  choose qr hQ using fun c => exists_real_array2 _ (hfin c).2
  refine ⟨fun c => Cert.KernelIdeal.Hand.G4 (xr c) (qr c), fun c => Cert.KernelIdeal.Hand.G5 (xr c) (qr c),
    fun c => Cert.KernelIdeal.Hand.G7 (xr c), Cert.KernelIdeal.Hand.run_value m ρ xr qr hX hQ, ?_⟩
  refine (θ_run Cert.ReferenceIdeal.defs _ _).mono (fun r h c => ?_) (Cert.ReferenceIdeal.RefValue.run (F := Ideal) m' ρ')
  obtain ⟨h0, h1, h2, h3, h4⟩ := h c
  refine ⟨h0.trans ?_, h1.trans ?_, h2.trans ?_, h3, h4⟩
  · rw [(hagree c).1, (hagree c).2]
    funext i
    obtain ⟨r', l, rfl⟩ : ∃ (r' : Fin 16384) (l : Fin 4096), i = ix2 r' l := ⟨i 0, i 1, eq_ix2 i⟩
    rw [Cert.ReferenceIdeal.RefValue.out0_read _ _ (xr c) (qr c) (hX c) (hQ c) r' l]
    show _ = ((kOut eR (xr c) (qr c) r'.val l.val : ℝ) : EReal)
    rw [kOut_eq_refOut eR eR_pos (xr c) (qr c) r'.val l.val l.isLt]
  · rw [(hagree c).1, (hagree c).2]
    funext i
    obtain ⟨r', g, rfl⟩ : ∃ (r' : Fin 16384) (g : Fin 32), i = ix2 r' g := ⟨i 0, i 1, eq_ix2 i⟩
    rw [Cert.ReferenceIdeal.RefValue.out1_read _ _ (xr c) (qr c) (hX c) (hQ c) r' g]
    show _ = ((kScale eR (xr c) (qr c) r'.val g.val : ℝ) : EReal)
    rw [kScale_eq_refScale eR eR_pos (xr c) (qr c) r'.val g.val g.isLt]
  · rw [(hagree c).1, (hagree c).2]
    funext i
    obtain ⟨r', rfl⟩ : ∃ r' : Fin 16384, i = ix1 r' := ⟨i 0, eq_ix1 i⟩
    rw [Cert.ReferenceIdeal.RefValue.out2_read _ _ (xr c) (qr c) (hX c) (hQ c) r']
    rfl

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame, trivial, algebraic⟩

end Cert.Proof

end
